-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S25000 : Shape := ⟨1, ![25000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S256x128 .f32) (main_arg12 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg11
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256 .f32) (main_arg10 : FVec F S256 .f32) (main_arg11 : FVec F S256x128 .f32) (main_arg12 : FVec F S128 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x128 .f32) (main_arg12 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x256 .f32) (main_arg1 : FVec F S800000 .f32) (main_arg2 : FVec F S256x256 .f32) (main_arg3 : FVec F S256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x128 .f32) (main_arg12 : FVec F S128 .f32) (main_arg13 : IVec S800000 32) (main_arg14 : IVec S800000 32) (main_arg15 : IVec S25000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S25000 : Shape := ⟨1, ![25000]⟩
abbrev S1x256 : Shape := ⟨2, ![1, 256]⟩
abbrev S2000x256 : Shape := ⟨2, ![2000, 256]⟩
abbrev S800000x1 : Shape := ⟨2, ![800000, 1]⟩
abbrev S_ : Shape := ⟨0, ![]⟩
abbrev S800000x256 : Shape := ⟨2, ![800000, 256]⟩
abbrev S1x128 : Shape := ⟨2, ![1, 128]⟩
abbrev S50000x128 : Shape := ⟨2, ![50000, 128]⟩
abbrev S2000x128 : Shape := ⟨2, ![2000, 128]⟩
abbrev S25000x1 : Shape := ⟨2, ![25000, 1]⟩
abbrev S25000x128 : Shape := ⟨2, ![25000, 128]⟩

abbrev nBuf : Space → Nat
  | .hbm => 137
  | .vmem => 34
  | .smem => 0
  | _ => 0

abbrev hbmTy0_0 (i : Nat) : BufTy := match i % 128 with
  | 0 => ⟨S50000x256, .f32⟩
  | 1 => ⟨S800000, .f32⟩
  | 2 => ⟨S256x256, .f32⟩
  | 3 => ⟨S256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x128, .f32⟩
  | 12 => ⟨S128, .f32⟩
  | 13 => ⟨S800000, .i32⟩
  | 14 => ⟨S800000, .i32⟩
  | 15 => ⟨S25000, .i32⟩
  | 16 => ⟨S1x256, .f32⟩
  | 17 => ⟨S50000x256, .f32⟩
  | 18 => ⟨S800000x1, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x256, .f32⟩
  | 28 => ⟨S800000x256, .f32⟩
  | 29 => ⟨S800000x256, .f32⟩
  | 30 => ⟨S_, .f32⟩
  | 31 => ⟨S50000x256, .f32⟩
  | 32 => ⟨S800000x1, .i32⟩
  | 33 => ⟨S50000x256, .f32⟩
  | 34 => ⟨S1x256, .f32⟩
  | 35 => ⟨S50000x256, .f32⟩
  | 36 => ⟨S50000x256, .f32⟩
  | 37 => ⟨S_, .f32⟩
  | 38 => ⟨S256, .f32⟩
  | 39 => ⟨S_, .f32⟩
  | 40 => ⟨S256, .f32⟩
  | 41 => ⟨S256, .f32⟩
  | 42 => ⟨S_, .i32⟩
  | 43 => ⟨S_, .f32⟩
  | 44 => ⟨S256, .f32⟩
  | 45 => ⟨S1x256, .f32⟩
  | 46 => ⟨S_, .f32⟩
  | 47 => ⟨S1x256, .f32⟩
  | 48 => ⟨S1x256, .f32⟩
  | 49 => ⟨S50000x256, .f32⟩
  | 50 => ⟨S50000x256, .f32⟩
  | 51 => ⟨S50000x256, .f32⟩
  | 52 => ⟨S_, .f32⟩
  | 53 => ⟨S_, .f32⟩
  | 54 => ⟨S_, .f32⟩
  | 55 => ⟨S_, .f32⟩
  | 56 => ⟨S256, .f32⟩
  | 57 => ⟨S256, .f32⟩
  | 58 => ⟨S256, .f32⟩
  | 59 => ⟨S_, .f32⟩
  | 60 => ⟨S_, .i1⟩
  | 61 => ⟨S_, .f32⟩
  | 62 => ⟨S_, .f32⟩
  | 63 => ⟨S256, .f32⟩
  | 64 => ⟨S256, .f32⟩
  | 65 => ⟨S1x256, .f32⟩
  | 66 => ⟨S1x256, .f32⟩
  | 67 => ⟨S1x256, .f32⟩
  | 68 => ⟨S1x256, .f32⟩
  | 69 => ⟨S50000x256, .f32⟩
  | 70 => ⟨S_, .f32⟩
  | 71 => ⟨S256, .f32⟩
  | 72 => ⟨S1x256, .f32⟩
  | 73 => ⟨S50000x256, .f32⟩
  | 74 => ⟨S800000x1, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .f32⟩
  | 84 => ⟨S800000x256, .f32⟩
  | 85 => ⟨S800000x256, .f32⟩
  | 86 => ⟨S_, .f32⟩
  | 87 => ⟨S50000x256, .f32⟩
  | 88 => ⟨S800000x1, .i32⟩
  | 89 => ⟨S50000x256, .f32⟩
  | 90 => ⟨S1x256, .f32⟩
  | 91 => ⟨S50000x256, .f32⟩
  | 92 => ⟨S50000x256, .f32⟩
  | 93 => ⟨S_, .f32⟩
  | 94 => ⟨S256, .f32⟩
  | 95 => ⟨S_, .f32⟩
  | 96 => ⟨S256, .f32⟩
  | 97 => ⟨S256, .f32⟩
  | 98 => ⟨S_, .i32⟩
  | 99 => ⟨S_, .f32⟩
  | 100 => ⟨S256, .f32⟩
  | 101 => ⟨S1x256, .f32⟩
  | 102 => ⟨S_, .f32⟩
  | 103 => ⟨S1x256, .f32⟩
  | 104 => ⟨S1x256, .f32⟩
  | 105 => ⟨S50000x256, .f32⟩
  | 106 => ⟨S50000x256, .f32⟩
  | 107 => ⟨S50000x256, .f32⟩
  | 108 => ⟨S_, .f32⟩
  | 109 => ⟨S_, .f32⟩
  | 110 => ⟨S_, .f32⟩
  | 111 => ⟨S_, .f32⟩
  | 112 => ⟨S256, .f32⟩
  | 113 => ⟨S256, .f32⟩
  | 114 => ⟨S256, .f32⟩
  | 115 => ⟨S_, .f32⟩
  | 116 => ⟨S_, .i1⟩
  | 117 => ⟨S_, .f32⟩
  | 118 => ⟨S_, .f32⟩
  | 119 => ⟨S256, .f32⟩
  | 120 => ⟨S256, .f32⟩
  | 121 => ⟨S1x256, .f32⟩
  | 122 => ⟨S1x256, .f32⟩
  | 123 => ⟨S1x256, .f32⟩
  | 124 => ⟨S1x256, .f32⟩
  | 125 => ⟨S50000x256, .f32⟩
  | 126 => ⟨S1x128, .f32⟩
  | 127 => ⟨S50000x128, .f32⟩
  | _ => ⟨S50000x256, .f32⟩

abbrev hbmTy0_1 (i : Nat) : BufTy := match i % 128 with
  | 0 => ⟨S_, .i32⟩
  | 1 => ⟨S25000, .i32⟩
  | 2 => ⟨S25000, .i1⟩
  | 3 => ⟨S_, .i32⟩
  | 4 => ⟨S25000, .i32⟩
  | 5 => ⟨S25000, .i32⟩
  | 6 => ⟨S25000, .i32⟩
  | 7 => ⟨S25000x1, .i32⟩
  | 8 => ⟨S25000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_4 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_c_5 : Ref sig .tc := ⟨.hbm, 75, rfl⟩
abbrev main_v31 : Ref sig .tc := ⟨.hbm, 76, rfl⟩
abbrev main_v32 : Ref sig .tc := ⟨.hbm, 77, rfl⟩
abbrev main_c_6 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_7 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_8 : Ref sig .tc := ⟨.hbm, 93, rfl⟩
abbrev main_v46 : Ref sig .tc := ⟨.hbm, 94, rfl⟩
abbrev main_cst_9 : Ref sig .tc := ⟨.hbm, 95, rfl⟩
abbrev main_v47 : Ref sig .tc := ⟨.hbm, 96, rfl⟩
abbrev main_v48 : Ref sig .tc := ⟨.hbm, 97, rfl⟩
abbrev main_c_10 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_cst_0 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_cst_1 : Ref sig .tc := ⟨.hbm, 109, rfl⟩
abbrev main_call1_v8 : Ref sig .tc := ⟨.hbm, 110, rfl⟩
abbrev main_call1_cst_2 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_cst_3 : Ref sig .tc := ⟨.hbm, 115, rfl⟩
abbrev main_call1_v12 : Ref sig .tc := ⟨.hbm, 116, rfl⟩
abbrev main_call1_cst_4 : Ref sig .tc := ⟨.hbm, 117, rfl⟩
abbrev main_call1_call0_v0 : Ref sig .tc := ⟨.hbm, 118, rfl⟩
abbrev main_call1_call0_v1 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_c_11 : Ref sig .tc := ⟨.hbm, 128, rfl⟩
abbrev main_v57 : Ref sig .tc := ⟨.hbm, 129, rfl⟩
abbrev main_v58 : Ref sig .tc := ⟨.hbm, 130, rfl⟩
abbrev main_c_12 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  shapeCasts_S2000x256_S2000x256 : S2000x256.ShapeCasts S2000x256
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S25000 : S_.BroadcastsInDim S25000 (![] : Fin 0 → Fin S25000.rank)
  bcast_S25000_S25000x1_0 : S25000.BroadcastsInDim S25000x1 (![0] : Fin 1 → Fin S25000x1.rank)
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S25000x1_S25000x128_1_0_n_n_0_1_1128_wf : GatherDims.WF S50000x128 S25000x1 S25000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S25000x1_S25000x128_1_0_n_n_0_1_1128 : GatherDims S50000x128 S25000x1 S25000x128 where
  offsetDims := [1]
  collapsedSliceDims := [0]
  operandBatchingDims := []
  startIndicesBatchingDims := []
  startIndexMap := [0]
  indexVectorDim := 1
  sliceSizes := ![1, 128]
  wf := gather_S50000x128_S25000x1_S25000x128_1_0_n_n_0_1_1128_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v54) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S25000 : Shape := ⟨1, ![25000]⟩
abbrev S1x256 : Shape := ⟨2, ![1, 256]⟩
abbrev S800000x1 : Shape := ⟨2, ![800000, 1]⟩
abbrev S_ : Shape := ⟨0, ![]⟩
abbrev S800000x256 : Shape := ⟨2, ![800000, 256]⟩
abbrev S50000x128 : Shape := ⟨2, ![50000, 128]⟩
abbrev S1x128 : Shape := ⟨2, ![1, 128]⟩
abbrev S25000x1 : Shape := ⟨2, ![25000, 1]⟩
abbrev S25000x128 : Shape := ⟨2, ![25000, 128]⟩

abbrev nBuf : Space → Nat
  | .hbm => 166
  | .vmem => 0
  | .smem => 0
  | _ => 0

abbrev hbmTy0_0 (i : Nat) : BufTy := match i % 128 with
  | 0 => ⟨S50000x256, .f32⟩
  | 1 => ⟨S800000, .f32⟩
  | 2 => ⟨S256x256, .f32⟩
  | 3 => ⟨S256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x128, .f32⟩
  | 12 => ⟨S128, .f32⟩
  | 13 => ⟨S800000, .i32⟩
  | 14 => ⟨S800000, .i32⟩
  | 15 => ⟨S25000, .i32⟩
  | 16 => ⟨S50000x256, .f32⟩
  | 17 => ⟨S1x256, .f32⟩
  | 18 => ⟨S50000x256, .f32⟩
  | 19 => ⟨S50000x256, .f32⟩
  | 20 => ⟨S800000x1, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x256, .f32⟩
  | 30 => ⟨S800000x256, .f32⟩
  | 31 => ⟨S800000x256, .f32⟩
  | 32 => ⟨S_, .f32⟩
  | 33 => ⟨S50000x256, .f32⟩
  | 34 => ⟨S800000x1, .i32⟩
  | 35 => ⟨S50000x256, .f32⟩
  | 36 => ⟨S1x256, .f32⟩
  | 37 => ⟨S50000x256, .f32⟩
  | 38 => ⟨S50000x256, .f32⟩
  | 39 => ⟨S_, .f32⟩
  | 40 => ⟨S256, .f32⟩
  | 41 => ⟨S_, .f32⟩
  | 42 => ⟨S256, .f32⟩
  | 43 => ⟨S256, .f32⟩
  | 44 => ⟨S_, .i32⟩
  | 45 => ⟨S_, .f32⟩
  | 46 => ⟨S256, .f32⟩
  | 47 => ⟨S1x256, .f32⟩
  | 48 => ⟨S_, .f32⟩
  | 49 => ⟨S1x256, .f32⟩
  | 50 => ⟨S1x256, .f32⟩
  | 51 => ⟨S50000x256, .f32⟩
  | 52 => ⟨S50000x256, .f32⟩
  | 53 => ⟨S50000x256, .f32⟩
  | 54 => ⟨S_, .f32⟩
  | 55 => ⟨S_, .f32⟩
  | 56 => ⟨S_, .f32⟩
  | 57 => ⟨S_, .f32⟩
  | 58 => ⟨S256, .f32⟩
  | 59 => ⟨S256, .f32⟩
  | 60 => ⟨S256, .f32⟩
  | 61 => ⟨S_, .f32⟩
  | 62 => ⟨S_, .i1⟩
  | 63 => ⟨S_, .f32⟩
  | 64 => ⟨S_, .f32⟩
  | 65 => ⟨S256, .f32⟩
  | 66 => ⟨S256, .f32⟩
  | 67 => ⟨S1x256, .f32⟩
  | 68 => ⟨S50000x256, .f32⟩
  | 69 => ⟨S50000x256, .f32⟩
  | 70 => ⟨S_, .f32⟩
  | 71 => ⟨S256, .f32⟩
  | 72 => ⟨S256, .f32⟩
  | 73 => ⟨S256, .f32⟩
  | 74 => ⟨S1x256, .f32⟩
  | 75 => ⟨S50000x256, .f32⟩
  | 76 => ⟨S50000x256, .f32⟩
  | 77 => ⟨S1x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S_, .f32⟩
  | 84 => ⟨S50000x256, .f32⟩
  | 85 => ⟨S50000x256, .f32⟩
  | 86 => ⟨S50000x256, .f32⟩
  | 87 => ⟨S800000x1, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x256, .f32⟩
  | 97 => ⟨S800000x256, .f32⟩
  | 98 => ⟨S800000x256, .f32⟩
  | 99 => ⟨S_, .f32⟩
  | 100 => ⟨S50000x256, .f32⟩
  | 101 => ⟨S800000x1, .i32⟩
  | 102 => ⟨S50000x256, .f32⟩
  | 103 => ⟨S1x256, .f32⟩
  | 104 => ⟨S50000x256, .f32⟩
  | 105 => ⟨S50000x256, .f32⟩
  | 106 => ⟨S_, .f32⟩
  | 107 => ⟨S256, .f32⟩
  | 108 => ⟨S_, .f32⟩
  | 109 => ⟨S256, .f32⟩
  | 110 => ⟨S256, .f32⟩
  | 111 => ⟨S_, .i32⟩
  | 112 => ⟨S_, .f32⟩
  | 113 => ⟨S256, .f32⟩
  | 114 => ⟨S1x256, .f32⟩
  | 115 => ⟨S_, .f32⟩
  | 116 => ⟨S1x256, .f32⟩
  | 117 => ⟨S1x256, .f32⟩
  | 118 => ⟨S50000x256, .f32⟩
  | 119 => ⟨S50000x256, .f32⟩
  | 120 => ⟨S50000x256, .f32⟩
  | 121 => ⟨S_, .f32⟩
  | 122 => ⟨S_, .f32⟩
  | 123 => ⟨S_, .f32⟩
  | 124 => ⟨S_, .f32⟩
  | 125 => ⟨S256, .f32⟩
  | 126 => ⟨S256, .f32⟩
  | 127 => ⟨S256, .f32⟩
  | _ => ⟨S50000x256, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S256, .f32⟩
  | 5 => ⟨S256, .f32⟩
  | 6 => ⟨S1x256, .f32⟩
  | 7 => ⟨S50000x256, .f32⟩
  | 8 => ⟨S50000x256, .f32⟩
  | 9 => ⟨S_, .f32⟩
  | 10 => ⟨S256, .f32⟩
  | 11 => ⟨S256, .f32⟩
  | 12 => ⟨S256, .f32⟩
  | 13 => ⟨S1x256, .f32⟩
  | 14 => ⟨S50000x256, .f32⟩
  | 15 => ⟨S50000x256, .f32⟩
  | 16 => ⟨S1x256, .f32⟩
  | 17 => ⟨S50000x256, .f32⟩
  | 18 => ⟨S50000x256, .f32⟩
  | 19 => ⟨S1x256, .f32⟩
  | 20 => ⟨S50000x256, .f32⟩
  | 21 => ⟨S50000x256, .f32⟩
  | 22 => ⟨S_, .f32⟩
  | 23 => ⟨S50000x256, .f32⟩
  | 24 => ⟨S50000x256, .f32⟩
  | 25 => ⟨S50000x128, .f32⟩
  | 26 => ⟨S1x128, .f32⟩
  | 27 => ⟨S50000x128, .f32⟩
  | 28 => ⟨S50000x128, .f32⟩
  | 29 => ⟨S_, .i32⟩
  | 30 => ⟨S25000, .i32⟩
  | 31 => ⟨S25000, .i1⟩
  | 32 => ⟨S_, .i32⟩
  | 33 => ⟨S25000, .i32⟩
  | 34 => ⟨S25000, .i32⟩
  | 35 => ⟨S25000, .i32⟩
  | 36 => ⟨S25000x1, .i32⟩
  | 37 => ⟨S25000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_c_3 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_4 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_call1_cst : Ref sig .tc := ⟨.hbm, 83, rfl⟩
abbrev main_call1_v0 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_c_5 : Ref sig .tc := ⟨.hbm, 88, rfl⟩
abbrev main_v42 : Ref sig .tc := ⟨.hbm, 89, rfl⟩
abbrev main_v43 : Ref sig .tc := ⟨.hbm, 90, rfl⟩
abbrev main_c_6 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_7 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_8 : Ref sig .tc := ⟨.hbm, 106, rfl⟩
abbrev main_v57 : Ref sig .tc := ⟨.hbm, 107, rfl⟩
abbrev main_cst_9 : Ref sig .tc := ⟨.hbm, 108, rfl⟩
abbrev main_v58 : Ref sig .tc := ⟨.hbm, 109, rfl⟩
abbrev main_v59 : Ref sig .tc := ⟨.hbm, 110, rfl⟩
abbrev main_c_10 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_cst_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_cst_1 : Ref sig .tc := ⟨.hbm, 122, rfl⟩
abbrev main_call2_v8 : Ref sig .tc := ⟨.hbm, 123, rfl⟩
abbrev main_call2_cst_2 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_cst_3 : Ref sig .tc := ⟨.hbm, 128, rfl⟩
abbrev main_call2_v12 : Ref sig .tc := ⟨.hbm, 129, rfl⟩
abbrev main_call2_cst_4 : Ref sig .tc := ⟨.hbm, 130, rfl⟩
abbrev main_call2_call0_v0 : Ref sig .tc := ⟨.hbm, 131, rfl⟩
abbrev main_call2_call0_v1 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_cst_11 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_call3_cst : Ref sig .tc := ⟨.hbm, 150, rfl⟩
abbrev main_call3_v0 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_c_12 : Ref sig .tc := ⟨.hbm, 157, rfl⟩
abbrev main_v81 : Ref sig .tc := ⟨.hbm, 158, rfl⟩
abbrev main_v82 : Ref sig .tc := ⟨.hbm, 159, rfl⟩
abbrev main_c_13 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S25000 : S_.BroadcastsInDim S25000 (![] : Fin 0 → Fin S25000.rank)
  bcast_S25000_S25000x1_0 : S25000.BroadcastsInDim S25000x1 (![0] : Fin 1 → Fin S25000x1.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S25000x1_S25000x128_1_0_n_n_0_1_1128_wf : GatherDims.WF S50000x128 S25000x1 S25000x128 [1] [0] [] [0] [] 1 ![1, 128]

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S25000x1_S25000x128_1_0_n_n_0_1_1128 : GatherDims S50000x128 S25000x1 S25000x128 where
  offsetDims := [1]
  collapsedSliceDims := [0]
  operandBatchingDims := []
  startIndicesBatchingDims := []
  startIndexMap := [0]
  indexVectorDim := 1
  sliceSizes := ![1, 128]
  wf := gather_S50000x128_S25000x1_S25000x128_1_0_n_n_0_1_1128_wf

class Facts : Prop extends Facts₀ where

variable [Facts]
-- ==== Proof.KRun.lean ====
/-
  The kernel program's run with its RESULT array named: every weakly fair execution of @main terminates, nothing
  faulting, the sixteen argument arrays end as launched, and the result array ends holding what the last stretch of host
  operations leaves — the fold `W15` of @main's fifteen segments (five launches among ten stretches of host operations)
  read at the result's buffer. The launch is the one of the frame; only the final reading differs: besides the
  arguments it reads the result's buffer, which is an unscoped buffer like them.
-/
import proofs.«103152_j58858231824590_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the fold's value, the arguments unchanged. -/
theorem run : θ_run defs (onTc (τ := τ) (main (F := F))) ⟨m, fun _ => 0, ρ⟩ (fun r => ∀ c : Dev nD,
      r.2.mem ((c.tc : Thread nD τ).loc main_v63) = W15 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v63 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c)⟩)

end Cert.KernelIdeal.KRun

end
-- ==== Proof.Spec.lean ====
/-
  The network both programs compute, as ONE function of the sixteen argument arrays, written with the host's own
  operations at the ideal instance (floats are extended reals, every operation exact).

  Two graph-convolution layers and a linear head over N = 50000 nodes:
    * `lin x w` is the product of the node features with a weight matrix; `addRow h b` adds the vector `b` to every row;
    * `spmm ev rows cols h` is the sparse aggregation: row `cols e` of `h` (a negative index counted from the end) scaled
      by the edge weight `ev e` is accumulated into row `rows e`, over all edges `e`, starting from zero;
    * `mean h`, `var h` are the column means and the column (population) variances over the nodes, the variance
      guarded the way `jnp.var` guards a non-positive count;
    * `norm h g be mu vr` normalises every column with given statistics: `(h - mu) * rsqrt (vr + eps) * g + be`;
      `relu` clamps at zero; `bnrelu` uses the columns' own statistics;
    * `head x w b` is the final affine map and `pick out idx` selects the rows named by `idx`.
  `refOut` composes them in the order of the source.
-/
import proofs.«103152_j58858231824590_1_alg».proof.ReferenceIdeal
import proofs.«103152_j58858231824590_1_alg».proof.Proof.Gen.ReferenceIdeal
import Idealize.ShloMosaic.PureOps.Ideal

noncomputable section

namespace Cert.Spec

open Idealize.ShloMosaic Cert.ReferenceIdeal Cert.ReferenceIdeal.Facts₀

/-- A float array of shape `S` at the ideal instance. -/
abbrev A (S : Shape) : Type := FVec Ideal S .f32
/-- A 32-bit integer array of shape `S`. -/
abbrev I (S : Shape) : Type := IVec S 32

/-- A vector of 256 laid along the columns of a 50000 × 256 array. -/
def cols256 (b : A S256) : A S50000x256 :=
  broadcastInDim S50000x256 ![0, 1] bcast_S1x256_S50000x256_0_1 (broadcastInDim S1x256 ![1] bcast_S256_S1x256_1 b)

/-- The zero word spread over a 50000 × 256 array. -/
def zeros : A S50000x256 := broadcastInDim S50000x256 ![] bcast_S_S50000x256 (constant (F := Ideal) S_ .f32 0x00000000#32)

def lin (x : A S50000x256) (w : A S256x256) : A S50000x256 :=
  Host.dotGeneral (F := Ideal) dot_S50000x256_S256x256_S50000x256_1_0_0_1_n_n none x w

def addRow (h : A S50000x256) (b : A S256) : A S50000x256 := addf h (cols256 b)

/-- A negative index counts from the end: `i < 0 ? i + 50000 : i`, over the 800000 edges. -/
def wrapE (i : I S800000) : I S800000 :=
  select (cmpi .slt i (broadcastInDim S800000 ![] bcast_S_S800000 (constantI S_ 32 0#32)))
    (addi i (broadcastInDim S800000 ![] bcast_S_S800000 (constantI S_ 32 50000#32))) i

def spmm (ev : A S800000) (rows cols : I S800000) (h : A S50000x256) : A S50000x256 :=
  Host.scatterAdd (F := Ideal) scatter_S50000x256_S800000x1_S800000x256_1_0_0_1 zeros
    (broadcastInDim S800000x1 ![0] bcast_S800000_S800000x1_0 rows)
    (mulf (broadcastInDim S800000x256 ![0, 1] bcast_S800000x1_S800000x256_0_1
            (broadcastInDim S800000x1 ![0] bcast_S800000_S800000x1_0 ev))
          (Host.gather gather_S50000x256_S800000x1_S800000x256_1_0_n_n_0_1_1256 h
            (broadcastInDim S800000x1 ![0] bcast_S800000_S800000x1_0 (wrapE cols))))

def mean (h : A S50000x256) : A S256 :=
  Host.divf (F := Ideal) (Host.reduceAdd (F := Ideal) h (constant (F := Ideal) S_ .f32 0x00000000#32) reducesTo_S50000x256_S256_d0 h_S_)
    (broadcastInDim S256 ![] bcast_S_S256 (constant (F := Ideal) S_ .f32 0x47435000#32))

/-- `50000 - ddof` with `ddof = 0`, as the source computes it. -/
def count : A S_ :=
  subf (constant (F := Ideal) S_ .f32 0x47435000#32) (sitofp (F := Ideal) .f32 (constantI S_ 32 0#32))

def var (h : A S50000x256) : A S256 :=
  select (broadcastInDim S256 ![] bcast_S_S256 (cmpf (F := Ideal) .ogt count (constant (F := Ideal) S_ .f32 0x00000000#32)))
    (Host.divf (F := Ideal)
      (Host.reduceAdd (F := Ideal)
        (mulf
          (subf h (broadcastInDim S50000x256 ![0, 1] bcast_S1x256_S50000x256_0_1
            (Host.divf (F := Ideal)
              (broadcastInDim S1x256 ![1] bcast_S256_S1x256_1
                (Host.reduceAdd (F := Ideal) h (constant (F := Ideal) S_ .f32 0x00000000#32) reducesTo_S50000x256_S256_d0 h_S_))
              (broadcastInDim S1x256 ![] bcast_S_S1x256 (constant (F := Ideal) S_ .f32 0x47435000#32)))))
          (subf h (broadcastInDim S50000x256 ![0, 1] bcast_S1x256_S50000x256_0_1
            (Host.divf (F := Ideal)
              (broadcastInDim S1x256 ![1] bcast_S256_S1x256_1
                (Host.reduceAdd (F := Ideal) h (constant (F := Ideal) S_ .f32 0x00000000#32) reducesTo_S50000x256_S256_d0 h_S_))
              (broadcastInDim S1x256 ![] bcast_S_S1x256 (constant (F := Ideal) S_ .f32 0x47435000#32))))))
        (constant (F := Ideal) S_ .f32 0x00000000#32) reducesTo_S50000x256_S256_d0 h_S_)
      (broadcastInDim S256 ![] bcast_S_S256 count))
    (broadcastInDim S256 ![] bcast_S_S256 (id (constant (F := Ideal) S_ .f32 0x7FC00000#32)))

def norm (h : A S50000x256) (g be mu vr : A S256) : A S50000x256 :=
  addf (mulf (mulf (subf h (cols256 mu))
      (cols256 (Host.rsqrt (F := Ideal) (addf vr (broadcastInDim S256 ![] bcast_S_S256 (constant (F := Ideal) S_ .f32 0x3727C5AC#32))))))
      (cols256 g)) (cols256 be)

def relu (h : A S50000x256) : A S50000x256 := maximumf h zeros

def bnrelu (h : A S50000x256) (g be : A S256) : A S50000x256 := relu (norm h g be (mean h) (var h))

def head (x : A S50000x256) (w : A S256x128) (b : A S128) : A S50000x128 :=
  addf (Host.dotGeneral (F := Ideal) dot_S50000x256_S256x128_S50000x128_1_0_0_1_n_n none x w)
    (broadcastInDim S50000x128 ![0, 1] bcast_S1x128_S50000x128_0_1 (broadcastInDim S1x128 ![1] bcast_S128_S1x128_1 b))

def pick (out : A S50000x128) (idx : I S25000) : A S25000x128 :=
  Host.gather gather_S50000x128_S25000x1_S25000x128_1_0_n_n_0_1_1128 out
    (broadcastInDim S25000x1 ![0] bcast_S25000_S25000x1_0
      (select (cmpi .slt idx (broadcastInDim S25000 ![] bcast_S_S25000 (constantI S_ 32 0#32)))
        (addi idx (broadcastInDim S25000 ![] bcast_S_S25000 (constantI S_ 32 50000#32))) idx))

/-- One aggregation followed by its bias row. -/
def agg (ev : A S800000) (rows cols : I S800000) (y : A S50000x256) (b : A S256) : A S50000x256 :=
  addRow (spmm ev rows cols y) b

/-- The whole network: the result array as a function of the sixteen arguments, in the order of the signature. -/
def refOut (a0 : A S50000x256) (a1 : A S800000) (a2 : A S256x256) (a3 a4 a5 a6 : A S256) (a7 : A S256x256)
    (a8 a9 a10 : A S256) (a11 : A S256x128) (a12 : A S128) (a13 a14 : I S800000) (a15 : I S25000) : A S25000x128 :=
  pick (head (bnrelu (agg a1 a13 a14 (lin (bnrelu (agg a1 a13 a14 (addRow (lin a0 a2) a3) a4) a5 a6) a7) a8) a9 a10) a11 a12) a15

end Cert.Spec

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.Args.lean ====
/-
  The sixteen argument arrays are written by no host operation and by no launch (a launch reads an argument through an
  input window or not at all), so at every boundary between two segments of @main each argument's buffer still holds
  what it held at the launch.
-/
import proofs.«103152_j58858231824590_1_alg».proof.Proof.Gen.KernelIdeal.Frame

set_option maxRecDepth 16384

noncomputable section

namespace Cert.KernelIdeal.Args

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The argument buffers. -/
def args : List (Ref sig .tc) := [main_arg0, main_arg1, main_arg2, main_arg3, main_arg4, main_arg5, main_arg6, main_arg7, main_arg8, main_arg9, main_arg10, main_arg11, main_arg12, main_arg13, main_arg14, main_arg15]

/-- A stretch of host operations none of which writes `b` leaves `b`'s contents alone. -/
theorem keep (ops : List (HloOp τ sig (Elt F))) (V : Valuation τ sig (Elt F)) (b : Ref sig .tc)
    (h : ops.Forall fun op => Proc.devRef .tc b ∉ op.writes) :
    StableHlo.after ops V (Proc.devRef .tc b) = V (Proc.devRef .tc b) :=
  StableHlo.after_of_forall_not_mem (b := Proc.devRef .tc b) _ _ (List.forall_iff_forall_mem.mp h)

theorem W1_arg (c : Dev nD) : ∀ b ∈ args, W1 m ρ c (Proc.devRef .tc b) = m ((c : Thread nD τ).loc b) := by
  intro b hb
  simp only [args, List.mem_cons, List.not_mem_nil, or_false] at hb
  rcases hb with rfl | rfl | rfl | rfl | rfl | rfl | rfl | rfl | rfl | rfl | rfl | rfl | rfl | rfl | rfl | rfl <;>
    exact keep _ _ _ (by
      simp only [hostOps0, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W2_arg (c : Dev nD) : ∀ b ∈ args, W2 m ρ c (Proc.devRef .tc b) = m ((c : Thread nD τ).loc b) := by
  intro b hb
  refine Eq.trans ?_ (W1_arg m ρ c b hb)
  simp only [args, List.mem_cons, List.not_mem_nil, or_false] at hb
  rcases hb with rfl | rfl | rfl | rfl | rfl | rfl | rfl | rfl | rfl | rfl | rfl | rfl | rfl | rfl | rfl | rfl <;>
    first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))

theorem W3_arg (c : Dev nD) : ∀ b ∈ args, W3 m ρ c (Proc.devRef .tc b) = m ((c : Thread nD τ).loc b) := by
  intro b hb
  refine Eq.trans ?_ (W2_arg m ρ c b hb)
  simp only [args, List.mem_cons, List.not_mem_nil, or_false] at hb
  rcases hb with rfl | rfl | rfl | rfl | rfl | rfl | rfl | rfl | rfl | rfl | rfl | rfl | rfl | rfl | rfl | rfl <;>
    exact keep _ _ _ (by
      simp only [hostOps1, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W4_arg (c : Dev nD) : ∀ b ∈ args, W4 m ρ c (Proc.devRef .tc b) = m ((c : Thread nD τ).loc b) := by
  intro b hb
  refine Eq.trans ?_ (W3_arg m ρ c b hb)
  simp only [args, List.mem_cons, List.not_mem_nil, or_false] at hb
  rcases hb with rfl | rfl | rfl | rfl | rfl | rfl | rfl | rfl | rfl | rfl | rfl | rfl | rfl | rfl | rfl | rfl <;>
    exact keep _ _ _ (by
      simp only [hostOps1_1, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W5_arg (c : Dev nD) : ∀ b ∈ args, W5 m ρ c (Proc.devRef .tc b) = m ((c : Thread nD τ).loc b) := by
  intro b hb
  refine Eq.trans ?_ (W4_arg m ρ c b hb)
  simp only [args, List.mem_cons, List.not_mem_nil, or_false] at hb
  rcases hb with rfl | rfl | rfl | rfl | rfl | rfl | rfl | rfl | rfl | rfl | rfl | rfl | rfl | rfl | rfl | rfl <;>
    exact keep _ _ _ (by
      simp only [hostOps1_2, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W6_arg (c : Dev nD) : ∀ b ∈ args, W6 m ρ c (Proc.devRef .tc b) = m ((c : Thread nD τ).loc b) := by
  intro b hb
  refine Eq.trans ?_ (W5_arg m ρ c b hb)
  simp only [args, List.mem_cons, List.not_mem_nil, or_false] at hb
  rcases hb with rfl | rfl | rfl | rfl | rfl | rfl | rfl | rfl | rfl | rfl | rfl | rfl | rfl | rfl | rfl | rfl <;>
    first
    | exact W6_of_ne m ρ c _ (by decide)

theorem W7_arg (c : Dev nD) : ∀ b ∈ args, W7 m ρ c (Proc.devRef .tc b) = m ((c : Thread nD τ).loc b) := by
  intro b hb
  refine Eq.trans ?_ (W6_arg m ρ c b hb)
  simp only [args, List.mem_cons, List.not_mem_nil, or_false] at hb
  rcases hb with rfl | rfl | rfl | rfl | rfl | rfl | rfl | rfl | rfl | rfl | rfl | rfl | rfl | rfl | rfl | rfl <;>
    exact keep _ _ _ (by
      simp only [hostOps2, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W8_arg (c : Dev nD) : ∀ b ∈ args, W8 m ρ c (Proc.devRef .tc b) = m ((c : Thread nD τ).loc b) := by
  intro b hb
  refine Eq.trans ?_ (W7_arg m ρ c b hb)
  simp only [args, List.mem_cons, List.not_mem_nil, or_false] at hb
  rcases hb with rfl | rfl | rfl | rfl | rfl | rfl | rfl | rfl | rfl | rfl | rfl | rfl | rfl | rfl | rfl | rfl <;>
    first
    | exact W8_of_ne m ρ c _ (by decide)
    | exact (W8_arr m ρ c 1).trans (((dat2 (V7 m ρ) c).arrAt_in 1 rfl _).trans (A_eq2 (V7 m ρ) c 1))

theorem W9_arg (c : Dev nD) : ∀ b ∈ args, W9 m ρ c (Proc.devRef .tc b) = m ((c : Thread nD τ).loc b) := by
  intro b hb
  refine Eq.trans ?_ (W8_arg m ρ c b hb)
  simp only [args, List.mem_cons, List.not_mem_nil, or_false] at hb
  rcases hb with rfl | rfl | rfl | rfl | rfl | rfl | rfl | rfl | rfl | rfl | rfl | rfl | rfl | rfl | rfl | rfl <;>
    exact keep _ _ _ (by
      simp only [hostOps3, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W10_arg (c : Dev nD) : ∀ b ∈ args, W10 m ρ c (Proc.devRef .tc b) = m ((c : Thread nD τ).loc b) := by
  intro b hb
  refine Eq.trans ?_ (W9_arg m ρ c b hb)
  simp only [args, List.mem_cons, List.not_mem_nil, or_false] at hb
  rcases hb with rfl | rfl | rfl | rfl | rfl | rfl | rfl | rfl | rfl | rfl | rfl | rfl | rfl | rfl | rfl | rfl <;>
    exact keep _ _ _ (by
      simp only [hostOps3_1, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W11_arg (c : Dev nD) : ∀ b ∈ args, W11 m ρ c (Proc.devRef .tc b) = m ((c : Thread nD τ).loc b) := by
  intro b hb
  refine Eq.trans ?_ (W10_arg m ρ c b hb)
  simp only [args, List.mem_cons, List.not_mem_nil, or_false] at hb
  rcases hb with rfl | rfl | rfl | rfl | rfl | rfl | rfl | rfl | rfl | rfl | rfl | rfl | rfl | rfl | rfl | rfl <;>
    exact keep _ _ _ (by
      simp only [hostOps3_2, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W12_arg (c : Dev nD) : ∀ b ∈ args, W12 m ρ c (Proc.devRef .tc b) = m ((c : Thread nD τ).loc b) := by
  intro b hb
  refine Eq.trans ?_ (W11_arg m ρ c b hb)
  simp only [args, List.mem_cons, List.not_mem_nil, or_false] at hb
  rcases hb with rfl | rfl | rfl | rfl | rfl | rfl | rfl | rfl | rfl | rfl | rfl | rfl | rfl | rfl | rfl | rfl <;>
    first
    | exact W12_of_ne m ρ c _ (by decide)

theorem W13_arg (c : Dev nD) : ∀ b ∈ args, W13 m ρ c (Proc.devRef .tc b) = m ((c : Thread nD τ).loc b) := by
  intro b hb
  refine Eq.trans ?_ (W12_arg m ρ c b hb)
  simp only [args, List.mem_cons, List.not_mem_nil, or_false] at hb
  rcases hb with rfl | rfl | rfl | rfl | rfl | rfl | rfl | rfl | rfl | rfl | rfl | rfl | rfl | rfl | rfl | rfl <;>
    exact keep _ _ _ (by
      simp only [hostOps4, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W14_arg (c : Dev nD) : ∀ b ∈ args, W14 m ρ c (Proc.devRef .tc b) = m ((c : Thread nD τ).loc b) := by
  intro b hb
  refine Eq.trans ?_ (W13_arg m ρ c b hb)
  simp only [args, List.mem_cons, List.not_mem_nil, or_false] at hb
  rcases hb with rfl | rfl | rfl | rfl | rfl | rfl | rfl | rfl | rfl | rfl | rfl | rfl | rfl | rfl | rfl | rfl <;>
    first
    | exact W14_of_ne m ρ c _ (by decide)
    | exact (W14_arr m ρ c 1).trans (((dat4 (V13 m ρ) c).arrAt_in 1 rfl _).trans (A_eq4 (V13 m ρ) c 1))

end Cert.KernelIdeal.Args

end
-- ==== Proof.FoldHost.lean ====
/-
  What each stretch of host operations of the kernel program leaves in the buffers the launches and the later stretches
  read, as the network's own stages (`Cert.Spec`) of what the stretch found: the bias vectors laid as rows, the two sparse
  aggregations with their column means and variances, the zero row of the second product, and the final row selection.
  Each stretch is read from whatever contents it starts from; nothing is evaluated.
-/
import proofs.«103152_j58858231824590_1_alg».proof.Proof.Gen.KernelIdeal.Frame
import proofs.«103152_j58858231824590_1_alg».proof.Proof.Spec
import proofs.«103152_j58858231824590_1_alg».proof.Proof.LibStretch
import Idealize.ShloMosaic.Lib.StableHlo.Run
import proofs.«103152_j58858231824590_1_alg».proof.Proof.Args
set_option maxRecDepth 16384

noncomputable section

namespace Cert.KernelIdeal.FoldHost

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ### Before the first launch: the first bias vector as a row -/

theorem W1_v0 (c : Dev nD) : W1 m ρ c (Proc.devRef .tc main_v0) = shapeCast S1x256 (W0 m ρ c (Proc.devRef .tc main_arg3)) shapeCasts_S256_S1x256 := by
  show StableHlo.after hostOps0 (W0 m ρ c) (Proc.devRef .tc main_v0) = _
  generalize W0 m ρ c = V
  after_results
  rfl

/-! ### Layer read back: the aggregation and its bias row, the column means, the column variances, the four rows -/

theorem W3_h (c : Dev nD) : W3 m ρ c (Proc.devRef .tc main_v17)
    = Cert.Spec.agg (W2 m ρ c (Proc.devRef .tc main_arg1)) (W2 m ρ c (Proc.devRef .tc main_arg13)) (W2 m ρ c (Proc.devRef .tc main_arg14))
        (W2 m ρ c (Proc.devRef .tc main_v1)) (W2 m ρ c (Proc.devRef .tc main_arg4)) := by
  show StableHlo.after hostOps1 (W2 m ρ c) (Proc.devRef .tc main_v17) = _
  generalize W2 m ρ c = V
  after_results_simp
  rfl

theorem W3_mean (c : Dev nD) : W3 m ρ c (Proc.devRef .tc main_v20) = Cert.Spec.mean (W3 m ρ c (Proc.devRef .tc main_v17)) := by
  rw [W3_h]
  show StableHlo.after hostOps1 (W2 m ρ c) (Proc.devRef .tc main_v20) = _
  generalize W2 m ρ c = V
  after_results_simp
  rfl

theorem W3_c0 (c : Dev nD) : W3 m ρ c (Proc.devRef .tc main_c_3) = constantI S_ 32 0#32 := by
  show StableHlo.after hostOps1 (W2 m ρ c) (Proc.devRef .tc main_c_3) = _
  generalize W2 m ρ c = V
  after_results_simp

/-- Contents read through a typed reference whose type is the buffer's own are the contents. -/
theorem ofBuf_main_v17 (v : main_v17.ty.Contents (Elt Ideal)) :
    (StableHlo.TRef.of main_v17 : StableHlo.TRef sig ⟨S50000x256, .f32⟩).ofBuf v = v := rfl
theorem ofBuf_main_c_3 (v : main_c_3.ty.Contents (Elt Ideal)) :
    (StableHlo.TRef.of main_c_3 : StableHlo.TRef sig ⟨S_, .i32⟩).ofBuf v = v := rfl
theorem toBuf_main_v21 (v : (⟨S256, .f32⟩ : BufTy).Contents (Elt Ideal)) :
    (StableHlo.TRef.of main_v21 : StableHlo.TRef sig ⟨S256, .f32⟩).toBuf v = v := rfl

theorem W4_var (c : Dev nD) : W4 m ρ c (Proc.devRef .tc main_v21) = Cert.Spec.var (W3 m ρ c (Proc.devRef .tc main_v17)) := by
  have hc := W3_c0 m ρ c
  show StableHlo.after hostOps1_1 (W3 m ρ c) (Proc.devRef .tc main_v21) = _
  generalize W3 m ρ c = V at hc ⊢
  after_results_simp
  simp only [Cert.LibStretch.ofBuf_toBuf, ofBuf_main_v17, ofBuf_main_c_3, toBuf_main_v21]
  rw [hc]
  rfl

theorem W4_h (c : Dev nD) : W4 m ρ c (Proc.devRef .tc main_v17) = W3 m ρ c (Proc.devRef .tc main_v17) :=
  Cert.KernelIdeal.Args.keep _ _ _ (by
      simp only [hostOps1_1, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W5_h (c : Dev nD) : W5 m ρ c (Proc.devRef .tc main_v17) = W4 m ρ c (Proc.devRef .tc main_v17) :=
  Cert.KernelIdeal.Args.keep _ _ _ (by
      simp only [hostOps1_2, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W4_mean (c : Dev nD) : W4 m ρ c (Proc.devRef .tc main_v20) = W3 m ρ c (Proc.devRef .tc main_v20) :=
  Cert.KernelIdeal.Args.keep _ _ _ (by
      simp only [hostOps1_1, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W5_rows (c : Dev nD) :
    W5 m ρ c (Proc.devRef .tc main_v22) = shapeCast S1x256 (W4 m ρ c (Proc.devRef .tc main_arg5)) shapeCasts_S256_S1x256
    ∧ W5 m ρ c (Proc.devRef .tc main_v23) = shapeCast S1x256 (W4 m ρ c (Proc.devRef .tc main_arg6)) shapeCasts_S256_S1x256
    ∧ W5 m ρ c (Proc.devRef .tc main_v24) = shapeCast S1x256 (W4 m ρ c (Proc.devRef .tc main_v20)) shapeCasts_S256_S1x256
    ∧ W5 m ρ c (Proc.devRef .tc main_v25) = shapeCast S1x256 (W4 m ρ c (Proc.devRef .tc main_v21)) shapeCasts_S256_S1x256 := by
  refine ⟨?_, ?_, ?_, ?_⟩ <;>
  · show StableHlo.after hostOps1_2 (W4 m ρ c) _ = _
    generalize W4 m ρ c = V
    after_results
    rfl

/-! ### Before the third launch: a zero bias row -/

theorem W7_v28 (c : Dev nD) : W7 m ρ c (Proc.devRef .tc main_v28)
    = shapeCast S1x256 (broadcastInDim S256 ![] bcast_S_S256 (constant (F := Ideal) S_ .f32 0x00000000#32)) shapeCasts_S256_S1x256 := by
  show StableHlo.after hostOps2 (W6 m ρ c) (Proc.devRef .tc main_v28) = _
  generalize W6 m ρ c = V
  after_results
  rfl

theorem W7_v26 (c : Dev nD) : W7 m ρ c (Proc.devRef .tc main_v26) = W6 m ρ c (Proc.devRef .tc main_v26) :=
  Cert.KernelIdeal.Args.keep _ _ _ (by
      simp only [hostOps2, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

end Cert.KernelIdeal.FoldHost

end
-- ==== Proof.FoldHostB.lean ====
/-
  What each stretch of host operations of the kernel program leaves in the buffers the launches and the later stretches
  read, as the network's own stages (`Cert.Spec`) of what the stretch found: the bias vectors laid as rows, the two sparse
  aggregations with their column means and variances, the zero row of the second product, and the final row selection.
  Each stretch is read from whatever contents it starts from; nothing is evaluated.
-/
import proofs.«103152_j58858231824590_1_alg».proof.Proof.Gen.KernelIdeal.Frame
import proofs.«103152_j58858231824590_1_alg».proof.Proof.Spec
import proofs.«103152_j58858231824590_1_alg».proof.Proof.LibStretch
import Idealize.ShloMosaic.Lib.StableHlo.Run
import proofs.«103152_j58858231824590_1_alg».proof.Proof.Args
set_option maxRecDepth 16384

noncomputable section

namespace Cert.KernelIdeal.FoldHost

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ### Layer read back: the aggregation and its bias row, the column means, the column variances, the four rows -/

theorem W9_h (c : Dev nD) : W9 m ρ c (Proc.devRef .tc main_v45)
    = Cert.Spec.agg (W8 m ρ c (Proc.devRef .tc main_arg1)) (W8 m ρ c (Proc.devRef .tc main_arg13)) (W8 m ρ c (Proc.devRef .tc main_arg14))
        (W8 m ρ c (Proc.devRef .tc main_v29)) (W8 m ρ c (Proc.devRef .tc main_arg8)) := by
  show StableHlo.after hostOps3 (W8 m ρ c) (Proc.devRef .tc main_v45) = _
  generalize W8 m ρ c = V
  after_results_simp
  rfl

theorem W9_mean (c : Dev nD) : W9 m ρ c (Proc.devRef .tc main_v48) = Cert.Spec.mean (W9 m ρ c (Proc.devRef .tc main_v45)) := by
  rw [W9_h]
  show StableHlo.after hostOps3 (W8 m ρ c) (Proc.devRef .tc main_v48) = _
  generalize W8 m ρ c = V
  after_results_simp
  rfl

theorem W9_c0 (c : Dev nD) : W9 m ρ c (Proc.devRef .tc main_c_10) = constantI S_ 32 0#32 := by
  show StableHlo.after hostOps3 (W8 m ρ c) (Proc.devRef .tc main_c_10) = _
  generalize W8 m ρ c = V
  after_results_simp

/-- Contents read through a typed reference whose type is the buffer's own are the contents. -/
theorem ofBuf_main_v45 (v : main_v45.ty.Contents (Elt Ideal)) :
    (StableHlo.TRef.of main_v45 : StableHlo.TRef sig ⟨S50000x256, .f32⟩).ofBuf v = v := rfl
theorem ofBuf_main_c_10 (v : main_c_10.ty.Contents (Elt Ideal)) :
    (StableHlo.TRef.of main_c_10 : StableHlo.TRef sig ⟨S_, .i32⟩).ofBuf v = v := rfl
theorem toBuf_main_v49 (v : (⟨S256, .f32⟩ : BufTy).Contents (Elt Ideal)) :
    (StableHlo.TRef.of main_v49 : StableHlo.TRef sig ⟨S256, .f32⟩).toBuf v = v := rfl

theorem W10_var (c : Dev nD) : W10 m ρ c (Proc.devRef .tc main_v49) = Cert.Spec.var (W9 m ρ c (Proc.devRef .tc main_v45)) := by
  have hc := W9_c0 m ρ c
  show StableHlo.after hostOps3_1 (W9 m ρ c) (Proc.devRef .tc main_v49) = _
  generalize W9 m ρ c = V at hc ⊢
  after_results_simp
  simp only [Cert.LibStretch.ofBuf_toBuf, ofBuf_main_v45, ofBuf_main_c_10, toBuf_main_v49]
  rw [hc]
  rfl

theorem W10_h (c : Dev nD) : W10 m ρ c (Proc.devRef .tc main_v45) = W9 m ρ c (Proc.devRef .tc main_v45) :=
  Cert.KernelIdeal.Args.keep _ _ _ (by
      simp only [hostOps3_1, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W11_h (c : Dev nD) : W11 m ρ c (Proc.devRef .tc main_v45) = W10 m ρ c (Proc.devRef .tc main_v45) :=
  Cert.KernelIdeal.Args.keep _ _ _ (by
      simp only [hostOps3_2, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W10_mean (c : Dev nD) : W10 m ρ c (Proc.devRef .tc main_v48) = W9 m ρ c (Proc.devRef .tc main_v48) :=
  Cert.KernelIdeal.Args.keep _ _ _ (by
      simp only [hostOps3_1, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W11_rows (c : Dev nD) :
    W11 m ρ c (Proc.devRef .tc main_v50) = shapeCast S1x256 (W10 m ρ c (Proc.devRef .tc main_arg9)) shapeCasts_S256_S1x256
    ∧ W11 m ρ c (Proc.devRef .tc main_v51) = shapeCast S1x256 (W10 m ρ c (Proc.devRef .tc main_arg10)) shapeCasts_S256_S1x256
    ∧ W11 m ρ c (Proc.devRef .tc main_v52) = shapeCast S1x256 (W10 m ρ c (Proc.devRef .tc main_v48)) shapeCasts_S256_S1x256
    ∧ W11 m ρ c (Proc.devRef .tc main_v53) = shapeCast S1x256 (W10 m ρ c (Proc.devRef .tc main_v49)) shapeCasts_S256_S1x256 := by
  refine ⟨?_, ?_, ?_, ?_⟩ <;>
  · show StableHlo.after hostOps3_2 (W10 m ρ c) _ = _
    generalize W10 m ρ c = V
    after_results
    rfl

/-! ### Before the fifth launch: the head's bias vector as a row; after it: the selected rows -/

theorem W13_v55 (c : Dev nD) : W13 m ρ c (Proc.devRef .tc main_v55) = shapeCast S1x128 (W12 m ρ c (Proc.devRef .tc main_arg12)) shapeCasts_S128_S1x128 := by
  show StableHlo.after hostOps4 (W12 m ρ c) (Proc.devRef .tc main_v55) = _
  generalize W12 m ρ c = V
  after_results
  rfl

theorem W13_v54 (c : Dev nD) : W13 m ρ c (Proc.devRef .tc main_v54) = W12 m ρ c (Proc.devRef .tc main_v54) :=
  Cert.KernelIdeal.Args.keep _ _ _ (by
      simp only [hostOps4, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))

theorem W15_v63 (c : Dev nD) : W15 m ρ c (Proc.devRef .tc main_v63)
    = Cert.Spec.pick (W14 m ρ c (Proc.devRef .tc main_v56)) (W14 m ρ c (Proc.devRef .tc main_arg15)) := by
  show StableHlo.after hostOps5 (W14 m ρ c) (Proc.devRef .tc main_v63) = _
  generalize W14 m ρ c = V
  after_results
  rfl

end Cert.KernelIdeal.FoldHost

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibProduct.lean ====
/-
  A matrix product as ONE function of its two factors, on the extended reals, for any extents.

  * `product x w` is the `[a, k] × [k, b]` product: entry `(i, j)` is the sum over the contracted coordinate `e` of
    `x (i, e) · w (e, j)`; `square h` multiplies every entry by itself.
  * `matmul_rounded_eq`: the matrix unit's product into a zero accumulator of two `f32` factors each rounded to a shorter
    float format on the way in (left factor's last axis against the right factor's first, no batch axis) is `product` of the
    unrounded factors at the ideal instance, where rounding is the identity.
  * `dotGeneral_eq`: the host's `dot_general` with the same dimension numbers is `product`.
  * `product_congr`, `product_square_congr`: two products (the second: of the left factors squared) agree at two indices
    when the rows of the left factors and the columns of the right factors they read agree — the step that turns "the block a
    grid point computes from a row block" into "the same rows of the whole product".

  Only regrouping of a finite sum is used; no finiteness of the entries is needed.
-/
import Idealize.ShloMosaic.Lib.ValueIdx
import Idealize.ShloMosaic.Lib.Pipeline.Value
import Idealize.ShloMosaic.PureOps.Ideal.Laws
import proofs.«103152_j58858231824590_1_alg».proof.Proof.LibRowMax

noncomputable section

namespace Cert.LibProduct

open Idealize.ShloMosaic Idealize.ShloMosaic.ValueIdx
variable {a k b : ℕ}

/-- The product of an `[a, k]` matrix and a `[k, b]` matrix over the extended reals. -/
def product (x : (⟨2, ![a, k]⟩ : Shape).Idx → EReal) (w : (⟨2, ![k, b]⟩ : Shape).Idx → EReal) :
    (⟨2, ![a, b]⟩ : Shape).Idx → EReal :=
  fun i => ∑ e : Fin k, x (ix2 (i 0) e) * w (ix2 e (i 1))

theorem product_apply (x : (⟨2, ![a, k]⟩ : Shape).Idx → EReal) (w : (⟨2, ![k, b]⟩ : Shape).Idx → EReal) (i : Fin a) (j : Fin b) :
    product x w (ix2 i j) = ∑ e : Fin k, x (ix2 i e) * w (ix2 e j) := rfl

/-- Every entry multiplied by itself. -/
def square {s : Shape} (h : s.Idx → EReal) : s.Idx → EReal := fun i => h i * h i

/-- The matrix unit's product of two factors rounded to a shorter format, into a zero accumulator, is the product. -/
theorem matmul_rounded_eq {φ₁ φ₂ : FTy} (wf : DotDims.WF ⟨2, ![a, k]⟩ ⟨2, ![k, b]⟩ ⟨2, ![a, b]⟩ [1] [0] [0] [1] [] [])
    (prec : Option ContractPrecision) (x : FVec Ideal ⟨2, ![a, k]⟩ .f32) (w : FVec Ideal ⟨2, ![k, b]⟩ .f32)
    (h₁ : φ₁.bits < FTy.f32.bits) (h₂ : φ₂.bits < FTy.f32.bits) :
    FloatOps.matmul (Cert.LibRowMax.plainDims a k b wf) prec (truncf φ₁ x h₁) (truncf φ₂ w h₂)
        (constant ⟨2, ![a, b]⟩ .f32 0x00000000#32)
      = product x w := by
  funext j
  obtain ⟨p, q, rfl⟩ : ∃ (p : Fin a) (q : Fin b), j = ix2 p q := ⟨j 0, j 1, eq_ix2 j⟩
  exact Cert.LibRowMax.matmul_plain_apply wf prec (truncf φ₁ x h₁) (truncf φ₂ w h₂) p q

/-- The host's product of two factors is the product. -/
theorem dotGeneral_eq (wf : DotDims.WF ⟨2, ![a, k]⟩ ⟨2, ![k, b]⟩ ⟨2, ![a, b]⟩ [1] [0] [0] [1] [] [])
    (prec : Option ContractPrecision) (sched : HostSchedule) (x : FVec Ideal ⟨2, ![a, k]⟩ .f32) (w : FVec Ideal ⟨2, ![k, b]⟩ .f32) :
    FloatOps.dotGeneral (Cert.LibRowMax.plainDims a k b wf) prec sched x w = product x w := by
  funext j
  obtain ⟨p, q, rfl⟩ : ∃ (p : Fin a) (q : Fin b), j = ix2 p q := ⟨j 0, j 1, eq_ix2 j⟩
  exact Cert.LibRowMax.dotGeneral_plain_apply wf prec sched x w p q

/-! ## Two products agree at two indices when the rows and the columns they read agree -/

theorem product_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product x w j = product X W i :=
  Finset.sum_congr rfl fun e _ => by rw [hx e, hw e]

theorem product_square_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product (square x) w j = product (square X) W i :=
  Finset.sum_congr rfl fun e _ => by
    show x (ix2 (j 0) e) * x (ix2 (j 0) e) * w (ix2 e (j 1)) = X (ix2 (i 0) e) * X (ix2 (i 0) e) * W (ix2 e (i 1))
    rw [hx e, hw e]

end Cert.LibProduct

end
-- ==== Proof.LibBiasRow.lean ====
/-
  A bias row added to a matrix, with or without a clamp at zero, read at an entry given by its coordinates, for any
  extents a × b, on the extended reals, in the two spellings programs print.

  * The vector unit's: the matrix and a `[1, b]` row come through identity casts, the row is broadcast down the `a`
    rows and added; the clamp is the maximum with a splat of the zero word.
  * The host's: a `[1, b]` row broadcast down the `a` rows (`broadcast_in_dim` over both axes) and added; the clamp is
    the maximum with the zero word broadcast from a scalar.
  * A `[b]` vector reshaped to the row `[1, b]` is that vector placed as the row by `broadcast_in_dim`.
  Nothing is rearranged, so nothing needs finiteness.
-/
import proofs.«103152_j58858231824590_1_alg».proof.Proof.LibRowMax
import Idealize.ShloMosaic.Lib.ValueLayout
import Idealize.ShloMosaic.Lib.Pipeline.Value
import Idealize.ShloMosaic.PureOps.Ideal.Laws

noncomputable section

namespace Cert.LibBiasRow

open Idealize.ShloMosaic Idealize.ShloMosaic.ValueIdx Cert.LibRowMax

variable {α : Type} {a b : ℕ}

/-- The host's zero matrix (the zero word broadcast from a scalar) reads the zero word at every entry. -/
theorem host_zero_apply (h0 : (⟨0, ![]⟩ : Shape).BroadcastsInDim ⟨2, ![a, b]⟩ ![]) (p : Fin a) (q : Fin b) :
    broadcastInDim ⟨2, ![a, b]⟩ ![] h0 (constant (F := Ideal) ⟨0, ![]⟩ .f32 0x00000000#32) (ix2 p q)
      = Ideal.ofBits .f32 0x00000000#32 :=
  broadcastInDim_apply _ h0 _ (ix2 p q) ix0 (fun ax => ax.elim0)

/-- The vector unit's bias row added to a matrix, at `(p, q)`. -/
theorem vector_bias_apply (y : FVec Ideal ⟨2, ![a, b]⟩ .f32) (β : FVec Ideal ⟨2, ![1, b]⟩ .f32)
    (hβ : (⟨2, ![1, b]⟩ : Shape).ShapeCasts ⟨2, ![1, b]⟩) (hbc : (⟨2, ![1, b]⟩ : Shape).Broadcasts ⟨2, ![a, b]⟩)
    (p : Fin a) (q : Fin b) :
    addf y (broadcastTo ⟨2, ![a, b]⟩ (shapeCast ⟨2, ![1, b]⟩ β hβ) hbc) (ix2 p q) = y (ix2 p q) + β (ix2 (0 : Fin 1) q) := by
  rw [shapeCast_self]
  show y (ix2 p q) + broadcastTo ⟨2, ![a, b]⟩ β hbc (ix2 p q) = _
  rw [broadcastTo_1b_ab_apply β hbc p q]

/-- The vector unit's bias row added to a matrix and clamped at zero, at `(p, q)`. -/
theorem vector_bias_clamp_apply (x : FVec Ideal ⟨2, ![a, b]⟩ .f32) (β : FVec Ideal ⟨2, ![1, b]⟩ .f32)
    (hx : (⟨2, ![a, b]⟩ : Shape).ShapeCasts ⟨2, ![a, b]⟩)
    (hβ : (⟨2, ![1, b]⟩ : Shape).ShapeCasts ⟨2, ![1, b]⟩) (hbc : (⟨2, ![1, b]⟩ : Shape).Broadcasts ⟨2, ![a, b]⟩)
    (p : Fin a) (q : Fin b) :
    maximumf (addf (shapeCast ⟨2, ![a, b]⟩ x hx) (broadcastTo ⟨2, ![a, b]⟩ (shapeCast ⟨2, ![1, b]⟩ β hβ) hbc))
        (broadcast ⟨2, ![a, b]⟩ (Scalar.ofBits (F := Ideal) .f32 0x00000000#32)) (ix2 p q)
      = max (x (ix2 p q) + β (ix2 (0 : Fin 1) q)) (Ideal.ofBits .f32 0x00000000#32) := by
  rw [shapeCast_self, shapeCast_self]
  show max (x (ix2 p q) + broadcastTo ⟨2, ![a, b]⟩ β hbc (ix2 p q)) (Ideal.ofBits .f32 0x00000000#32) = _
  rw [broadcastTo_1b_ab_apply β hbc p q]

/-- The host's bias row added to a matrix, at `(p, q)`. -/
theorem host_bias_apply (Y : FVec Ideal ⟨2, ![a, b]⟩ .f32) (β : FVec Ideal ⟨2, ![1, b]⟩ .f32)
    (h2 : (⟨2, ![1, b]⟩ : Shape).BroadcastsInDim ⟨2, ![a, b]⟩ ![0, 1]) (p : Fin a) (q : Fin b) :
    addf Y (broadcastInDim ⟨2, ![a, b]⟩ ![0, 1] h2 β) (ix2 p q) = Y (ix2 p q) + β (ix2 (0 : Fin 1) q) := by
  show Y (ix2 p q) + broadcastInDim ⟨2, ![a, b]⟩ ![0, 1] h2 β (ix2 p q) = _
  rw [broadcastInDim_1b_ab_apply β h2 p q]

/-- The host's bias row added to a matrix and clamped at zero, at `(p, q)`. -/
theorem host_bias_clamp_apply (X : FVec Ideal ⟨2, ![a, b]⟩ .f32) (β : FVec Ideal ⟨2, ![1, b]⟩ .f32)
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf X (broadcastInDim ⟨2, ![a, b]⟩ ![0, 1] h2 β))
        (broadcastInDim ⟨2, ![a, b]⟩ ![] h0 (constant (F := Ideal) ⟨0, ![]⟩ .f32 0x00000000#32)) (ix2 p q)
      = max (X (ix2 p q) + β (ix2 (0 : Fin 1) q)) (Ideal.ofBits .f32 0x00000000#32) := by
  show max (X (ix2 p q) + broadcastInDim ⟨2, ![a, b]⟩ ![0, 1] h2 β (ix2 p q))
      (broadcastInDim ⟨2, ![a, b]⟩ ![] h0 (constant (F := Ideal) ⟨0, ![]⟩ .f32 0x00000000#32) (ix2 p q)) = _
  rw [host_zero_apply h0 p q, broadcastInDim_1b_ab_apply β h2 p q]

/-- A `[b]` vector reshaped to the row `[1, b]` is the vector placed as that row. -/
theorem shapeCast_row_eq (v : (⟨1, ![b]⟩ : Shape).Idx → α) (hc : (⟨1, ![b]⟩ : Shape).ShapeCasts ⟨2, ![1, b]⟩)
    (h : (⟨1, ![b]⟩ : Shape).BroadcastsInDim ⟨2, ![1, b]⟩ ![1]) :
    shapeCast ⟨2, ![1, b]⟩ v hc = broadcastInDim ⟨2, ![1, b]⟩ ![1] h v := by
  funext j
  obtain ⟨u, q, rfl⟩ : ∃ (u : Fin 1) (q : Fin b), j = ix2 u q := ⟨j 0, j 1, eq_ix2 j⟩
  rw [broadcastInDim_b_1b_apply v h u q]
  exact shapeCast_a_1a_apply v hc u q

end Cert.LibBiasRow

end
-- ==== Proof.MmValue0.lean ====
/-
  The first matrix-product region as ONE function of its input arrays, on the extended reals.

  The region runs over 25 grid points. Point t reads rows 2000·t … 2000·t + 1999 of the [50000, 256] left factor, the whole
  [256, 256] right factor and the whole [1, 256] bias row, and writes the same rows of the [50000, 256] result. Its body rounds
  both factors to a shorter float format (the identity on the extended reals), multiplies them into a zero accumulator and
  adds the bias row to every row. Entry (p, q) of the block is therefore  Σ_e x(2000·t + p, e) · w(e, q) + row(0, q),
  which is entry (2000·t + p, q) of the product of the whole arrays plus the bias: a row of a product depends only on the
  same row of the left factor. The 25 row blocks tile the result, so the array after the region is that function everywhere.
-/
import proofs.«103152_j58858231824590_1_alg».proof.Proof.Gen.KernelIdeal.Frame
import proofs.«103152_j58858231824590_1_alg».proof.Proof.Spec
import proofs.«103152_j58858231824590_1_alg».proof.Proof.LibProduct
import proofs.«103152_j58858231824590_1_alg».proof.Proof.LibBiasRow
import Idealize.ShloMosaic.Lib.Pipeline.Value
import Idealize.ShloMosaic.Lib.ValueLayout

noncomputable section

namespace Cert.KernelIdeal.MmValue

open Idealize.ShloMosaic Idealize.ShloMosaic.TcCoe Idealize.ShloMosaic.ValueIdx
open Idealize.ShloMosaic.Pipeline (Dat)
open Cert.KernelIdeal Cert.KernelIdeal.Gen
open Cert.LibProduct

/-- The zero offsets of a whole-buffer access, as a constant function. -/
theorem zeroOffsets : (![0, 0] : Fin 2 → Nat) = fun _ => 0 := funext fun a => by fin_cases a <;> rfl

/-! ## The body's value at an entry of the block -/

/-- Entry (p, q) of what the body stores: row p of the left block against column q of the right factor, plus the bias row
    at column q. -/
theorem body0_apply (x0 : Vec Ideal S2000x256 .f32) (x1 : Vec Ideal S256x256 .f32) (x2 : Vec Ideal S1x256 .f32)
    (p : Fin 2000) (q : Fin 256) :
    k0_pay1 x0 x1 x2 (ix2 p q) = product x0 x1 (ix2 p q) + x2 (ix2 (0 : Fin 1) q) := by
  unfold k0_pay1
  refine (Cert.LibBiasRow.vector_bias_apply _ x2 shapeCasts_S1x256_S1x256 broadcasts_S1x256_S2000x256 p q).trans ?_
  exact congrArg (· + x2 (ix2 (0 : Fin 1) q))
    (congrFun (matmul_rounded_eq dot_S2000x256_S256x256_S2000x256_1_0_0_1_n_n_wf none x0 x1 bitsLt_bf16_f32 bitsLt_bf16_f32) (ix2 p q))

/-! ## The specification at an entry of the array -/

/-- Entry (P, q) of the product of the whole arrays with the bias vector added to every row. -/
theorem spec0_apply (x : Cert.Spec.A S50000x256) (w : Cert.Spec.A S256x256) (b : Cert.Spec.A S256) (P : Fin 50000) (q : Fin 256) :
    Cert.Spec.addRow (Cert.Spec.lin x w) b (ix2 P q) = product x w (ix2 P q) + b (ix1 q) := by
  unfold Cert.Spec.addRow Cert.Spec.cols256 Cert.Spec.lin
  refine (Cert.LibBiasRow.host_bias_apply _ _ _ P q).trans ?_
  rw [Cert.LibRowMax.broadcastInDim_b_1b_apply b _ (0 : Fin 1) q]
  exact congrArg (· + b (ix1 q))
    (congrFun (dotGeneral_eq Cert.ReferenceIdeal.Facts₀.dot_S50000x256_S256x256_S50000x256_1_0_0_1_n_n_wf none .single x w) (ix2 P q))

/-! ## The blocks a grid point reads, as entries of the arrays -/

/-- The index maps over the 25 grid points: the row windows move one block down per point, the others stay at the origin. -/
theorem blockIndices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Entry (p, e) of the left block at point t is entry (2000·t + p, e) of the left factor. -/
theorem leftBlock0_apply (c : Dev nD) (t : Fin cfg0.N) (y : S2000x256.Idx) (k : S50000x256.Idx)
    (hk0 : (k 0).val = 2000 * t.val + (y 0).val) (hk1 : (k 1).val = (y 1).val) :
    (iblk0 V c 0 t : Vec Ideal S2000x256 .f32) y = (V c main_arg0 : S50000x256.Idx → Elt Ideal .f32) k := by
  obtain ⟨e0, e1, -⟩ := blockIndices0 t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * (y 0).val = (k 0).val; rw [e0, hk0]; omega
  | ⟨1, _⟩ => show win0_0.index t (1 : Fin 2) * 256 + 1 * (y 1).val = (k 1).val; rw [e1, hk1]; omega

/-- The right block at every point is the whole right factor. -/
theorem rightBlock0_apply (c : Dev nD) (t : Fin cfg0.N) (y : S256x256.Idx) :
    (iblk0 V c 1 t : Vec Ideal S256x256 .f32) y = (V c main_arg2 : S256x256.Idx → Elt Ideal .f32) y := by
  obtain ⟨-, -, e0, e1, -⟩ := blockIndices0 t
  unfold iblk0
  rw [View.read_apply]
  show V c main_arg2 _ = V c main_arg2 _
  refine congrArg (V c main_arg2) (funext fun a => Fin.ext ?_)
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The bias block at every point is the whole bias row. -/
theorem biasBlock0_apply (c : Dev nD) (t : Fin cfg0.N) (y : S1x256.Idx) :
    (iblk0 V c 2 t : Vec Ideal S1x256 .f32) y = (V c main_v0 : S1x256.Idx → Elt Ideal .f32) y := by
  obtain ⟨-, -, -, -, e0, e1, -⟩ := blockIndices0 t
  unfold iblk0
  rw [View.read_apply]
  show V c main_v0 _ = V c main_v0 _
  refine congrArg (V c main_v0) (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-! ## What a grid point writes back -/

/-- Point t writes back rows 2000·t … 2000·t + 1999 of the product of the whole arrays with the bias added. -/
theorem written0_eq (c : Dev nD) (x : Cert.Spec.A S50000x256) (w : Cert.Spec.A S256x256) (b : Cert.Spec.A S256)
    (hx : V c main_arg0 = x) (hw : V c main_arg2 = w) (hb : V c main_v0 = shapeCast S1x256 b shapeCasts_S256_S1x256)
    (t : Fin cfg0.N) :
    (dat0 V c).flushed 3 t = ((cfg0.win 3).blk t).view.read (Elt Ideal) (Cert.Spec.addRow (Cert.Spec.lin x w) b) := by
  show (cfg0.win 3).cut (grid0.coords t) ((dat0 V c).after 3 t) = _
  rw [after0_3]
  unfold out0_3
  rw [View.canon_unit_zero zeroOffsets]
  simp only [View.ld_unit_zero (S := S2000x256) zeroOffsets, View.ld_unit_zero (S := S256x256) zeroOffsets,
    View.ld_unit_zero (S := S1x256) zeroOffsets]
  obtain ⟨-, -, -, -, -, -, e0, e1⟩ := blockIndices0 t
  have ht : t.val < 25 := Nat.lt_of_lt_of_eq t.isLt N_0
  funext j
  obtain ⟨p, q, rfl⟩ : ∃ (p : Fin 2000) (q : Fin 256), j = ix2 p q := ⟨j 0, j 1, eq_ix2 j⟩
  have hp : p.val < 2000 := p.isLt
  -- the array index under entry (p, q) of the block
  have hemb : ((cfg0.win 3).blk t).view.emb (ix2 p q) = ix2 (⟨2000 * t.val + p.val, by omega⟩ : Fin 50000) q := by
    funext a; apply Fin.ext
    match a with
    | ⟨0, _⟩ => show win0_3.index t (0 : Fin 2) * 2000 + 1 * p.val = 2000 * t.val + p.val; rw [e0]; omega
    | ⟨1, _⟩ => show win0_3.index t (1 : Fin 2) * 256 + 1 * q.val = q.val; rw [e1]; omega
  show k0_pay1 (iblk0 V c 0 t) (iblk0 V c 1 t) (iblk0 V c 2 t) (ix2 p q)
    = Cert.Spec.addRow (Cert.Spec.lin x w) b (((cfg0.win 3).blk t).view.emb (ix2 p q))
  rw [hemb]
  refine (body0_apply (iblk0 V c 0 t) (iblk0 V c 1 t) (iblk0 V c 2 t) p q).trans ?_
  refine ((spec0_apply x w b ⟨2000 * t.val + p.val, by omega⟩ q).trans ?_).symm
  refine congrArg₂ (· + ·) ?_ ?_
  · refine (product_congr (iblk0 V c 0 t) (iblk0 V c 1 t) x w (ix2 p q) (ix2 (⟨2000 * t.val + p.val, by omega⟩ : Fin 50000) q)
      (fun e => ?_) (fun e => ?_)).symm
    · rw [← hx]
      exact leftBlock0_apply V c t (ix2 p e) (ix2 (⟨2000 * t.val + p.val, by omega⟩ : Fin 50000) e) rfl rfl
    · rw [← hw]
      exact rightBlock0_apply V c t (ix2 e q)
  · refine Eq.symm ((biasBlock0_apply V c t (ix2 (0 : Fin 1) q)).trans ?_)
    rw [hb]
    exact shapeCast_a_1a_apply b shapeCasts_S256_S1x256 (0 : Fin 1) q

/-! ## The 25 row blocks tile the result -/

/-- An index of the result is in point t's block iff its row is among the block's 2000 rows (and its column among the 256). -/
theorem mem_rowBlock0 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v1).slice (win0_3.rect t)).set ↔ _
  rw [View.set_slice_whole, Rect.mem_set_unit]
  exact Iff.rfl

/-- Every index of the result lies in the block of the point its row divided by 2000 names. -/
theorem rowBlocks0_cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, e0, e1⟩ := blockIndices0 t
  refine ⟨t, flush0_3 t, ?_⟩
  rw [mem_rowBlock0]
  intro a
  match a with
  | ⟨0, _⟩ =>
    show win0_3.index t (0 : Fin 2) * 2000 ≤ (i 0).val ∧ (i 0).val < win0_3.index t (0 : Fin 2) * 2000 + 2000
    rw [e0, ht]; omega
  | ⟨1, _⟩ =>
    show win0_3.index t (1 : Fin 2) * 256 ≤ (i 1).val ∧ (i 1).val < win0_3.index t (1 : Fin 2) * 256 + 256
    rw [e1]; omega

/-! ## The array after the region -/

/-- After the region the result array is the product of the two input arrays with the bias vector added to every row. -/
theorem region0 (c : Dev nD) (x : Cert.Spec.A S50000x256) (w : Cert.Spec.A S256x256) (b : Cert.Spec.A S256)
    (hx : V c main_arg0 = x) (hw : V c main_arg2 = w) (hb : V c main_v0 = shapeCast S1x256 b shapeCasts_S256_S1x256) :
    (dat0 V c).arrAt 3 cfg0.N = Cert.Spec.addRow (Cert.Spec.lin x w) b :=
  (dat0 V c).arrAt_eq_of_cover 3 (Cert.Spec.addRow (Cert.Spec.lin x w) b)
    (fun t _ => written0_eq V c x w b hx hw hb t) rowBlocks0_cover

end Cert.KernelIdeal.MmValue

end
-- ==== Proof.MmValue2.lean ====
/-
  The second matrix-product region as ONE function of its input arrays, on the extended reals.

  The region runs over 25 grid points. Point t reads rows 2000·t … 2000·t + 1999 of the [50000, 256] left factor, the whole
  [256, 256] right factor and the whole [1, 256] bias row, and writes the same rows of the [50000, 256] result. Its body passes
  the left block through a reshape to its own shape (the identity), rounds both factors to a shorter float format (the
  identity on the extended reals), multiplies them into a zero accumulator and adds the bias row to every row. Here the bias
  row is the zero word at every column, and x + 0 = x on the extended reals, so entry (p, q) of the block is
  Σ_e x(2000·t + p, e) · w(e, q): entry (2000·t + p, q) of the product of the whole arrays. The 25 row blocks tile the
  result, so the array after the region is that product everywhere.
-/
import proofs.«103152_j58858231824590_1_alg».proof.Proof.Gen.KernelIdeal.Frame
import proofs.«103152_j58858231824590_1_alg».proof.Proof.Spec
import proofs.«103152_j58858231824590_1_alg».proof.Proof.LibProduct
import proofs.«103152_j58858231824590_1_alg».proof.Proof.LibBiasRow
import Idealize.ShloMosaic.Lib.Pipeline.Value
import Idealize.ShloMosaic.Lib.ValueLayout

noncomputable section

namespace Cert.KernelIdeal.MmValue

open Idealize.ShloMosaic Idealize.ShloMosaic.TcCoe Idealize.ShloMosaic.ValueIdx
open Idealize.ShloMosaic.Pipeline (Dat)
open Cert.KernelIdeal Cert.KernelIdeal.Gen
open Cert.LibProduct

/-- The zero offsets of a whole-buffer access, as a constant function. -/
theorem zeroOffsets2 : (![0, 0] : Fin 2 → Nat) = fun _ => 0 := funext fun a => by fin_cases a <;> rfl

/-! ## The body's value at an entry of the block -/

/-- Entry (p, q) of what the body stores: row p of the left block against column q of the right factor, plus the bias row
    at column q. -/
theorem body2_apply (x0 : Vec Ideal S2000x256 .f32) (x1 : Vec Ideal S256x256 .f32) (x2 : Vec Ideal S1x256 .f32)
    (p : Fin 2000) (q : Fin 256) :
    k2_pay1 x0 x1 x2 (ix2 p q) = product x0 x1 (ix2 p q) + x2 (ix2 (0 : Fin 1) q) := by
  unfold k2_pay1
  refine (Cert.LibBiasRow.vector_bias_apply _ x2 shapeCasts_S1x256_S1x256 broadcasts_S1x256_S2000x256 p q).trans ?_
  refine congrArg (· + x2 (ix2 (0 : Fin 1) q)) ?_
  refine (congrFun (matmul_rounded_eq dot_S2000x256_S256x256_S2000x256_1_0_0_1_n_n_wf none
    (shapeCast S2000x256 x0 shapeCasts_S2000x256_S2000x256) x1 bitsLt_bf16_f32 bitsLt_bf16_f32) (ix2 p q)).trans ?_
  rw [shapeCast_self]

/-! ## The specification at an entry of the array -/

/-- Entry (P, q) of the product of the whole arrays. -/
theorem spec2_apply (x : Cert.Spec.A S50000x256) (w : Cert.Spec.A S256x256) (P : Fin 50000) (q : Fin 256) :
    Cert.Spec.lin x w (ix2 P q) = product x w (ix2 P q) := by
  unfold Cert.Spec.lin
  exact congrFun (dotGeneral_eq Cert.ReferenceIdeal.Facts₀.dot_S50000x256_S256x256_S50000x256_1_0_0_1_n_n_wf none .single x w) (ix2 P q)

/-- The zero word spread over a vector and laid as a row reads zero at every column. -/
theorem zeroRow_apply (q : Fin 256) :
    shapeCast S1x256 (broadcastInDim S256 ![] bcast_S_S256 (constant (F := Ideal) S_ .f32 0x00000000#32)) shapeCasts_S256_S1x256
      (ix2 (0 : Fin 1) q) = 0 := by
  refine (shapeCast_a_1a_apply _ shapeCasts_S256_S1x256 (0 : Fin 1) q).trans ?_
  refine (broadcastInDim_apply _ bcast_S_S256 _ (ix1 q) ix0 (fun ax => ax.elim0)).trans ?_
  exact Ideal.ofBits_zero_f32

/-! ## The blocks a grid point reads, as entries of the arrays -/

/-- The index maps over the 25 grid points: the row windows move one block down per point, the others stay at the origin. -/
theorem blockIndices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Entry (p, e) of the left block at point t is entry (2000·t + p, e) of the left factor. -/
theorem leftBlock2_apply (c : Dev nD) (t : Fin cfg2.N) (y : S2000x256.Idx) (k : S50000x256.Idx)
    (hk0 : (k 0).val = 2000 * t.val + (y 0).val) (hk1 : (k 1).val = (y 1).val) :
    (iblk2 V c 0 t : Vec Ideal S2000x256 .f32) y = (V c main_v26 : S50000x256.Idx → Elt Ideal .f32) k := by
  obtain ⟨e0, e1, -⟩ := blockIndices2 t
  unfold iblk2
  rw [View.read_apply]
  show V c main_v26 _ = V c main_v26 _
  refine congrArg (V c main_v26) (funext fun a => Fin.ext ?_)
  match a with
  | ⟨0, _⟩ => show win2_0.index t (0 : Fin 2) * 2000 + 1 * (y 0).val = (k 0).val; rw [e0, hk0]; omega
  | ⟨1, _⟩ => show win2_0.index t (1 : Fin 2) * 256 + 1 * (y 1).val = (k 1).val; rw [e1, hk1]; omega

/-- The right block at every point is the whole right factor. -/
theorem rightBlock2_apply (c : Dev nD) (t : Fin cfg2.N) (y : S256x256.Idx) :
    (iblk2 V c 1 t : Vec Ideal S256x256 .f32) y = (V c main_arg7 : S256x256.Idx → Elt Ideal .f32) y := by
  obtain ⟨-, -, e0, e1, -⟩ := blockIndices2 t
  unfold iblk2
  rw [View.read_apply]
  show V c main_arg7 _ = V c main_arg7 _
  refine congrArg (V c main_arg7) (funext fun a => Fin.ext ?_)
  match a with
  | ⟨0, _⟩ => show win2_1.index t (0 : Fin 2) * 256 + 1 * (y 0).val = (y 0).val; rw [e0]; omega
  | ⟨1, _⟩ => show win2_1.index t (1 : Fin 2) * 256 + 1 * (y 1).val = (y 1).val; rw [e1]; omega

/-- The bias block at every point is the whole bias row. -/
theorem biasBlock2_apply (c : Dev nD) (t : Fin cfg2.N) (y : S1x256.Idx) :
    (iblk2 V c 2 t : Vec Ideal S1x256 .f32) y = (V c main_v28 : S1x256.Idx → Elt Ideal .f32) y := by
  obtain ⟨-, -, -, -, e0, e1, -⟩ := blockIndices2 t
  unfold iblk2
  rw [View.read_apply]
  show V c main_v28 _ = V c main_v28 _
  refine congrArg (V c main_v28) (funext fun a => Fin.ext ?_)
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

/-! ## What a grid point writes back -/

/-- Point t writes back rows 2000·t … 2000·t + 1999 of the product of the whole arrays. -/
theorem written2_eq (c : Dev nD) (x : Cert.Spec.A S50000x256) (w : Cert.Spec.A S256x256)
    (hx : V c main_v26 = x) (hw : V c main_arg7 = w)
    (hb : V c main_v28 = shapeCast S1x256 (broadcastInDim S256 ![] bcast_S_S256 (constant (F := Ideal) S_ .f32 0x00000000#32)) shapeCasts_S256_S1x256)
    (t : Fin cfg2.N) :
    (dat2 V c).flushed 3 t = ((cfg2.win 3).blk t).view.read (Elt Ideal) (Cert.Spec.lin x w) := by
  show (cfg2.win 3).cut (grid2.coords t) ((dat2 V c).after 3 t) = _
  rw [after2_3]
  unfold out2_3
  rw [View.canon_unit_zero zeroOffsets2]
  simp only [View.ld_unit_zero (S := S2000x256) zeroOffsets2, View.ld_unit_zero (S := S256x256) zeroOffsets2,
    View.ld_unit_zero (S := S1x256) zeroOffsets2]
  obtain ⟨-, -, -, -, -, -, e0, e1⟩ := blockIndices2 t
  have ht : t.val < 25 := Nat.lt_of_lt_of_eq t.isLt N_2
  funext j
  obtain ⟨p, q, rfl⟩ : ∃ (p : Fin 2000) (q : Fin 256), j = ix2 p q := ⟨j 0, j 1, eq_ix2 j⟩
  have hp : p.val < 2000 := p.isLt
  -- the array index under entry (p, q) of the block
  have hemb : ((cfg2.win 3).blk t).view.emb (ix2 p q) = ix2 (⟨2000 * t.val + p.val, by omega⟩ : Fin 50000) q := by
    funext a; apply Fin.ext
    match a with
    | ⟨0, _⟩ => show win2_3.index t (0 : Fin 2) * 2000 + 1 * p.val = 2000 * t.val + p.val; rw [e0]; omega
    | ⟨1, _⟩ => show win2_3.index t (1 : Fin 2) * 256 + 1 * q.val = q.val; rw [e1]; omega
  show k2_pay1 (iblk2 V c 0 t) (iblk2 V c 1 t) (iblk2 V c 2 t) (ix2 p q)
    = Cert.Spec.lin x w (((cfg2.win 3).blk t).view.emb (ix2 p q))
  rw [hemb]
  refine (body2_apply (iblk2 V c 0 t) (iblk2 V c 1 t) (iblk2 V c 2 t) p q).trans ?_
  refine ((spec2_apply x w ⟨2000 * t.val + p.val, by omega⟩ q).trans ?_).symm
  have hzero : (iblk2 V c 2 t : Vec Ideal S1x256 .f32) (ix2 (0 : Fin 1) q) = (0 : EReal) := by
    refine (biasBlock2_apply V c t (ix2 (0 : Fin 1) q)).trans ?_
    rw [hb]
    exact zeroRow_apply q
  rw [hzero, add_zero]
  refine (product_congr (iblk2 V c 0 t) (iblk2 V c 1 t) x w (ix2 p q) (ix2 (⟨2000 * t.val + p.val, by omega⟩ : Fin 50000) q)
    (fun e => ?_) (fun e => ?_)).symm
  · rw [← hx]
    exact leftBlock2_apply V c t (ix2 p e) (ix2 (⟨2000 * t.val + p.val, by omega⟩ : Fin 50000) e) rfl rfl
  · rw [← hw]
    exact rightBlock2_apply V c t (ix2 e q)

/-! ## The 25 row blocks tile the result -/

/-- An index of the result is in point t's block iff its row is among the block's 2000 rows (and its column among the 256). -/
theorem mem_rowBlock2 (t : Fin cfg2.N) (i : S50000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v29).slice (win2_3.rect t)).set ↔ _
  rw [View.set_slice_whole, Rect.mem_set_unit]
  exact Iff.rfl

/-- Every index of the result lies in the block of the point its row divided by 2000 names. -/
theorem rowBlocks2_cover (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, -, -, e0, e1⟩ := blockIndices2 t
  refine ⟨t, flush2_3 t, ?_⟩
  rw [mem_rowBlock2]
  intro a
  match a with
  | ⟨0, _⟩ =>
    show win2_3.index t (0 : Fin 2) * 2000 ≤ (i 0).val ∧ (i 0).val < win2_3.index t (0 : Fin 2) * 2000 + 2000
    rw [e0, ht]; omega
  | ⟨1, _⟩ =>
    show win2_3.index t (1 : Fin 2) * 256 ≤ (i 1).val ∧ (i 1).val < win2_3.index t (1 : Fin 2) * 256 + 256
    rw [e1]; omega

/-! ## The array after the region -/

/-- After the region the result array is the product of the two input arrays (the bias row being zero). -/
theorem region2 (c : Dev nD) (x : Cert.Spec.A S50000x256) (w : Cert.Spec.A S256x256)
    (hx : V c main_v26 = x) (hw : V c main_arg7 = w)
    (hb : V c main_v28 = shapeCast S1x256 (broadcastInDim S256 ![] bcast_S_S256 (constant (F := Ideal) S_ .f32 0x00000000#32)) shapeCasts_S256_S1x256) :
    (dat2 V c).arrAt 3 cfg2.N = Cert.Spec.lin x w :=
  (dat2 V c).arrAt_eq_of_cover 3 (Cert.Spec.lin x w)
    (fun t _ => written2_eq V c x w hx hw hb t) rowBlocks2_cover

end Cert.KernelIdeal.MmValue

end
-- ==== Proof.MmValue4.lean ====
/-
  The third matrix-product region (the linear head) as ONE function of its input arrays, on the extended reals.

  The region runs over 25 grid points. Point t reads rows 2000·t … 2000·t + 1999 of the [50000, 256] left factor, the whole
  [256, 128] right factor and the whole [1, 128] bias row, and writes the same rows of the [50000, 128] result. Its body passes
  the left block through a reshape to its own shape (the identity), rounds both factors to a shorter float format (the
  identity on the extended reals), multiplies them into a zero accumulator and adds the bias row to every row. Entry (p, q)
  of the block is therefore  Σ_e x(2000·t + p, e) · w(e, q) + row(0, q), which is entry (2000·t + p, q) of the product of the
  whole arrays plus the bias: a row of a product depends only on the same row of the left factor. The 25 row blocks tile the
  result, so the array after the region is that function everywhere.
-/
import proofs.«103152_j58858231824590_1_alg».proof.Proof.Gen.KernelIdeal.Frame
import proofs.«103152_j58858231824590_1_alg».proof.Proof.Spec
import proofs.«103152_j58858231824590_1_alg».proof.Proof.LibProduct
import proofs.«103152_j58858231824590_1_alg».proof.Proof.LibBiasRow
import Idealize.ShloMosaic.Lib.Pipeline.Value
import Idealize.ShloMosaic.Lib.ValueLayout

noncomputable section

namespace Cert.KernelIdeal.MmValue

open Idealize.ShloMosaic Idealize.ShloMosaic.TcCoe Idealize.ShloMosaic.ValueIdx
open Idealize.ShloMosaic.Pipeline (Dat)
open Cert.KernelIdeal Cert.KernelIdeal.Gen
open Cert.LibProduct

/-- The zero offsets of a whole-buffer access, as a constant function. -/
theorem zeroOffsets4 : (![0, 0] : Fin 2 → Nat) = fun _ => 0 := funext fun a => by fin_cases a <;> rfl

/-! ## The body's value at an entry of the block -/

/-- Entry (p, q) of what the body stores: row p of the left block against column q of the right factor, plus the bias row
    at column q. -/
theorem body4_apply (x0 : Vec Ideal S2000x256 .f32) (x1 : Vec Ideal S256x128 .f32) (x2 : Vec Ideal S1x128 .f32)
    (p : Fin 2000) (q : Fin 128) :
    k4_pay1 x0 x1 x2 (ix2 p q) = product x0 x1 (ix2 p q) + x2 (ix2 (0 : Fin 1) q) := by
  unfold k4_pay1
  refine (Cert.LibBiasRow.vector_bias_apply _ x2 shapeCasts_S1x128_S1x128 broadcasts_S1x128_S2000x128 p q).trans ?_
  refine congrArg (· + x2 (ix2 (0 : Fin 1) q)) ?_
  refine (congrFun (matmul_rounded_eq dot_S2000x256_S256x128_S2000x128_1_0_0_1_n_n_wf none
    (shapeCast S2000x256 x0 shapeCasts_S2000x256_S2000x256) x1 bitsLt_bf16_f32 bitsLt_bf16_f32) (ix2 p q)).trans ?_
  rw [shapeCast_self]

/-! ## The specification at an entry of the array -/

/-- Entry (P, q) of the product of the whole arrays with the bias vector added to every row. -/
theorem spec4_apply (x : Cert.Spec.A S50000x256) (w : Cert.Spec.A S256x128) (b : Cert.Spec.A S128) (P : Fin 50000) (q : Fin 128) :
    Cert.Spec.head x w b (ix2 P q) = product x w (ix2 P q) + b (ix1 q) := by
  unfold Cert.Spec.head
  refine (Cert.LibBiasRow.host_bias_apply _ _ _ P q).trans ?_
  rw [Cert.LibRowMax.broadcastInDim_b_1b_apply b _ (0 : Fin 1) q]
  exact congrArg (· + b (ix1 q))
    (congrFun (dotGeneral_eq Cert.ReferenceIdeal.Facts₀.dot_S50000x256_S256x128_S50000x128_1_0_0_1_n_n_wf none .single x w) (ix2 P q))

/-! ## The blocks a grid point reads, as entries of the arrays -/

/-- The index maps over the 25 grid points: the row windows move one block down per point, the others stay at the origin. -/
theorem blockIndices4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- Entry (p, e) of the left block at point t is entry (2000·t + p, e) of the left factor. -/
theorem leftBlock4_apply (c : Dev nD) (t : Fin cfg4.N) (y : S2000x256.Idx) (k : S50000x256.Idx)
    (hk0 : (k 0).val = 2000 * t.val + (y 0).val) (hk1 : (k 1).val = (y 1).val) :
    (iblk4 V c 0 t : Vec Ideal S2000x256 .f32) y = (V c main_v54 : S50000x256.Idx → Elt Ideal .f32) k := by
  obtain ⟨e0, e1, -⟩ := blockIndices4 t
  unfold iblk4
  rw [View.read_apply]
  show V c main_v54 _ = V c main_v54 _
  refine congrArg (V c main_v54) (funext fun a => Fin.ext ?_)
  match a with
  | ⟨0, _⟩ => show win4_0.index t (0 : Fin 2) * 2000 + 1 * (y 0).val = (k 0).val; rw [e0, hk0]; omega
  | ⟨1, _⟩ => show win4_0.index t (1 : Fin 2) * 256 + 1 * (y 1).val = (k 1).val; rw [e1, hk1]; omega

/-- The right block at every point is the whole right factor. -/
theorem rightBlock4_apply (c : Dev nD) (t : Fin cfg4.N) (y : S256x128.Idx) :
    (iblk4 V c 1 t : Vec Ideal S256x128 .f32) y = (V c main_arg11 : S256x128.Idx → Elt Ideal .f32) y := by
  obtain ⟨-, -, e0, e1, -⟩ := blockIndices4 t
  unfold iblk4
  rw [View.read_apply]
  show V c main_arg11 _ = V c main_arg11 _
  refine congrArg (V c main_arg11) (funext fun a => Fin.ext ?_)
  match a with
  | ⟨0, _⟩ => show win4_1.index t (0 : Fin 2) * 256 + 1 * (y 0).val = (y 0).val; rw [e0]; omega
  | ⟨1, _⟩ => show win4_1.index t (1 : Fin 2) * 128 + 1 * (y 1).val = (y 1).val; rw [e1]; omega

/-- The bias block at every point is the whole bias row. -/
theorem biasBlock4_apply (c : Dev nD) (t : Fin cfg4.N) (y : S1x128.Idx) :
    (iblk4 V c 2 t : Vec Ideal S1x128 .f32) y = (V c main_v55 : S1x128.Idx → Elt Ideal .f32) y := by
  obtain ⟨-, -, -, -, e0, e1, -⟩ := blockIndices4 t
  unfold iblk4
  rw [View.read_apply]
  show V c main_v55 _ = V c main_v55 _
  refine congrArg (V c main_v55) (funext fun a => Fin.ext ?_)
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-! ## What a grid point writes back -/

/-- Point t writes back rows 2000·t … 2000·t + 1999 of the product of the whole arrays with the bias added. -/
theorem written4_eq (c : Dev nD) (x : Cert.Spec.A S50000x256) (w : Cert.Spec.A S256x128) (b : Cert.Spec.A S128)
    (hx : V c main_v54 = x) (hw : V c main_arg11 = w) (hb : V c main_v55 = shapeCast S1x128 b shapeCasts_S128_S1x128)
    (t : Fin cfg4.N) :
    (dat4 V c).flushed 3 t = ((cfg4.win 3).blk t).view.read (Elt Ideal) (Cert.Spec.head x w b) := by
  show (cfg4.win 3).cut (grid4.coords t) ((dat4 V c).after 3 t) = _
  rw [after4_3]
  unfold out4_3
  rw [View.canon_unit_zero zeroOffsets4]
  simp only [View.ld_unit_zero (S := S2000x256) zeroOffsets4, View.ld_unit_zero (S := S256x128) zeroOffsets4,
    View.ld_unit_zero (S := S1x128) zeroOffsets4]
  obtain ⟨-, -, -, -, -, -, e0, e1⟩ := blockIndices4 t
  have ht : t.val < 25 := Nat.lt_of_lt_of_eq t.isLt N_4
  funext j
  obtain ⟨p, q, rfl⟩ : ∃ (p : Fin 2000) (q : Fin 128), j = ix2 p q := ⟨j 0, j 1, eq_ix2 j⟩
  have hp : p.val < 2000 := p.isLt
  -- the array index under entry (p, q) of the block
  have hemb : ((cfg4.win 3).blk t).view.emb (ix2 p q) = ix2 (⟨2000 * t.val + p.val, by omega⟩ : Fin 50000) q := by
    funext a; apply Fin.ext
    match a with
    | ⟨0, _⟩ => show win4_3.index t (0 : Fin 2) * 2000 + 1 * p.val = 2000 * t.val + p.val; rw [e0]; omega
    | ⟨1, _⟩ => show win4_3.index t (1 : Fin 2) * 128 + 1 * q.val = q.val; rw [e1]; omega
  show k4_pay1 (iblk4 V c 0 t) (iblk4 V c 1 t) (iblk4 V c 2 t) (ix2 p q)
    = Cert.Spec.head x w b (((cfg4.win 3).blk t).view.emb (ix2 p q))
  rw [hemb]
  refine (body4_apply (iblk4 V c 0 t) (iblk4 V c 1 t) (iblk4 V c 2 t) p q).trans ?_
  refine ((spec4_apply x w b ⟨2000 * t.val + p.val, by omega⟩ q).trans ?_).symm
  refine congrArg₂ (· + ·) ?_ ?_
  · refine (product_congr (iblk4 V c 0 t) (iblk4 V c 1 t) x w (ix2 p q) (ix2 (⟨2000 * t.val + p.val, by omega⟩ : Fin 50000) q)
      (fun e => ?_) (fun e => ?_)).symm
    · rw [← hx]
      exact leftBlock4_apply V c t (ix2 p e) (ix2 (⟨2000 * t.val + p.val, by omega⟩ : Fin 50000) e) rfl rfl
    · rw [← hw]
      exact rightBlock4_apply V c t (ix2 e q)
  · refine Eq.symm ((biasBlock4_apply V c t (ix2 (0 : Fin 1) q)).trans ?_)
    rw [hb]
    exact shapeCast_a_1a_apply b shapeCasts_S128_S1x128 (0 : Fin 1) q

/-! ## The 25 row blocks tile the result -/

/-- An index of the result is in point t's block iff its row is among the block's 2000 rows (and its column among the 128). -/
theorem mem_rowBlock4 (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v56).slice (win4_3.rect t)).set ↔ _
  rw [View.set_slice_whole, Rect.mem_set_unit]
  exact Iff.rfl

/-- Every index of the result lies in the block of the point its row divided by 2000 names. -/
theorem rowBlocks4_cover (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ : ∃ t : Fin cfg4.N, t.val = (i 0).val / 2000 :=
    ⟨⟨(i 0).val / 2000, by rw [show cfg4.N = 25 from N_4]; omega⟩, rfl⟩
  obtain ⟨-, -, -, -, -, -, e0, e1⟩ := blockIndices4 t
  refine ⟨t, flush4_3 t, ?_⟩
  rw [mem_rowBlock4]
  intro a
  match a with
  | ⟨0, _⟩ =>
    show win4_3.index t (0 : Fin 2) * 2000 ≤ (i 0).val ∧ (i 0).val < win4_3.index t (0 : Fin 2) * 2000 + 2000
    rw [e0, ht]; omega
  | ⟨1, _⟩ =>
    show win4_3.index t (1 : Fin 2) * 128 ≤ (i 1).val ∧ (i 1).val < win4_3.index t (1 : Fin 2) * 128 + 128
    rw [e1]; omega

/-! ## The array after the region -/

/-- After the region the result array is the product of the two input arrays with the bias vector added to every row. -/
theorem region4 (c : Dev nD) (x : Cert.Spec.A S50000x256) (w : Cert.Spec.A S256x128) (b : Cert.Spec.A S128)
    (hx : V c main_v54 = x) (hw : V c main_arg11 = w) (hb : V c main_v55 = shapeCast S1x128 b shapeCasts_S128_S1x128) :
    (dat4 V c).arrAt 3 cfg4.N = Cert.Spec.head x w b :=
  (dat4 V c).arrAt_eq_of_cover 3 (Cert.Spec.head x w b)
    (fun t _ => written4_eq V c x w b hx hw hb t) rowBlocks4_cover

end Cert.KernelIdeal.MmValue

end
-- ==== Proof.BnCell.lean ====
/-
  One entry of a normalised and clamped array, on the extended reals.

  With a 50000 × 256 array `h` and four vectors of 256 — scale `g`, shift `be`, mean `mu`, variance `vr` — the array
  `relu (norm h g be mu vr)` has at row `P`, column `q` the value

      max ((((h (P, q) − mu q) · rsqrt (vr q + ε)) · g q) + be q) 0,

  the four vectors being laid along the columns and every operation acting entry by entry. `cell` names that value as a
  function of the five numbers, so that any other array whose entries are `cell` of the same numbers is the same array.
-/
import proofs.«103152_j58858231824590_1_alg».proof.Proof.Spec
import proofs.«103152_j58858231824590_1_alg».proof.Proof.LibBiasRow
import Idealize.ShloMosaic.Lib.ValueIdx
import Idealize.ShloMosaic.PureOps.Ideal

noncomputable section

open Idealize.ShloMosaic Idealize.ShloMosaic.ValueIdx

namespace Cert.KernelIdeal.BnValue

open Cert.ReferenceIdeal Cert.LibRowMax

/-- The value of one entry: the entry `x` less its column's mean `m`, times the reciprocal square root of the column's
    variance `v` plus ε, times the scale `g`, plus the shift `b`, clamped below at zero — in this association. -/
abbrev cell (x m v g b : EReal) : EReal :=
  max ((((x - m) * Ideal.rsqrt (v + Ideal.ofBits .f32 0x3727C5AC#32)) * g) + b) (Ideal.ofBits .f32 0x00000000#32)

/-- A vector of 256 laid along the columns of a 50000 × 256 array reads, at `(P, q)`, the vector at `q`. -/
theorem cols256_apply (b : Cert.Spec.A S256) (P : Fin 50000) (q : Fin 256) : Cert.Spec.cols256 b (ix2 P q) = b (ix1 q) :=
  (broadcastInDim_1b_ab_apply _ _ P q).trans (broadcastInDim_b_1b_apply b _ (0 : Fin 1) q)

/-- The normalised and clamped array at `(P, q)` is `cell` of `h (P, q)` and the four vectors at `q`: each operation is
    read at the index, the reciprocal square root being the extended reals' own. -/
theorem spec_apply (h : Cert.Spec.A S50000x256) (g be mu vr : Cert.Spec.A S256) (P : Fin 50000) (q : Fin 256) :
    Cert.Spec.relu (Cert.Spec.norm h g be mu vr) (ix2 P q)
      = cell (h (ix2 P q)) (mu (ix1 q)) (vr (ix1 q)) (g (ix1 q)) (be (ix1 q)) := by
  unfold Cert.Spec.relu Cert.Spec.norm Cert.Spec.zeros
  simp only [maximumf_apply, addf_apply, mulf_apply, subf_apply, cols256_apply]
  rfl

end Cert.KernelIdeal.BnValue

end
-- ==== Proof.BnValue1.lean ====
/-
  The normalise-and-clamp region over the rows of `main_v17`: after its 25 grid points the output array `main_v26` is

      relu (norm h g be mu vr),

  where `h` is the contents of `main_v17` when the region is entered and the four [1, 256] row arrays `main_v22`, `main_v23`,
  `main_v24`, `main_v25` hold the vectors `g`, `be`, `mu`, `vr` reshaped to one row.

  Point `t` of the grid reads rows `2000 t … 2000 t + 1999` of `h` and the four whole rows, and writes back the block of
  the same rows of the output. At row `p` of the block and column `q` the body computes
  `max ((((h (2000 t + p, q) − mu q) · rsqrt (vr q + ε)) · g q) + be q) 0` — the value `cell` that the specification has at
  `(2000 t + p, q)`, with the same association, so no law of arithmetic is used: each operation is only read at the index.
  Row `r` of the output lies in the block of point `r / 2000`, so the 25 blocks cover the array.
-/
import proofs.«103152_j58858231824590_1_alg».proof.Proof.Gen.KernelIdeal.Frame
import proofs.«103152_j58858231824590_1_alg».proof.Proof.BnCell
import Idealize.ShloMosaic.Lib.Pipeline.Value
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.KernelIdeal.BnValue

open Cert.KernelIdeal Cert.KernelIdeal.Gen

/-- The body's value at row `p`, column `q` of its block, from the block `x0` of `h` and the four rows in the order the
    body loads them (variance, mean, scale, shift): identity casts, the rows broadcast down the 2000 rows, and the
    entrywise operations, each read at `(p, q)`. -/
theorem payload1_apply (x0 : FVec Ideal S2000x256 .f32) (vr mu g be : FVec Ideal S1x256 .f32) (p : Fin 2000) (q : Fin 256) :
    k1_pay1 (F := Ideal) x0 vr mu g be (ix2 p q)
      = cell (x0 (ix2 p q)) (mu (ix2 (0 : Fin 1) q)) (vr (ix2 (0 : Fin 1) q)) (g (ix2 (0 : Fin 1) q)) (be (ix2 (0 : Fin 1) q)) := by
  unfold k1_pay1
  simp only [shapeCast_self, maximumf_apply, addf_apply, mulf_apply, subf_apply, broadcastTo_1b_ab_apply, broadcast_apply]
  rfl

/-- The zero offsets of a whole-block access, as the constant function. -/
theorem zero_offsets1 : (![0, 0] : Fin 2 → Nat) = fun _ => 0 := funext fun a => by fin_cases a <;> rfl

/-- The index maps over the grid: the first input and the output take row block `t` at point `t`; each of the four rows
    is block `(0, 0)` at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row `p`, column `q` of the first input's block at point `t` is row `2000 t + p`, column `q` of its array. -/
theorem blk1_main (c : Dev nD) (t : Fin cfg1.N) (p : Fin 2000) (q : Fin 256) (P : Fin 50000) (hP : P.val = t.val * 2000 + p.val) :
    (iblk1 V c 0 t : Vec Ideal S2000x256 .f32) (ix2 p q) = (V c main_v17 : S50000x256.Idx → Elt Ideal .f32) (ix2 P q) := by
  obtain ⟨e0, e1, -⟩ := idx_facts1 t
  unfold iblk1
  rw [View.read_apply]
  show V c main_v17 _ = V c main_v17 _
  congr 1
  funext a
  apply Fin.ext
  match a with
  | ⟨0, _⟩ => show win1_0.index t (0 : Fin 2) * 2000 + 1 * p.val = P.val; rw [e0, hP]; omega
  | ⟨1, _⟩ => show win1_0.index t (1 : Fin 2) * 256 + 1 * q.val = q.val; rw [e1]; omega

/-- Window 1 is the whole scale row: its one block at any point is the row itself. -/
theorem blk1_row1 (c : Dev nD) (t : Fin cfg1.N) (q : Fin 256) :
    (iblk1 V c 1 t : Vec Ideal S1x256 .f32) (ix2 (0 : Fin 1) q) = (V c main_v22 : S1x256.Idx → Elt Ideal .f32) (ix2 (0 : Fin 1) q) := by
  obtain ⟨-, -, e0, e1, -⟩ := idx_facts1 t
  unfold iblk1
  rw [View.read_apply]
  show V c main_v22 _ = V c main_v22 _
  congr 1
  funext a
  apply Fin.ext
  match a with
  | ⟨0, _⟩ => show win1_1.index t (0 : Fin 2) * 1 + 1 * 0 = 0; rw [e0]
  | ⟨1, _⟩ => show win1_1.index t (1 : Fin 2) * 256 + 1 * q.val = q.val; rw [e1]; omega

/-- Window 2 is the whole shift row: its one block at any point is the row itself. -/
theorem blk1_row2 (c : Dev nD) (t : Fin cfg1.N) (q : Fin 256) :
    (iblk1 V c 2 t : Vec Ideal S1x256 .f32) (ix2 (0 : Fin 1) q) = (V c main_v23 : S1x256.Idx → Elt Ideal .f32) (ix2 (0 : Fin 1) q) := by
  obtain ⟨-, -, -, -, e0, e1, -⟩ := idx_facts1 t
  unfold iblk1
  rw [View.read_apply]
  show V c main_v23 _ = V c main_v23 _
  congr 1
  funext a
  apply Fin.ext
  match a with
  | ⟨0, _⟩ => show win1_2.index t (0 : Fin 2) * 1 + 1 * 0 = 0; rw [e0]
  | ⟨1, _⟩ => show win1_2.index t (1 : Fin 2) * 256 + 1 * q.val = q.val; rw [e1]; omega

/-- Window 3 is the whole mean row: its one block at any point is the row itself. -/
theorem blk1_row3 (c : Dev nD) (t : Fin cfg1.N) (q : Fin 256) :
    (iblk1 V c 3 t : Vec Ideal S1x256 .f32) (ix2 (0 : Fin 1) q) = (V c main_v24 : S1x256.Idx → Elt Ideal .f32) (ix2 (0 : Fin 1) q) := by
  obtain ⟨-, -, -, -, -, -, e0, e1, -⟩ := idx_facts1 t
  unfold iblk1
  rw [View.read_apply]
  show V c main_v24 _ = V c main_v24 _
  congr 1
  funext a
  apply Fin.ext
  match a with
  | ⟨0, _⟩ => show win1_3.index t (0 : Fin 2) * 1 + 1 * 0 = 0; rw [e0]
  | ⟨1, _⟩ => show win1_3.index t (1 : Fin 2) * 256 + 1 * q.val = q.val; rw [e1]; omega

/-- Window 4 is the whole variance row: its one block at any point is the row itself. -/
theorem blk1_row4 (c : Dev nD) (t : Fin cfg1.N) (q : Fin 256) :
    (iblk1 V c 4 t : Vec Ideal S1x256 .f32) (ix2 (0 : Fin 1) q) = (V c main_v25 : S1x256.Idx → Elt Ideal .f32) (ix2 (0 : Fin 1) q) := by
  obtain ⟨-, -, -, -, -, -, -, -, e0, e1, -⟩ := idx_facts1 t
  unfold iblk1
  rw [View.read_apply]
  show V c main_v25 _ = V c main_v25 _
  congr 1
  funext a
  apply Fin.ext
  match a with
  | ⟨0, _⟩ => show win1_4.index t (0 : Fin 2) * 1 + 1 * 0 = 0; rw [e0]
  | ⟨1, _⟩ => show win1_4.index t (1 : Fin 2) * 256 + 1 * q.val = q.val; rw [e1]; omega

/-- What point `t` writes back is block `t` of the specification's array: at `(p, q)` of the block both are `cell` of
    `h (2000 t + p, q)` and the four vectors at `q`. -/
theorem flushed1_eq (c : Dev nD) (h : Cert.Spec.A S50000x256) (g be mu vr : Cert.Spec.A S256)
    (hh : V c main_v17 = h)
    (hg : V c main_v22 = shapeCast S1x256 g shapeCasts_S256_S1x256) (hbe : V c main_v23 = shapeCast S1x256 be shapeCasts_S256_S1x256)
    (hmu : V c main_v24 = shapeCast S1x256 mu shapeCasts_S256_S1x256) (hvr : V c main_v25 = shapeCast S1x256 vr shapeCasts_S256_S1x256)
    (t : Fin cfg1.N) :
    (dat1 V c).flushed 5 t = ((cfg1.win 5).blk t).view.read (Elt Ideal) (Cert.Spec.relu (Cert.Spec.norm h g be mu vr)) := by
  show (cfg1.win 5).cut (grid1.coords t) ((dat1 V c).after 5 t) = _
  rw [after1_5]
  unfold out1_5
  rw [View.canon_unit_zero zero_offsets1]
  simp only [View.ld_unit_zero (S := S2000x256) zero_offsets1, View.ld_unit_zero (S := S1x256) zero_offsets1]
  funext j
  obtain ⟨p, q, rfl⟩ : ∃ (p : Fin 2000) (q : Fin 256), j = ix2 p q := ⟨j 0, j 1, eq_ix2 j⟩
  have hN : cfg1.N = 25 := N_1
  have hP : t.val * 2000 + p.val < 50000 := by have := t.isLt; have := p.isLt; omega
  refine (payload1_apply (iblk1 V c 0 t) (iblk1 V c 4 t) (iblk1 V c 3 t) (iblk1 V c 1 t) (iblk1 V c 2 t) p q).trans ?_
  obtain ⟨-, -, -, -, -, -, -, -, -, -, e0, e1⟩ := idx_facts1 t
  have hemb : ((cfg1.win 5).blk t).view.emb (ix2 p q) = ix2 (⟨t.val * 2000 + p.val, hP⟩ : Fin 50000) q := by
    funext a
    apply Fin.ext
    match a with
    | ⟨0, _⟩ => show win1_5.index t (0 : Fin 2) * 2000 + 1 * p.val = t.val * 2000 + p.val; rw [e0]; omega
    | ⟨1, _⟩ => show win1_5.index t (1 : Fin 2) * 256 + 1 * q.val = q.val; rw [e1]; omega
  rw [View.read_apply]
  show _ = Cert.Spec.relu (Cert.Spec.norm h g be mu vr) (((cfg1.win 5).blk t).view.emb (ix2 p q))
  rw [hemb, spec_apply h g be mu vr ⟨_, hP⟩ q, blk1_main V c t p q ⟨_, hP⟩ rfl, blk1_row1 V c t q, blk1_row2 V c t q,
    blk1_row3 V c t q, blk1_row4 V c t q, hh, hg, hbe, hmu, hvr]
  simp only [shapeCast_a_1a_apply]

/-- An index of the output array is in point `t`'s block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v26).slice (win1_5.rect t)).set ↔ _
  rw [View.set_slice_whole, Rect.mem_set_unit]
  exact Iff.rfl

/-- Every index of the output array is in the block some point writes back: row `r` is in the block of point `r / 2000`. -/
theorem cover1 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, e0, e1⟩ := idx_facts1 t
  refine ⟨t, flush1_5 t, ?_⟩
  rw [mem_blk1]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 256 ≤ (i 1).val ∧ (i 1).val < win1_5.index t (1 : Fin 2) * 256 + 256
    rw [e1]; omega

/-- THE OUTPUT ARRAY after the region: the normalised and clamped `h`, as one function of the five input arrays. -/
theorem region1 (c : Dev nD) (h : Cert.Spec.A S50000x256) (g be mu vr : Cert.Spec.A S256)
    (hh : V c main_v17 = h)
    (hg : V c main_v22 = shapeCast S1x256 g shapeCasts_S256_S1x256) (hbe : V c main_v23 = shapeCast S1x256 be shapeCasts_S256_S1x256)
    (hmu : V c main_v24 = shapeCast S1x256 mu shapeCasts_S256_S1x256) (hvr : V c main_v25 = shapeCast S1x256 vr shapeCasts_S256_S1x256) :
    (dat1 V c).arrAt 5 cfg1.N = Cert.Spec.relu (Cert.Spec.norm h g be mu vr) :=
  (dat1 V c).arrAt_eq_of_cover 5 _ (fun t _ => flushed1_eq V c h g be mu vr hh hg hbe hmu hvr t) (cover1)

end Cert.KernelIdeal.BnValue

end
-- ==== Proof.BnValue3.lean ====
/-
  The normalise-and-clamp region over the rows of `main_v45`: after its 25 grid points the output array `main_v54` is

      relu (norm h g be mu vr),

  where `h` is the contents of `main_v45` when the region is entered and the four [1, 256] row arrays `main_v50`, `main_v51`,
  `main_v52`, `main_v53` hold the vectors `g`, `be`, `mu`, `vr` reshaped to one row.

  Point `t` of the grid reads rows `2000 t … 2000 t + 1999` of `h` and the four whole rows, and writes back the block of
  the same rows of the output. At row `p` of the block and column `q` the body computes
  `max ((((h (2000 t + p, q) − mu q) · rsqrt (vr q + ε)) · g q) + be q) 0` — the value `cell` that the specification has at
  `(2000 t + p, q)`, with the same association, so no law of arithmetic is used: each operation is only read at the index.
  Row `r` of the output lies in the block of point `r / 2000`, so the 25 blocks cover the array.
-/
import proofs.«103152_j58858231824590_1_alg».proof.Proof.Gen.KernelIdeal.Frame
import proofs.«103152_j58858231824590_1_alg».proof.Proof.BnCell
import Idealize.ShloMosaic.Lib.Pipeline.Value
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.KernelIdeal.BnValue

open Cert.KernelIdeal Cert.KernelIdeal.Gen

/-- The body's value at row `p`, column `q` of its block, from the block `x0` of `h` and the four rows in the order the
    body loads them (variance, mean, scale, shift): identity casts, the rows broadcast down the 2000 rows, and the
    entrywise operations, each read at `(p, q)`. -/
theorem payload3_apply (x0 : FVec Ideal S2000x256 .f32) (vr mu g be : FVec Ideal S1x256 .f32) (p : Fin 2000) (q : Fin 256) :
    k3_pay1 (F := Ideal) x0 vr mu g be (ix2 p q)
      = cell (x0 (ix2 p q)) (mu (ix2 (0 : Fin 1) q)) (vr (ix2 (0 : Fin 1) q)) (g (ix2 (0 : Fin 1) q)) (be (ix2 (0 : Fin 1) q)) := by
  unfold k3_pay1
  simp only [shapeCast_self, maximumf_apply, addf_apply, mulf_apply, subf_apply, broadcastTo_1b_ab_apply, broadcast_apply]
  rfl

/-- The zero offsets of a whole-block access, as the constant function. -/
theorem zero_offsets3 : (![0, 0] : Fin 2 → Nat) = fun _ => 0 := funext fun a => by fin_cases a <;> rfl

/-- The index maps over the grid: the first input and the output take row block `t` at point `t`; each of the four rows
    is block `(0, 0)` at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- Row `p`, column `q` of the first input's block at point `t` is row `2000 t + p`, column `q` of its array. -/
theorem blk3_main (c : Dev nD) (t : Fin cfg3.N) (p : Fin 2000) (q : Fin 256) (P : Fin 50000) (hP : P.val = t.val * 2000 + p.val) :
    (iblk3 V c 0 t : Vec Ideal S2000x256 .f32) (ix2 p q) = (V c main_v45 : S50000x256.Idx → Elt Ideal .f32) (ix2 P q) := by
  obtain ⟨e0, e1, -⟩ := idx_facts3 t
  unfold iblk3
  rw [View.read_apply]
  show V c main_v45 _ = V c main_v45 _
  congr 1
  funext a
  apply Fin.ext
  match a with
  | ⟨0, _⟩ => show win3_0.index t (0 : Fin 2) * 2000 + 1 * p.val = P.val; rw [e0, hP]; omega
  | ⟨1, _⟩ => show win3_0.index t (1 : Fin 2) * 256 + 1 * q.val = q.val; rw [e1]; omega

/-- Window 1 is the whole scale row: its one block at any point is the row itself. -/
theorem blk3_row1 (c : Dev nD) (t : Fin cfg3.N) (q : Fin 256) :
    (iblk3 V c 1 t : Vec Ideal S1x256 .f32) (ix2 (0 : Fin 1) q) = (V c main_v50 : S1x256.Idx → Elt Ideal .f32) (ix2 (0 : Fin 1) q) := by
  obtain ⟨-, -, e0, e1, -⟩ := idx_facts3 t
  unfold iblk3
  rw [View.read_apply]
  show V c main_v50 _ = V c main_v50 _
  congr 1
  funext a
  apply Fin.ext
  match a with
  | ⟨0, _⟩ => show win3_1.index t (0 : Fin 2) * 1 + 1 * 0 = 0; rw [e0]
  | ⟨1, _⟩ => show win3_1.index t (1 : Fin 2) * 256 + 1 * q.val = q.val; rw [e1]; omega

/-- Window 2 is the whole shift row: its one block at any point is the row itself. -/
theorem blk3_row2 (c : Dev nD) (t : Fin cfg3.N) (q : Fin 256) :
    (iblk3 V c 2 t : Vec Ideal S1x256 .f32) (ix2 (0 : Fin 1) q) = (V c main_v51 : S1x256.Idx → Elt Ideal .f32) (ix2 (0 : Fin 1) q) := by
  obtain ⟨-, -, -, -, e0, e1, -⟩ := idx_facts3 t
  unfold iblk3
  rw [View.read_apply]
  show V c main_v51 _ = V c main_v51 _
  congr 1
  funext a
  apply Fin.ext
  match a with
  | ⟨0, _⟩ => show win3_2.index t (0 : Fin 2) * 1 + 1 * 0 = 0; rw [e0]
  | ⟨1, _⟩ => show win3_2.index t (1 : Fin 2) * 256 + 1 * q.val = q.val; rw [e1]; omega

/-- Window 3 is the whole mean row: its one block at any point is the row itself. -/
theorem blk3_row3 (c : Dev nD) (t : Fin cfg3.N) (q : Fin 256) :
    (iblk3 V c 3 t : Vec Ideal S1x256 .f32) (ix2 (0 : Fin 1) q) = (V c main_v52 : S1x256.Idx → Elt Ideal .f32) (ix2 (0 : Fin 1) q) := by
  obtain ⟨-, -, -, -, -, -, e0, e1, -⟩ := idx_facts3 t
  unfold iblk3
  rw [View.read_apply]
  show V c main_v52 _ = V c main_v52 _
  congr 1
  funext a
  apply Fin.ext
  match a with
  | ⟨0, _⟩ => show win3_3.index t (0 : Fin 2) * 1 + 1 * 0 = 0; rw [e0]
  | ⟨1, _⟩ => show win3_3.index t (1 : Fin 2) * 256 + 1 * q.val = q.val; rw [e1]; omega

/-- Window 4 is the whole variance row: its one block at any point is the row itself. -/
theorem blk3_row4 (c : Dev nD) (t : Fin cfg3.N) (q : Fin 256) :
    (iblk3 V c 4 t : Vec Ideal S1x256 .f32) (ix2 (0 : Fin 1) q) = (V c main_v53 : S1x256.Idx → Elt Ideal .f32) (ix2 (0 : Fin 1) q) := by
  obtain ⟨-, -, -, -, -, -, -, -, e0, e1, -⟩ := idx_facts3 t
  unfold iblk3
  rw [View.read_apply]
  show V c main_v53 _ = V c main_v53 _
  congr 1
  funext a
  apply Fin.ext
  match a with
  | ⟨0, _⟩ => show win3_4.index t (0 : Fin 2) * 1 + 1 * 0 = 0; rw [e0]
  | ⟨1, _⟩ => show win3_4.index t (1 : Fin 2) * 256 + 1 * q.val = q.val; rw [e1]; omega

/-- What point `t` writes back is block `t` of the specification's array: at `(p, q)` of the block both are `cell` of
    `h (2000 t + p, q)` and the four vectors at `q`. -/
theorem flushed3_eq (c : Dev nD) (h : Cert.Spec.A S50000x256) (g be mu vr : Cert.Spec.A S256)
    (hh : V c main_v45 = h)
    (hg : V c main_v50 = shapeCast S1x256 g shapeCasts_S256_S1x256) (hbe : V c main_v51 = shapeCast S1x256 be shapeCasts_S256_S1x256)
    (hmu : V c main_v52 = shapeCast S1x256 mu shapeCasts_S256_S1x256) (hvr : V c main_v53 = shapeCast S1x256 vr shapeCasts_S256_S1x256)
    (t : Fin cfg3.N) :
    (dat3 V c).flushed 5 t = ((cfg3.win 5).blk t).view.read (Elt Ideal) (Cert.Spec.relu (Cert.Spec.norm h g be mu vr)) := by
  show (cfg3.win 5).cut (grid3.coords t) ((dat3 V c).after 5 t) = _
  rw [after3_5]
  unfold out3_5
  rw [View.canon_unit_zero zero_offsets3]
  simp only [View.ld_unit_zero (S := S2000x256) zero_offsets3, View.ld_unit_zero (S := S1x256) zero_offsets3]
  funext j
  obtain ⟨p, q, rfl⟩ : ∃ (p : Fin 2000) (q : Fin 256), j = ix2 p q := ⟨j 0, j 1, eq_ix2 j⟩
  have hN : cfg3.N = 25 := N_3
  have hP : t.val * 2000 + p.val < 50000 := by have := t.isLt; have := p.isLt; omega
  refine (payload3_apply (iblk3 V c 0 t) (iblk3 V c 4 t) (iblk3 V c 3 t) (iblk3 V c 1 t) (iblk3 V c 2 t) p q).trans ?_
  obtain ⟨-, -, -, -, -, -, -, -, -, -, e0, e1⟩ := idx_facts3 t
  have hemb : ((cfg3.win 5).blk t).view.emb (ix2 p q) = ix2 (⟨t.val * 2000 + p.val, hP⟩ : Fin 50000) q := by
    funext a
    apply Fin.ext
    match a with
    | ⟨0, _⟩ => show win3_5.index t (0 : Fin 2) * 2000 + 1 * p.val = t.val * 2000 + p.val; rw [e0]; omega
    | ⟨1, _⟩ => show win3_5.index t (1 : Fin 2) * 256 + 1 * q.val = q.val; rw [e1]; omega
  rw [View.read_apply]
  show _ = Cert.Spec.relu (Cert.Spec.norm h g be mu vr) (((cfg3.win 5).blk t).view.emb (ix2 p q))
  rw [hemb, spec_apply h g be mu vr ⟨_, hP⟩ q, blk3_main V c t p q ⟨_, hP⟩ rfl, blk3_row1 V c t q, blk3_row2 V c t q,
    blk3_row3 V c t q, blk3_row4 V c t q, hh, hg, hbe, hmu, hvr]
  simp only [shapeCast_a_1a_apply]

/-- An index of the output array is in point `t`'s block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v54).slice (win3_5.rect t)).set ↔ _
  rw [View.set_slice_whole, Rect.mem_set_unit]
  exact Iff.rfl

/-- Every index of the output array is in the block some point writes back: row `r` is in the block of point `r / 2000`. -/
theorem cover3 (i : S50000x256.Idx) : ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, -, -, e0, e1⟩ := idx_facts3 t
  refine ⟨t, flush3_5 t, ?_⟩
  rw [mem_blk3]
  intro a
  match a with
  | ⟨0, _⟩ =>
    show win3_5.index t (0 : Fin 2) * 2000 ≤ (i 0).val ∧ (i 0).val < win3_5.index t (0 : Fin 2) * 2000 + 2000
    rw [e0, ht]; omega
  | ⟨1, _⟩ =>
    show win3_5.index t (1 : Fin 2) * 256 ≤ (i 1).val ∧ (i 1).val < win3_5.index t (1 : Fin 2) * 256 + 256
    rw [e1]; omega

/-- THE OUTPUT ARRAY after the region: the normalised and clamped `h`, as one function of the five input arrays. -/
theorem region3 (c : Dev nD) (h : Cert.Spec.A S50000x256) (g be mu vr : Cert.Spec.A S256)
    (hh : V c main_v45 = h)
    (hg : V c main_v50 = shapeCast S1x256 g shapeCasts_S256_S1x256) (hbe : V c main_v51 = shapeCast S1x256 be shapeCasts_S256_S1x256)
    (hmu : V c main_v52 = shapeCast S1x256 mu shapeCasts_S256_S1x256) (hvr : V c main_v53 = shapeCast S1x256 vr shapeCasts_S256_S1x256) :
    (dat3 V c).arrAt 5 cfg3.N = Cert.Spec.relu (Cert.Spec.norm h g be mu vr) :=
  (dat3 V c).arrAt_eq_of_cover 5 _ (fun t _ => flushed3_eq V c h g be mu vr hh hg hbe hmu hvr t) (cover3)

end Cert.KernelIdeal.BnValue

end
-- ==== Proof.Assemble.lean ====
/-
  The kernel program's result array as the network of its arguments. Segment by segment: the first launch leaves the first
  product with its bias row; the host aggregates it over the edges, adds the bias row and takes the column statistics; the
  second launch normalises with those statistics and clamps; the third launch is the second product (its bias row is zero);
  the host aggregates again; the fourth launch normalises and clamps; the fifth is the head; the host selects the rows.
  Each launch's array is the stage of `Cert.Spec` of the arrays it found (the launches' value theorems), each stretch of
  host operations is read from the contents it found, and every argument is still what was launched.
-/
import proofs.«103152_j58858231824590_1_alg».proof.Proof.FoldHost
import proofs.«103152_j58858231824590_1_alg».proof.Proof.FoldHostB
import proofs.«103152_j58858231824590_1_alg».proof.Proof.MmValue0
import proofs.«103152_j58858231824590_1_alg».proof.Proof.MmValue2
import proofs.«103152_j58858231824590_1_alg».proof.Proof.MmValue4
import proofs.«103152_j58858231824590_1_alg».proof.Proof.BnValue1
import proofs.«103152_j58858231824590_1_alg».proof.Proof.BnValue3

set_option maxRecDepth 16384

noncomputable section

namespace Cert.KernelIdeal.Assemble

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first launch: the first product with its bias row. -/
theorem y1_at (c : Dev nD) : W2 m ρ c (Proc.devRef .tc main_v1) = (Cert.Spec.addRow (Cert.Spec.lin (m ((c : Thread nD τ).loc main_arg0)) (m ((c : Thread nD τ).loc main_arg2))) (m ((c : Thread nD τ).loc main_arg3))) :=
  (W2_arr m ρ c 3).trans (Cert.KernelIdeal.MmValue.region0 (V1 m ρ) c _ _ _
    (Cert.KernelIdeal.Args.W1_arg m ρ c main_arg0 (by simp [Cert.KernelIdeal.Args.args])) (Cert.KernelIdeal.Args.W1_arg m ρ c main_arg2 (by simp [Cert.KernelIdeal.Args.args])) (FoldHost.W1_v0 m ρ c))

/-- The first aggregation with its bias row, as the first launch of the normalisation finds it. -/
theorem h1_at (c : Dev nD) : W3 m ρ c (Proc.devRef .tc main_v17) = (Cert.Spec.agg (m ((c : Thread nD τ).loc main_arg1)) (m ((c : Thread nD τ).loc main_arg13)) (m ((c : Thread nD τ).loc main_arg14)) (Cert.Spec.addRow (Cert.Spec.lin (m ((c : Thread nD τ).loc main_arg0)) (m ((c : Thread nD τ).loc main_arg2))) (m ((c : Thread nD τ).loc main_arg3))) (m ((c : Thread nD τ).loc main_arg4))) := by
  rw [FoldHost.W3_h, Cert.KernelIdeal.Args.W2_arg m ρ c main_arg1 (by simp [Cert.KernelIdeal.Args.args]), Cert.KernelIdeal.Args.W2_arg m ρ c main_arg13 (by simp [Cert.KernelIdeal.Args.args]), Cert.KernelIdeal.Args.W2_arg m ρ c main_arg14 (by simp [Cert.KernelIdeal.Args.args]), y1_at m ρ c, Cert.KernelIdeal.Args.W2_arg m ρ c main_arg4 (by simp [Cert.KernelIdeal.Args.args])]

/-- After the first normalisation: the clamped, normalised aggregation. -/
theorem z1_at (c : Dev nD) : W6 m ρ c (Proc.devRef .tc main_v26) = Cert.Spec.bnrelu (Cert.Spec.agg (m ((c : Thread nD τ).loc main_arg1)) (m ((c : Thread nD τ).loc main_arg13)) (m ((c : Thread nD τ).loc main_arg14)) (Cert.Spec.addRow (Cert.Spec.lin (m ((c : Thread nD τ).loc main_arg0)) (m ((c : Thread nD τ).loc main_arg2))) (m ((c : Thread nD τ).loc main_arg3))) (m ((c : Thread nD τ).loc main_arg4))) (m ((c : Thread nD τ).loc main_arg5)) (m ((c : Thread nD τ).loc main_arg6)) := by
  have hh : W5 m ρ c (Proc.devRef .tc main_v17) = (Cert.Spec.agg (m ((c : Thread nD τ).loc main_arg1)) (m ((c : Thread nD τ).loc main_arg13)) (m ((c : Thread nD τ).loc main_arg14)) (Cert.Spec.addRow (Cert.Spec.lin (m ((c : Thread nD τ).loc main_arg0)) (m ((c : Thread nD τ).loc main_arg2))) (m ((c : Thread nD τ).loc main_arg3))) (m ((c : Thread nD τ).loc main_arg4))) := by rw [FoldHost.W5_h, FoldHost.W4_h, h1_at]
  obtain ⟨rg, rbe, rmu, rvr⟩ := FoldHost.W5_rows m ρ c
  rw [Cert.KernelIdeal.Args.W4_arg m ρ c main_arg5 (by simp [Cert.KernelIdeal.Args.args])] at rg
  rw [Cert.KernelIdeal.Args.W4_arg m ρ c main_arg6 (by simp [Cert.KernelIdeal.Args.args])] at rbe
  rw [FoldHost.W4_mean, FoldHost.W3_mean, h1_at] at rmu
  rw [FoldHost.W4_var, h1_at] at rvr
  exact (W6_arr m ρ c 5).trans (Cert.KernelIdeal.BnValue.region1 (V5 m ρ) c _ _ _ _ _ hh rg rbe rmu rvr)

/-- After the third launch: the second product. -/
theorem y2_at (c : Dev nD) : W8 m ρ c (Proc.devRef .tc main_v29) = (Cert.Spec.lin (Cert.Spec.bnrelu (Cert.Spec.agg (m ((c : Thread nD τ).loc main_arg1)) (m ((c : Thread nD τ).loc main_arg13)) (m ((c : Thread nD τ).loc main_arg14)) (Cert.Spec.addRow (Cert.Spec.lin (m ((c : Thread nD τ).loc main_arg0)) (m ((c : Thread nD τ).loc main_arg2))) (m ((c : Thread nD τ).loc main_arg3))) (m ((c : Thread nD τ).loc main_arg4))) (m ((c : Thread nD τ).loc main_arg5)) (m ((c : Thread nD τ).loc main_arg6))) (m ((c : Thread nD τ).loc main_arg7))) :=
  (W8_arr m ρ c 3).trans (Cert.KernelIdeal.MmValue.region2 (V7 m ρ) c _ _
    ((FoldHost.W7_v26 m ρ c).trans (z1_at m ρ c)) (Cert.KernelIdeal.Args.W7_arg m ρ c main_arg7 (by simp [Cert.KernelIdeal.Args.args])) (FoldHost.W7_v28 m ρ c))

/-- The second aggregation with its bias row, as the second launch of the normalisation finds it. -/
theorem h2_at (c : Dev nD) : W9 m ρ c (Proc.devRef .tc main_v45) = (Cert.Spec.agg (m ((c : Thread nD τ).loc main_arg1)) (m ((c : Thread nD τ).loc main_arg13)) (m ((c : Thread nD τ).loc main_arg14)) (Cert.Spec.lin (Cert.Spec.bnrelu (Cert.Spec.agg (m ((c : Thread nD τ).loc main_arg1)) (m ((c : Thread nD τ).loc main_arg13)) (m ((c : Thread nD τ).loc main_arg14)) (Cert.Spec.addRow (Cert.Spec.lin (m ((c : Thread nD τ).loc main_arg0)) (m ((c : Thread nD τ).loc main_arg2))) (m ((c : Thread nD τ).loc main_arg3))) (m ((c : Thread nD τ).loc main_arg4))) (m ((c : Thread nD τ).loc main_arg5)) (m ((c : Thread nD τ).loc main_arg6))) (m ((c : Thread nD τ).loc main_arg7))) (m ((c : Thread nD τ).loc main_arg8))) := by
  rw [FoldHost.W9_h, Cert.KernelIdeal.Args.W8_arg m ρ c main_arg1 (by simp [Cert.KernelIdeal.Args.args]), Cert.KernelIdeal.Args.W8_arg m ρ c main_arg13 (by simp [Cert.KernelIdeal.Args.args]), Cert.KernelIdeal.Args.W8_arg m ρ c main_arg14 (by simp [Cert.KernelIdeal.Args.args]), y2_at m ρ c, Cert.KernelIdeal.Args.W8_arg m ρ c main_arg8 (by simp [Cert.KernelIdeal.Args.args])]

/-- After the second normalisation: the clamped, normalised aggregation. -/
theorem z2_at (c : Dev nD) : W12 m ρ c (Proc.devRef .tc main_v54) = Cert.Spec.bnrelu (Cert.Spec.agg (m ((c : Thread nD τ).loc main_arg1)) (m ((c : Thread nD τ).loc main_arg13)) (m ((c : Thread nD τ).loc main_arg14)) (Cert.Spec.lin (Cert.Spec.bnrelu (Cert.Spec.agg (m ((c : Thread nD τ).loc main_arg1)) (m ((c : Thread nD τ).loc main_arg13)) (m ((c : Thread nD τ).loc main_arg14)) (Cert.Spec.addRow (Cert.Spec.lin (m ((c : Thread nD τ).loc main_arg0)) (m ((c : Thread nD τ).loc main_arg2))) (m ((c : Thread nD τ).loc main_arg3))) (m ((c : Thread nD τ).loc main_arg4))) (m ((c : Thread nD τ).loc main_arg5)) (m ((c : Thread nD τ).loc main_arg6))) (m ((c : Thread nD τ).loc main_arg7))) (m ((c : Thread nD τ).loc main_arg8))) (m ((c : Thread nD τ).loc main_arg9)) (m ((c : Thread nD τ).loc main_arg10)) := by
  have hh : W11 m ρ c (Proc.devRef .tc main_v45) = (Cert.Spec.agg (m ((c : Thread nD τ).loc main_arg1)) (m ((c : Thread nD τ).loc main_arg13)) (m ((c : Thread nD τ).loc main_arg14)) (Cert.Spec.lin (Cert.Spec.bnrelu (Cert.Spec.agg (m ((c : Thread nD τ).loc main_arg1)) (m ((c : Thread nD τ).loc main_arg13)) (m ((c : Thread nD τ).loc main_arg14)) (Cert.Spec.addRow (Cert.Spec.lin (m ((c : Thread nD τ).loc main_arg0)) (m ((c : Thread nD τ).loc main_arg2))) (m ((c : Thread nD τ).loc main_arg3))) (m ((c : Thread nD τ).loc main_arg4))) (m ((c : Thread nD τ).loc main_arg5)) (m ((c : Thread nD τ).loc main_arg6))) (m ((c : Thread nD τ).loc main_arg7))) (m ((c : Thread nD τ).loc main_arg8))) := by rw [FoldHost.W11_h, FoldHost.W10_h, h2_at]
  obtain ⟨rg, rbe, rmu, rvr⟩ := FoldHost.W11_rows m ρ c
  rw [Cert.KernelIdeal.Args.W10_arg m ρ c main_arg9 (by simp [Cert.KernelIdeal.Args.args])] at rg
  rw [Cert.KernelIdeal.Args.W10_arg m ρ c main_arg10 (by simp [Cert.KernelIdeal.Args.args])] at rbe
  rw [FoldHost.W10_mean, FoldHost.W9_mean, h2_at] at rmu
  rw [FoldHost.W10_var, h2_at] at rvr
  exact (W12_arr m ρ c 5).trans (Cert.KernelIdeal.BnValue.region3 (V11 m ρ) c _ _ _ _ _ hh rg rbe rmu rvr)

/-- After the fifth launch: the head. -/
theorem out_at (c : Dev nD) : W14 m ρ c (Proc.devRef .tc main_v56) = (Cert.Spec.head (Cert.Spec.bnrelu (Cert.Spec.agg (m ((c : Thread nD τ).loc main_arg1)) (m ((c : Thread nD τ).loc main_arg13)) (m ((c : Thread nD τ).loc main_arg14)) (Cert.Spec.lin (Cert.Spec.bnrelu (Cert.Spec.agg (m ((c : Thread nD τ).loc main_arg1)) (m ((c : Thread nD τ).loc main_arg13)) (m ((c : Thread nD τ).loc main_arg14)) (Cert.Spec.addRow (Cert.Spec.lin (m ((c : Thread nD τ).loc main_arg0)) (m ((c : Thread nD τ).loc main_arg2))) (m ((c : Thread nD τ).loc main_arg3))) (m ((c : Thread nD τ).loc main_arg4))) (m ((c : Thread nD τ).loc main_arg5)) (m ((c : Thread nD τ).loc main_arg6))) (m ((c : Thread nD τ).loc main_arg7))) (m ((c : Thread nD τ).loc main_arg8))) (m ((c : Thread nD τ).loc main_arg9)) (m ((c : Thread nD τ).loc main_arg10))) (m ((c : Thread nD τ).loc main_arg11)) (m ((c : Thread nD τ).loc main_arg12))) := by
  have hb : W13 m ρ c (Proc.devRef .tc main_v55) = shapeCast S1x128 (m ((c : Thread nD τ).loc main_arg12)) shapeCasts_S128_S1x128 := by
    rw [FoldHost.W13_v55, Cert.KernelIdeal.Args.W12_arg m ρ c main_arg12 (by simp [Cert.KernelIdeal.Args.args])]
  exact (W14_arr m ρ c 3).trans (Cert.KernelIdeal.MmValue.region4 (V13 m ρ) c _ _ _
    ((FoldHost.W13_v54 m ρ c).trans (z2_at m ρ c)) (Cert.KernelIdeal.Args.W13_arg m ρ c main_arg11 (by simp [Cert.KernelIdeal.Args.args])) hb)

/-- The result array: the network of the sixteen arguments. -/
theorem result (c : Dev nD) : W15 m ρ c (Proc.devRef .tc main_v63)
    = Cert.Spec.refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [FoldHost.W15_v63, out_at, Cert.KernelIdeal.Args.W14_arg m ρ c main_arg15 (by simp [Cert.KernelIdeal.Args.args])]
  rfl

end Cert.KernelIdeal.Assemble

end
-- ==== Proof.RefOps.lean ====
/-
  The reference program's host operations as lists, stretch by stretch, with the calls of its outlined functions
  (the column variance with its guarded select, and the clamp at zero) written out at their call sites over the
  buffers each call names. The two windows of the program are the two concatenations `ops0` and `ops1`, and the
  whole program is `seq (ops0 ++ ops1)`. Every operation touches TensorCore references only and determines its
  result.
-/
import proofs.«103152_j58858231824590_1_alg».proof.ReferenceIdeal
import proofs.«103152_j58858231824590_1_alg».proof.Proof.Gen.ReferenceIdeal
import proofs.«103152_j58858231824590_1_alg».proof.Proof.LibStretch
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- 29 operations: the first dense layer, the first aggregation with its bias row, the column means, and the zero count offset. -/
def opsA : List (HloOp τ sig (Elt F)) :=
  [ StableHlo.binary main_arg0 main_arg2 main_v0 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S50000x256 ![0, 1] bcast_S1x256_S50000x256_0_1 : (⟨S1x256, .f32⟩ : BufTy).Contents (Elt F) → (⟨S50000x256, .f32⟩ : BufTy).Contents (Elt F)),
    StableHlo.binary main_v0 main_v2 main_v3 (addf : (⟨S50000x256, .f32⟩ : BufTy).Contents (Elt F) → (⟨S50000x256, .f32⟩ : BufTy).Contents (Elt F) → (⟨S50000x256, .f32⟩ : BufTy).Contents (Elt F)),
    StableHlo.unary main_arg1 main_v4 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v5 (broadcastInDim S800000 ![] bcast_S_S800000 : (⟨S_, .i32⟩ : BufTy).Contents (Elt F) → (⟨S800000, .i32⟩ : BufTy).Contents (Elt F)),
    StableHlo.binary main_arg14 main_v5 main_v6 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v7 (broadcastInDim S800000 ![] bcast_S_S800000 : (⟨S_, .i32⟩ : BufTy).Contents (Elt F) → (⟨S800000, .i32⟩ : BufTy).Contents (Elt F)),
    StableHlo.binary main_arg14 main_v7 main_v8 (addi : (⟨S800000, .i32⟩ : BufTy).Contents (Elt F) → (⟨S800000, .i32⟩ : BufTy).Contents (Elt F) → (⟨S800000, .i32⟩ : BufTy).Contents (Elt F)),
    StableHlo.ternary main_v6 main_v8 main_arg14 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v9 main_v10 (broadcastInDim S800000x1 ![0] bcast_S800000_S800000x1_0 : (⟨S800000, .i32⟩ : BufTy).Contents (Elt F) → (⟨S800000x1, .i32⟩ : BufTy).Contents (Elt F)),
    StableHlo.binary main_v3 main_v10 main_v11 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v4 main_v12 (broadcastInDim S800000x256 ![0, 1] bcast_S800000x1_S800000x256_0_1 : (⟨S800000x1, .f32⟩ : BufTy).Contents (Elt F) → (⟨S800000x256, .f32⟩ : BufTy).Contents (Elt F)),
    StableHlo.binary main_v12 main_v11 main_v13 (mulf : (⟨S800000x256, .f32⟩ : BufTy).Contents (Elt F) → (⟨S800000x256, .f32⟩ : BufTy).Contents (Elt F) → (⟨S800000x256, .f32⟩ : BufTy).Contents (Elt F)),
    StableHlo.nullary main_cst (constant S_ .f32 0x00000000#32),
    StableHlo.unary main_cst main_v14 (broadcastInDim S50000x256 ![] bcast_S_S50000x256 : (⟨S_, .f32⟩ : BufTy).Contents (Elt F) → (⟨S50000x256, .f32⟩ : BufTy).Contents (Elt F)),
    StableHlo.unary main_arg13 main_v15 (broadcastInDim S800000x1 ![0] bcast_S800000_S800000x1_0 : (⟨S800000, .i32⟩ : BufTy).Contents (Elt F) → (⟨S800000x1, .i32⟩ : BufTy).Contents (Elt F)),
    StableHlo.ternary main_v14 main_v15 main_v13 main_v16 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_arg4 main_v17 (broadcastInDim S1x256 ![1] bcast_S256_S1x256_1 : (⟨S256, .f32⟩ : BufTy).Contents (Elt F) → (⟨S1x256, .f32⟩ : BufTy).Contents (Elt F)),
    StableHlo.unary main_v17 main_v18 (broadcastInDim S50000x256 ![0, 1] bcast_S1x256_S50000x256_0_1 : (⟨S1x256, .f32⟩ : BufTy).Contents (Elt F) → (⟨S50000x256, .f32⟩ : BufTy).Contents (Elt F)),
    StableHlo.binary main_v16 main_v18 main_v19 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x00000000#32),
    StableHlo.binary main_v19 main_cst_1 main_v20 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v21 (broadcastInDim S256 ![] bcast_S_S256 : (⟨S_, .f32⟩ : BufTy).Contents (Elt F) → (⟨S256, .f32⟩ : BufTy).Contents (Elt F)),
    StableHlo.binary main_v20 main_v21 main_v22 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32) ]

theorem opsA_sub : (opsA (F := F)).Forall fun op => op.bufs ⊆ tcRefs τ sig := by
  unfold opsA
  exact ⟨binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub ..⟩

theorem opsA_fresh : ∀ op ∈ opsA (F := F), op.fresh = ∅ := by
  unfold opsA
  intro _ h; (repeat (cases h with | head => rfl | tail _ h => ?_)); exact nomatch h

/-- 22 operations: the column variances of the first aggregate. -/
def opsVar0 : List (HloOp τ sig (Elt F)) :=
  [ StableHlo.TRef.nullary (.of main_call0_cst : StableHlo.TRef sig ⟨S_, .f32⟩) (constant S_ .f32 0x00000000#32),
    StableHlo.TRef.binary (.of main_v19 : StableHlo.TRef sig ⟨S50000x256, .f32⟩) (.of main_call0_cst : StableHlo.TRef sig ⟨S_, .f32⟩) (.of main_call0_v0 : StableHlo.TRef sig ⟨S256, .f32⟩) (fun x v => Host.reduceAdd x v reducesTo_S50000x256_S256_d0 h_S_),
    StableHlo.TRef.unary (.of main_call0_v0 : StableHlo.TRef sig ⟨S256, .f32⟩) (.of main_call0_v1 : StableHlo.TRef sig ⟨S1x256, .f32⟩) (broadcastInDim S1x256 ![1] bcast_S256_S1x256_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x256, .f32⟩) (broadcastInDim S1x256 ![] bcast_S_S1x256),
    StableHlo.TRef.binary (.of main_call0_v1 : StableHlo.TRef sig ⟨S1x256, .f32⟩) (.of main_call0_v2 : StableHlo.TRef sig ⟨S1x256, .f32⟩) (.of main_call0_v3 : StableHlo.TRef sig ⟨S1x256, .f32⟩) Host.divf,
    StableHlo.TRef.unary (.of main_call0_v3 : StableHlo.TRef sig ⟨S1x256, .f32⟩) (.of main_call0_v4 : StableHlo.TRef sig ⟨S50000x256, .f32⟩) (broadcastInDim S50000x256 ![0, 1] bcast_S1x256_S50000x256_0_1),
    StableHlo.TRef.binary (.of main_v19 : StableHlo.TRef sig ⟨S50000x256, .f32⟩) (.of main_call0_v4 : StableHlo.TRef sig ⟨S50000x256, .f32⟩) (.of main_call0_v5 : StableHlo.TRef sig ⟨S50000x256, .f32⟩) subf,
    StableHlo.TRef.binary (.of main_call0_v5 : StableHlo.TRef sig ⟨S50000x256, .f32⟩) (.of main_call0_v5 : StableHlo.TRef sig ⟨S50000x256, .f32⟩) (.of main_call0_v6 : StableHlo.TRef sig ⟨S50000x256, .f32⟩) mulf,
    StableHlo.TRef.unary (.of main_c_3 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x256, .f32⟩) (.of main_call0_cst_2 : StableHlo.TRef sig ⟨S_, .f32⟩) (.of main_call0_v9 : StableHlo.TRef sig ⟨S256, .f32⟩) (fun x v => Host.reduceAdd x v reducesTo_S50000x256_S256_d0 h_S_),
    StableHlo.TRef.unary (.of main_call0_v8 : StableHlo.TRef sig ⟨S_, .f32⟩) (.of main_call0_v10 : StableHlo.TRef sig ⟨S256, .f32⟩) (broadcastInDim S256 ![] bcast_S_S256),
    StableHlo.TRef.binary (.of main_call0_v9 : StableHlo.TRef sig ⟨S256, .f32⟩) (.of main_call0_v10 : StableHlo.TRef sig ⟨S256, .f32⟩) (.of main_call0_v11 : StableHlo.TRef sig ⟨S256, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S256, .f32⟩) (broadcastInDim S256 ![] bcast_S_S256),
    StableHlo.TRef.ternary (.of main_call0_v12 : StableHlo.TRef sig ⟨S_, .i1⟩) (.of main_call0_v11 : StableHlo.TRef sig ⟨S256, .f32⟩) (.of main_call0_call0_v1 : StableHlo.TRef sig ⟨S256, .f32⟩) (.of main_v23 : StableHlo.TRef sig ⟨S256, .f32⟩) (fun p a b => select (broadcastInDim S256 ![] bcast_S_S256 p) a b) ]

theorem opsVar0_sub : (opsVar0 (F := F)).Forall fun op => op.bufs ⊆ tcRefs τ sig := by
  unfold opsVar0
  exact ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsVar0_fresh : ∀ op ∈ opsVar0 (F := F), op.fresh = ∅ := by
  unfold opsVar0
  intro _ h; (repeat (cases h with | head => rfl | tail _ h => ?_)); exact nomatch h

/-- 16 operations: the first normalisation. -/
def opsB : List (HloOp τ sig (Elt F)) :=
  [ StableHlo.unary main_v22 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S50000x256 ![0, 1] bcast_S1x256_S50000x256_0_1 : (⟨S1x256, .f32⟩ : BufTy).Contents (Elt F) → (⟨S50000x256, .f32⟩ : BufTy).Contents (Elt F)),
    StableHlo.binary main_v19 main_v25 main_v26 (subf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v27 (broadcastInDim S256 ![] bcast_S_S256 : (⟨S_, .f32⟩ : BufTy).Contents (Elt F) → (⟨S256, .f32⟩ : BufTy).Contents (Elt F)),
    StableHlo.binary main_v23 main_v27 main_v28 (addf : (⟨S256, .f32⟩ : BufTy).Contents (Elt F) → (⟨S256, .f32⟩ : BufTy).Contents (Elt F) → (⟨S256, .f32⟩ : BufTy).Contents (Elt F)),
    StableHlo.unary main_v28 main_v29 (Host.rsqrt : (⟨S256, .f32⟩ : BufTy).Contents (Elt F) → (⟨S256, .f32⟩ : BufTy).Contents (Elt F)),
    StableHlo.unary main_v29 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S50000x256 ![0, 1] bcast_S1x256_S50000x256_0_1 : (⟨S1x256, .f32⟩ : BufTy).Contents (Elt F) → (⟨S50000x256, .f32⟩ : BufTy).Contents (Elt F)),
    StableHlo.binary main_v26 main_v31 main_v32 (mulf : (⟨S50000x256, .f32⟩ : BufTy).Contents (Elt F) → (⟨S50000x256, .f32⟩ : BufTy).Contents (Elt F) → (⟨S50000x256, .f32⟩ : BufTy).Contents (Elt F)),
    StableHlo.unary main_arg5 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S50000x256 ![0, 1] bcast_S1x256_S50000x256_0_1 : (⟨S1x256, .f32⟩ : BufTy).Contents (Elt F) → (⟨S50000x256, .f32⟩ : BufTy).Contents (Elt F)),
    StableHlo.binary main_v32 main_v34 main_v35 (mulf : (⟨S50000x256, .f32⟩ : BufTy).Contents (Elt F) → (⟨S50000x256, .f32⟩ : BufTy).Contents (Elt F) → (⟨S50000x256, .f32⟩ : BufTy).Contents (Elt F)),
    StableHlo.unary main_arg6 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S50000x256 ![0, 1] bcast_S1x256_S50000x256_0_1 : (⟨S1x256, .f32⟩ : BufTy).Contents (Elt F) → (⟨S50000x256, .f32⟩ : BufTy).Contents (Elt F)),
    StableHlo.binary main_v35 main_v37 main_v38 (addf : (⟨S50000x256, .f32⟩ : BufTy).Contents (Elt F) → (⟨S50000x256, .f32⟩ : BufTy).Contents (Elt F) → (⟨S50000x256, .f32⟩ : BufTy).Contents (Elt F)) ]

theorem opsB_sub : (opsB (F := F)).Forall fun op => op.bufs ⊆ tcRefs τ sig := by
  unfold opsB
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem opsB_fresh : ∀ op ∈ opsB (F := F), op.fresh = ∅ := by
  unfold opsB
  intro _ h; (repeat (cases h with | head => rfl | tail _ h => ?_)); exact nomatch h

/-- 3 operations: the first clamp at zero. -/
def opsRelu1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x256, .f32⟩) (broadcastInDim S50000x256 ![] bcast_S_S50000x256),
    StableHlo.TRef.binary (.of main_v38 : StableHlo.TRef sig ⟨S50000x256, .f32⟩) (.of main_call1_v0 : StableHlo.TRef sig ⟨S50000x256, .f32⟩) (.of main_v39 : StableHlo.TRef sig ⟨S50000x256, .f32⟩) maximumf ]

theorem opsRelu1_sub : (opsRelu1 (F := F)).Forall fun op => op.bufs ⊆ tcRefs τ sig := by
  unfold opsRelu1
  exact ⟨nullary_bufs_sub .., unary_bufs_sub .., binary_bufs_sub ..⟩

theorem opsRelu1_fresh : ∀ op ∈ opsRelu1 (F := F), op.fresh = ∅ := by
  unfold opsRelu1
  intro _ h; (repeat (cases h with | head => rfl | tail _ h => ?_)); exact nomatch h

/-- 13 operations: the second dense product, gathered along the edges and scaled by the edge weights. -/
def opsC0 : List (HloOp τ sig (Elt F)) :=
  [ StableHlo.binary main_v39 main_arg7 main_v40 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg1 main_v41 (broadcastInDim S800000x1 ![0] bcast_S800000_S800000x1_0 : (⟨S800000, .f32⟩ : BufTy).Contents (Elt F) → (⟨S800000x1, .f32⟩ : BufTy).Contents (Elt F)),
    StableHlo.nullary main_c_5 (constantI S_ 32 0#32),
    StableHlo.unary main_c_5 main_v42 (broadcastInDim S800000 ![] bcast_S_S800000 : (⟨S_, .i32⟩ : BufTy).Contents (Elt F) → (⟨S800000, .i32⟩ : BufTy).Contents (Elt F)),
    StableHlo.binary main_arg14 main_v42 main_v43 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v44 (broadcastInDim S800000 ![] bcast_S_S800000 : (⟨S_, .i32⟩ : BufTy).Contents (Elt F) → (⟨S800000, .i32⟩ : BufTy).Contents (Elt F)),
    StableHlo.binary main_arg14 main_v44 main_v45 (addi : (⟨S800000, .i32⟩ : BufTy).Contents (Elt F) → (⟨S800000, .i32⟩ : BufTy).Contents (Elt F) → (⟨S800000, .i32⟩ : BufTy).Contents (Elt F)),
    StableHlo.ternary main_v43 main_v45 main_arg14 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v46 main_v47 (broadcastInDim S800000x1 ![0] bcast_S800000_S800000x1_0 : (⟨S800000, .i32⟩ : BufTy).Contents (Elt F) → (⟨S800000x1, .i32⟩ : BufTy).Contents (Elt F)),
    StableHlo.binary main_v40 main_v47 main_v48 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v41 main_v49 (broadcastInDim S800000x256 ![0, 1] bcast_S800000x1_S800000x256_0_1 : (⟨S800000x1, .f32⟩ : BufTy).Contents (Elt F) → (⟨S800000x256, .f32⟩ : BufTy).Contents (Elt F)),
    StableHlo.binary main_v49 main_v48 main_v50 (mulf : (⟨S800000x256, .f32⟩ : BufTy).Contents (Elt F) → (⟨S800000x256, .f32⟩ : BufTy).Contents (Elt F) → (⟨S800000x256, .f32⟩ : BufTy).Contents (Elt F)) ]

theorem opsC0_sub : (opsC0 (F := F)).Forall fun op => op.bufs ⊆ tcRefs τ sig := by
  unfold opsC0
  exact ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩

theorem opsC0_fresh : ∀ op ∈ opsC0 (F := F), op.fresh = ∅ := by
  unfold opsC0
  intro _ h; (repeat (cases h with | head => rfl | tail _ h => ?_)); exact nomatch h

/-- 13 operations: the second aggregation with its bias row, the column means, and the zero count offset. -/
def opsC1 : List (HloOp τ sig (Elt F)) :=
  [ StableHlo.nullary main_cst_7 (constant S_ .f32 0x00000000#32),
    StableHlo.unary main_cst_7 main_v51 (broadcastInDim S50000x256 ![] bcast_S_S50000x256 : (⟨S_, .f32⟩ : BufTy).Contents (Elt F) → (⟨S50000x256, .f32⟩ : BufTy).Contents (Elt F)),
    StableHlo.unary main_arg13 main_v52 (broadcastInDim S800000x1 ![0] bcast_S800000_S800000x1_0 : (⟨S800000, .i32⟩ : BufTy).Contents (Elt F) → (⟨S800000x1, .i32⟩ : BufTy).Contents (Elt F)),
    StableHlo.ternary main_v51 main_v52 main_v50 main_v53 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_arg8 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S50000x256 ![0, 1] bcast_S1x256_S50000x256_0_1 : (⟨S1x256, .f32⟩ : BufTy).Contents (Elt F) → (⟨S50000x256, .f32⟩ : BufTy).Contents (Elt F)),
    StableHlo.binary main_v53 main_v55 main_v56 (addf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x00000000#32),
    StableHlo.binary main_v56 main_cst_8 main_v57 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_9 (constant S_ .f32 0x47435000#32),
    StableHlo.unary main_cst_9 main_v58 (broadcastInDim S256 ![] bcast_S_S256 : (⟨S_, .f32⟩ : BufTy).Contents (Elt F) → (⟨S256, .f32⟩ : BufTy).Contents (Elt F)),
    StableHlo.binary main_v57 main_v58 main_v59 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32) ]

theorem opsC1_sub : (opsC1 (F := F)).Forall fun op => op.bufs ⊆ tcRefs τ sig := by
  unfold opsC1
  exact ⟨nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub ..⟩

theorem opsC1_fresh : ∀ op ∈ opsC1 (F := F), op.fresh = ∅ := by
  unfold opsC1
  intro _ h; (repeat (cases h with | head => rfl | tail _ h => ?_)); exact nomatch h

/-- 22 operations: the column variances of the second aggregate. -/
def opsVar2 : List (HloOp τ sig (Elt F)) :=
  [ StableHlo.TRef.nullary (.of main_call2_cst : StableHlo.TRef sig ⟨S_, .f32⟩) (constant S_ .f32 0x00000000#32),
    StableHlo.TRef.binary (.of main_v56 : StableHlo.TRef sig ⟨S50000x256, .f32⟩) (.of main_call2_cst : StableHlo.TRef sig ⟨S_, .f32⟩) (.of main_call2_v0 : StableHlo.TRef sig ⟨S256, .f32⟩) (fun x v => Host.reduceAdd x v reducesTo_S50000x256_S256_d0 h_S_),
    StableHlo.TRef.unary (.of main_call2_v0 : StableHlo.TRef sig ⟨S256, .f32⟩) (.of main_call2_v1 : StableHlo.TRef sig ⟨S1x256, .f32⟩) (broadcastInDim S1x256 ![1] bcast_S256_S1x256_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x256, .f32⟩) (broadcastInDim S1x256 ![] bcast_S_S1x256),
    StableHlo.TRef.binary (.of main_call2_v1 : StableHlo.TRef sig ⟨S1x256, .f32⟩) (.of main_call2_v2 : StableHlo.TRef sig ⟨S1x256, .f32⟩) (.of main_call2_v3 : StableHlo.TRef sig ⟨S1x256, .f32⟩) Host.divf,
    StableHlo.TRef.unary (.of main_call2_v3 : StableHlo.TRef sig ⟨S1x256, .f32⟩) (.of main_call2_v4 : StableHlo.TRef sig ⟨S50000x256, .f32⟩) (broadcastInDim S50000x256 ![0, 1] bcast_S1x256_S50000x256_0_1),
    StableHlo.TRef.binary (.of main_v56 : StableHlo.TRef sig ⟨S50000x256, .f32⟩) (.of main_call2_v4 : StableHlo.TRef sig ⟨S50000x256, .f32⟩) (.of main_call2_v5 : StableHlo.TRef sig ⟨S50000x256, .f32⟩) subf,
    StableHlo.TRef.binary (.of main_call2_v5 : StableHlo.TRef sig ⟨S50000x256, .f32⟩) (.of main_call2_v5 : StableHlo.TRef sig ⟨S50000x256, .f32⟩) (.of main_call2_v6 : StableHlo.TRef sig ⟨S50000x256, .f32⟩) mulf,
    StableHlo.TRef.unary (.of main_c_10 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x256, .f32⟩) (.of main_call2_cst_2 : StableHlo.TRef sig ⟨S_, .f32⟩) (.of main_call2_v9 : StableHlo.TRef sig ⟨S256, .f32⟩) (fun x v => Host.reduceAdd x v reducesTo_S50000x256_S256_d0 h_S_),
    StableHlo.TRef.unary (.of main_call2_v8 : StableHlo.TRef sig ⟨S_, .f32⟩) (.of main_call2_v10 : StableHlo.TRef sig ⟨S256, .f32⟩) (broadcastInDim S256 ![] bcast_S_S256),
    StableHlo.TRef.binary (.of main_call2_v9 : StableHlo.TRef sig ⟨S256, .f32⟩) (.of main_call2_v10 : StableHlo.TRef sig ⟨S256, .f32⟩) (.of main_call2_v11 : StableHlo.TRef sig ⟨S256, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S256, .f32⟩) (broadcastInDim S256 ![] bcast_S_S256),
    StableHlo.TRef.ternary (.of main_call2_v12 : StableHlo.TRef sig ⟨S_, .i1⟩) (.of main_call2_v11 : StableHlo.TRef sig ⟨S256, .f32⟩) (.of main_call2_call0_v1 : StableHlo.TRef sig ⟨S256, .f32⟩) (.of main_v60 : StableHlo.TRef sig ⟨S256, .f32⟩) (fun p a b => select (broadcastInDim S256 ![] bcast_S_S256 p) a b) ]

theorem opsVar2_sub : (opsVar2 (F := F)).Forall fun op => op.bufs ⊆ tcRefs τ sig := by
  unfold opsVar2
  exact ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsVar2_fresh : ∀ op ∈ opsVar2 (F := F), op.fresh = ∅ := by
  unfold opsVar2
  intro _ h; (repeat (cases h with | head => rfl | tail _ h => ?_)); exact nomatch h

/-- 16 operations: the second normalisation. -/
def opsD : List (HloOp τ sig (Elt F)) :=
  [ StableHlo.unary main_v59 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S50000x256 ![0, 1] bcast_S1x256_S50000x256_0_1 : (⟨S1x256, .f32⟩ : BufTy).Contents (Elt F) → (⟨S50000x256, .f32⟩ : BufTy).Contents (Elt F)),
    StableHlo.binary main_v56 main_v62 main_v63 (subf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x3727C5AC#32),
    StableHlo.unary main_cst_11 main_v64 (broadcastInDim S256 ![] bcast_S_S256 : (⟨S_, .f32⟩ : BufTy).Contents (Elt F) → (⟨S256, .f32⟩ : BufTy).Contents (Elt F)),
    StableHlo.binary main_v60 main_v64 main_v65 (addf : (⟨S256, .f32⟩ : BufTy).Contents (Elt F) → (⟨S256, .f32⟩ : BufTy).Contents (Elt F) → (⟨S256, .f32⟩ : BufTy).Contents (Elt F)),
    StableHlo.unary main_v65 main_v66 (Host.rsqrt : (⟨S256, .f32⟩ : BufTy).Contents (Elt F) → (⟨S256, .f32⟩ : BufTy).Contents (Elt F)),
    StableHlo.unary main_v66 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S50000x256 ![0, 1] bcast_S1x256_S50000x256_0_1 : (⟨S1x256, .f32⟩ : BufTy).Contents (Elt F) → (⟨S50000x256, .f32⟩ : BufTy).Contents (Elt F)),
    StableHlo.binary main_v63 main_v68 main_v69 (mulf : (⟨S50000x256, .f32⟩ : BufTy).Contents (Elt F) → (⟨S50000x256, .f32⟩ : BufTy).Contents (Elt F) → (⟨S50000x256, .f32⟩ : BufTy).Contents (Elt F)),
    StableHlo.unary main_arg9 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v71 main_v72 (mulf : (⟨S50000x256, .f32⟩ : BufTy).Contents (Elt F) → (⟨S50000x256, .f32⟩ : BufTy).Contents (Elt F) → (⟨S50000x256, .f32⟩ : BufTy).Contents (Elt F)),
    StableHlo.unary main_arg10 main_v73 (broadcastInDim S1x256 ![1] bcast_S256_S1x256_1 : (⟨S256, .f32⟩ : BufTy).Contents (Elt F) → (⟨S1x256, .f32⟩ : BufTy).Contents (Elt F)),
    StableHlo.unary main_v73 main_v74 (broadcastInDim S50000x256 ![0, 1] bcast_S1x256_S50000x256_0_1 : (⟨S1x256, .f32⟩ : BufTy).Contents (Elt F) → (⟨S50000x256, .f32⟩ : BufTy).Contents (Elt F)),
    StableHlo.binary main_v72 main_v74 main_v75 (addf : (⟨S50000x256, .f32⟩ : BufTy).Contents (Elt F) → (⟨S50000x256, .f32⟩ : BufTy).Contents (Elt F) → (⟨S50000x256, .f32⟩ : BufTy).Contents (Elt F)) ]

theorem opsD_sub : (opsD (F := F)).Forall fun op => op.bufs ⊆ tcRefs τ sig := by
  unfold opsD
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem opsD_fresh : ∀ op ∈ opsD (F := F), op.fresh = ∅ := by
  unfold opsD
  intro _ h; (repeat (cases h with | head => rfl | tail _ h => ?_)); exact nomatch h

/-- 3 operations: the second clamp at zero. -/
def opsRelu3 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x256, .f32⟩) (broadcastInDim S50000x256 ![] bcast_S_S50000x256),
    StableHlo.TRef.binary (.of main_v75 : StableHlo.TRef sig ⟨S50000x256, .f32⟩) (.of main_call3_v0 : StableHlo.TRef sig ⟨S50000x256, .f32⟩) (.of main_v76 : StableHlo.TRef sig ⟨S50000x256, .f32⟩) maximumf ]

theorem opsRelu3_sub : (opsRelu3 (F := F)).Forall fun op => op.bufs ⊆ tcRefs τ sig := by
  unfold opsRelu3
  exact ⟨nullary_bufs_sub .., unary_bufs_sub .., binary_bufs_sub ..⟩

theorem opsRelu3_fresh : ∀ op ∈ opsRelu3 (F := F), op.fresh = ∅ := by
  unfold opsRelu3
  intro _ h; (repeat (cases h with | head => rfl | tail _ h => ?_)); exact nomatch h

/-- 13 operations: the affine head and the selection of the indexed rows. -/
def opsE : List (HloOp τ sig (Elt F)) :=
  [ StableHlo.binary main_v76 main_arg11 main_v77 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v79 main_v80 (addf : (⟨S50000x128, .f32⟩ : BufTy).Contents (Elt F) → (⟨S50000x128, .f32⟩ : BufTy).Contents (Elt F) → (⟨S50000x128, .f32⟩ : BufTy).Contents (Elt F)),
    StableHlo.nullary main_c_12 (constantI S_ 32 0#32),
    StableHlo.unary main_c_12 main_v81 (broadcastInDim S25000 ![] bcast_S_S25000 : (⟨S_, .i32⟩ : BufTy).Contents (Elt F) → (⟨S25000, .i32⟩ : BufTy).Contents (Elt F)),
    StableHlo.binary main_arg15 main_v81 main_v82 (cmpi .slt : (⟨S25000, .i32⟩ : BufTy).Contents (Elt F) → (⟨S25000, .i32⟩ : BufTy).Contents (Elt F) → (⟨S25000, .i1⟩ : BufTy).Contents (Elt F)),
    StableHlo.nullary main_c_13 (constantI S_ 32 50000#32),
    StableHlo.unary main_c_13 main_v83 (broadcastInDim S25000 ![] bcast_S_S25000 : (⟨S_, .i32⟩ : BufTy).Contents (Elt F) → (⟨S25000, .i32⟩ : BufTy).Contents (Elt F)),
    StableHlo.binary main_arg15 main_v83 main_v84 (addi : (⟨S25000, .i32⟩ : BufTy).Contents (Elt F) → (⟨S25000, .i32⟩ : BufTy).Contents (Elt F) → (⟨S25000, .i32⟩ : BufTy).Contents (Elt F)),
    StableHlo.ternary main_v82 main_v84 main_arg15 main_v85 (select : (⟨S25000, .i1⟩ : BufTy).Contents (Elt F) → (⟨S25000, .i32⟩ : BufTy).Contents (Elt F) → (⟨S25000, .i32⟩ : BufTy).Contents (Elt F) → (⟨S25000, .i32⟩ : BufTy).Contents (Elt F)),
    StableHlo.unary main_v85 main_v86 (broadcastInDim S25000x1 ![0] bcast_S25000_S25000x1_0 : (⟨S25000, .i32⟩ : BufTy).Contents (Elt F) → (⟨S25000x1, .i32⟩ : BufTy).Contents (Elt F)),
    StableHlo.binary main_v80 main_v86 main_v87 ((fun x i => Host.gather gather_S50000x128_S25000x1_S25000x128_1_0_n_n_0_1_1128 x i) : (⟨S50000x128, .f32⟩ : BufTy).Contents (Elt F) → (⟨S25000x1, .i32⟩ : BufTy).Contents (Elt F) → (⟨S25000x128, .f32⟩ : BufTy).Contents (Elt F)) ]

theorem opsE_sub : (opsE (F := F)).Forall fun op => op.bufs ⊆ tcRefs τ sig := by
  unfold opsE
  exact ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsE_fresh : ∀ op ∈ opsE (F := F), op.fresh = ∅ := by
  unfold opsE
  intro _ h; (repeat (cases h with | head => rfl | tail _ h => ?_)); exact nomatch h

/-- The first window's operations. -/
def ops0 : List (HloOp τ sig (Elt F)) := opsA ++ (opsVar0 ++ (opsB ++ (opsRelu1 ++ opsC0)))
/-- The second window's operations. -/
def ops1 : List (HloOp τ sig (Elt F)) := opsC1 ++ (opsVar2 ++ (opsD ++ (opsRelu3 ++ opsE)))
/-- The whole program's operations. -/
def ops : List (HloOp τ sig (Elt F)) := ops0 ++ ops1

end Cert.ReferenceIdeal.RefRun

end
-- ==== Proof.RefMain.lean ====
/-
  The reference program is the straight line of its operations: each window is `seq` of its list (the outlined
  functions' bodies unfolded at their calls, sequencing reassociated), and the two windows one after the other are
  `seq` of the concatenation. With it: the lists touch TensorCore references only, every operation determines its
  result, and the signature scopes no buffer and no semaphore.
-/
import proofs.«103152_j58858231824590_1_alg».proof.Proof.RefOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

set_option maxRecDepth 16384 in
/-- The first window is the line of its operations. -/
theorem part0_eq (c : Dev nD) : main_part0 (F := F) c = seq ops0 := rfl

set_option maxRecDepth 16384 in
/-- The second window is the line of its operations. -/
theorem part1_eq (c : Dev nD) : main_part1 (F := F) c = seq ops1 := rfl

/-- The program is the line of all its operations. -/
theorem main_eq (c : Dev nD) : main (F := F) c = seq ops := by
  show (main_part0 (F := F) c >>= fun _ => main_part1 (F := F) c) = seq (ops0 ++ ops1)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig :=
  List.forall_iff_forall_mem.mpr fun op h => by
    simp only [ops, ops0, ops1, List.mem_append] at h
    rcases h with (h | h | h | h | h) | (h | h | h | h | h)
    · exact List.forall_iff_forall_mem.mp opsA_sub op h
    · exact List.forall_iff_forall_mem.mp opsVar0_sub op h
    · exact List.forall_iff_forall_mem.mp opsB_sub op h
    · exact List.forall_iff_forall_mem.mp opsRelu1_sub op h
    · exact List.forall_iff_forall_mem.mp opsC0_sub op h
    · exact List.forall_iff_forall_mem.mp opsC1_sub op h
    · exact List.forall_iff_forall_mem.mp opsVar2_sub op h
    · exact List.forall_iff_forall_mem.mp opsD_sub op h
    · exact List.forall_iff_forall_mem.mp opsRelu3_sub op h
    · exact List.forall_iff_forall_mem.mp opsE_sub op h

theorem ops_fresh : ∀ op ∈ ops (F := F), op.fresh = ∅ := fun op h => by
  simp only [ops, ops0, ops1, List.mem_append] at h
  rcases h with (h | h | h | h | h) | (h | h | h | h | h)
  · exact opsA_fresh op h
  · exact opsVar0_fresh op h
  · exact opsB_fresh op h
  · exact opsRelu1_fresh op h
  · exact opsC0_fresh op h
  · exact opsC1_fresh op h
  · exact opsVar2_fresh op h
  · exact opsD_fresh op h
  · exact opsRelu3_fresh op h
  · exact opsE_fresh op h

end Cert.ReferenceIdeal.RefRun

end
-- ==== Proof.RefRead.lean ====
/-
  What each stretch of the reference program leaves in the buffers later stretches read, as the network's own
  stage functions of the contents the stretch starts from: the fold of the stretch's operations computed at the
  one buffer, every operation's result at its own buffer and what was there at any other.
-/
import proofs.«103152_j58858231824590_1_alg».proof.Proof.RefOps
import proofs.«103152_j58858231824590_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- After the first stretch the aggregate buffer holds the first layer's aggregation of the dense product, with its bias row. -/
theorem A_v19 (V : Valuation τ sig (Elt Ideal)) :
    after (opsA (F := Ideal)) V (Proc.devRef .tc main_v19)
      = Spec.agg (V (Proc.devRef .tc main_arg1)) (V (Proc.devRef .tc main_arg13)) (V (Proc.devRef .tc main_arg14)) (Spec.addRow (Spec.lin (V (Proc.devRef .tc main_arg0)) (V (Proc.devRef .tc main_arg2))) (V (Proc.devRef .tc main_arg3))) (V (Proc.devRef .tc main_arg4)) := by
  unfold opsA
  after_results_simp
  rfl

/-- … and the next buffer its column means. -/
theorem A_v22 (V : Valuation τ sig (Elt Ideal)) :
    after (opsA (F := Ideal)) V (Proc.devRef .tc main_v22)
      = Spec.mean (Spec.agg (V (Proc.devRef .tc main_arg1)) (V (Proc.devRef .tc main_arg13)) (V (Proc.devRef .tc main_arg14)) (Spec.addRow (Spec.lin (V (Proc.devRef .tc main_arg0)) (V (Proc.devRef .tc main_arg2))) (V (Proc.devRef .tc main_arg3))) (V (Proc.devRef .tc main_arg4))) := by
  unfold opsA
  after_results_simp
  rfl

/-- … and the count offset is the integer zero. -/
theorem A_c3 (V : Valuation τ sig (Elt Ideal)) :
    after (opsA (F := Ideal)) V (Proc.devRef .tc main_c_3)
      = constantI S_ 32 0#32 := by
  unfold opsA
  after_results_simp

/-- The variance stretch, run from contents whose count offset is zero, leaves the guarded column variances of the aggregate. -/
theorem Var0_v23 (V : Valuation τ sig (Elt Ideal)) (hc : V (Proc.devRef .tc main_c_3) = constantI S_ 32 0#32) :
    after (opsVar0 (F := Ideal)) V (Proc.devRef .tc main_v23)
      = Spec.var (V (Proc.devRef .tc main_v19)) := by
  unfold opsVar0
  after_results_simp
  simp only [Cert.LibStretch.ofBuf_toBuf]
  rw [hc]
  rfl

/-- The normalisation stretch: every column shifted by its mean, scaled by the inverse root of its variance plus epsilon and by the gain, and shifted by the offset. -/
theorem B_v38 (V : Valuation τ sig (Elt Ideal)) :
    after (opsB (F := Ideal)) V (Proc.devRef .tc main_v38)
      = Spec.norm (V (Proc.devRef .tc main_v19)) (V (Proc.devRef .tc main_arg5)) (V (Proc.devRef .tc main_arg6)) (V (Proc.devRef .tc main_v22)) (V (Proc.devRef .tc main_v23)) := by
  unfold opsB
  after_results_simp
  rfl

/-- The clamp at zero. -/
theorem R1_v39 (V : Valuation τ sig (Elt Ideal)) :
    after (opsRelu1 (F := Ideal)) V (Proc.devRef .tc main_v39)
      = Spec.relu (V (Proc.devRef .tc main_v38)) := by
  unfold opsRelu1
  after_results_simp
  simp only [Cert.LibStretch.ofBuf_toBuf]
  rfl

/-- The second layer's dense product aggregated along the edges, with its bias row. -/
theorem C_v56 (V : Valuation τ sig (Elt Ideal)) :
    after (opsC1 (F := Ideal)) (after (opsC0 (F := Ideal)) V) (Proc.devRef .tc main_v56)
      = Spec.agg (V (Proc.devRef .tc main_arg1)) (V (Proc.devRef .tc main_arg13)) (V (Proc.devRef .tc main_arg14)) (Spec.lin (V (Proc.devRef .tc main_v39)) (V (Proc.devRef .tc main_arg7))) (V (Proc.devRef .tc main_arg8)) := by
  unfold opsC1 opsC0
  after_results_simp
  rfl

/-- … its column means. -/
theorem C_v59 (V : Valuation τ sig (Elt Ideal)) :
    after (opsC1 (F := Ideal)) (after (opsC0 (F := Ideal)) V) (Proc.devRef .tc main_v59)
      = Spec.mean (Spec.agg (V (Proc.devRef .tc main_arg1)) (V (Proc.devRef .tc main_arg13)) (V (Proc.devRef .tc main_arg14)) (Spec.lin (V (Proc.devRef .tc main_v39)) (V (Proc.devRef .tc main_arg7))) (V (Proc.devRef .tc main_arg8))) := by
  unfold opsC1 opsC0
  after_results_simp
  rfl

/-- … and the count offset, the integer zero. -/
theorem C_c10 (V : Valuation τ sig (Elt Ideal)) :
    after (opsC1 (F := Ideal)) (after (opsC0 (F := Ideal)) V) (Proc.devRef .tc main_c_10)
      = constantI S_ 32 0#32 := by
  unfold opsC1 opsC0
  after_results_simp

/-- The second variance stretch. -/
theorem Var2_v60 (V : Valuation τ sig (Elt Ideal)) (hc : V (Proc.devRef .tc main_c_10) = constantI S_ 32 0#32) :
    after (opsVar2 (F := Ideal)) V (Proc.devRef .tc main_v60)
      = Spec.var (V (Proc.devRef .tc main_v56)) := by
  unfold opsVar2
  after_results_simp
  simp only [Cert.LibStretch.ofBuf_toBuf]
  rw [hc]
  rfl

/-- The second normalisation. -/
theorem D_v75 (V : Valuation τ sig (Elt Ideal)) :
    after (opsD (F := Ideal)) V (Proc.devRef .tc main_v75)
      = Spec.norm (V (Proc.devRef .tc main_v56)) (V (Proc.devRef .tc main_arg9)) (V (Proc.devRef .tc main_arg10)) (V (Proc.devRef .tc main_v59)) (V (Proc.devRef .tc main_v60)) := by
  unfold opsD
  after_results_simp
  rfl

/-- The second clamp at zero. -/
theorem R3_v76 (V : Valuation τ sig (Elt Ideal)) :
    after (opsRelu3 (F := Ideal)) V (Proc.devRef .tc main_v76)
      = Spec.relu (V (Proc.devRef .tc main_v75)) := by
  unfold opsRelu3
  after_results_simp
  simp only [Cert.LibStretch.ofBuf_toBuf]
  rfl

/-- The affine head, then the rows the index array names. -/
theorem E_v87 (V : Valuation τ sig (Elt Ideal)) :
    after (opsE (F := Ideal)) V (Proc.devRef .tc main_v87)
      = Spec.pick (Spec.head (V (Proc.devRef .tc main_v76)) (V (Proc.devRef .tc main_arg11)) (V (Proc.devRef .tc main_arg12))) (V (Proc.devRef .tc main_arg15)) := by
  unfold opsE
  after_results_simp
  rfl

end Cert.ReferenceIdeal.RefRun

end
-- ==== Proof.RefFramesA.lean ====
/-
  The buffers a stretch of the reference program does not write keep their contents across it: the argument
  buffers across every stretch, and the aggregate and its column means across the variance stretch that reads
  them. Every operation of a stretch writes one buffer, and it is none of these.
-/
import proofs.«103152_j58858231824590_1_alg».proof.Proof.RefOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

theorem fr_opsA_arg0 (V : Valuation τ sig (Elt F)) :
    after (opsA (F := F)) V (Proc.devRef .tc main_arg0) = V (Proc.devRef .tc main_arg0) := by
  unfold opsA
  after_results_simp

theorem fr_opsA_arg1 (V : Valuation τ sig (Elt F)) :
    after (opsA (F := F)) V (Proc.devRef .tc main_arg1) = V (Proc.devRef .tc main_arg1) := by
  unfold opsA
  after_results_simp

theorem fr_opsA_arg2 (V : Valuation τ sig (Elt F)) :
    after (opsA (F := F)) V (Proc.devRef .tc main_arg2) = V (Proc.devRef .tc main_arg2) := by
  unfold opsA
  after_results_simp

theorem fr_opsA_arg3 (V : Valuation τ sig (Elt F)) :
    after (opsA (F := F)) V (Proc.devRef .tc main_arg3) = V (Proc.devRef .tc main_arg3) := by
  unfold opsA
  after_results_simp

theorem fr_opsA_arg4 (V : Valuation τ sig (Elt F)) :
    after (opsA (F := F)) V (Proc.devRef .tc main_arg4) = V (Proc.devRef .tc main_arg4) := by
  unfold opsA
  after_results_simp

theorem fr_opsA_arg5 (V : Valuation τ sig (Elt F)) :
    after (opsA (F := F)) V (Proc.devRef .tc main_arg5) = V (Proc.devRef .tc main_arg5) := by
  unfold opsA
  after_results_simp

theorem fr_opsA_arg6 (V : Valuation τ sig (Elt F)) :
    after (opsA (F := F)) V (Proc.devRef .tc main_arg6) = V (Proc.devRef .tc main_arg6) := by
  unfold opsA
  after_results_simp

theorem fr_opsA_arg7 (V : Valuation τ sig (Elt F)) :
    after (opsA (F := F)) V (Proc.devRef .tc main_arg7) = V (Proc.devRef .tc main_arg7) := by
  unfold opsA
  after_results_simp

theorem fr_opsA_arg8 (V : Valuation τ sig (Elt F)) :
    after (opsA (F := F)) V (Proc.devRef .tc main_arg8) = V (Proc.devRef .tc main_arg8) := by
  unfold opsA
  after_results_simp

theorem fr_opsA_arg9 (V : Valuation τ sig (Elt F)) :
    after (opsA (F := F)) V (Proc.devRef .tc main_arg9) = V (Proc.devRef .tc main_arg9) := by
  unfold opsA
  after_results_simp

theorem fr_opsA_arg10 (V : Valuation τ sig (Elt F)) :
    after (opsA (F := F)) V (Proc.devRef .tc main_arg10) = V (Proc.devRef .tc main_arg10) := by
  unfold opsA
  after_results_simp

theorem fr_opsA_arg11 (V : Valuation τ sig (Elt F)) :
    after (opsA (F := F)) V (Proc.devRef .tc main_arg11) = V (Proc.devRef .tc main_arg11) := by
  unfold opsA
  after_results_simp

theorem fr_opsA_arg12 (V : Valuation τ sig (Elt F)) :
    after (opsA (F := F)) V (Proc.devRef .tc main_arg12) = V (Proc.devRef .tc main_arg12) := by
  unfold opsA
  after_results_simp

theorem fr_opsA_arg13 (V : Valuation τ sig (Elt F)) :
    after (opsA (F := F)) V (Proc.devRef .tc main_arg13) = V (Proc.devRef .tc main_arg13) := by
  unfold opsA
  after_results_simp

theorem fr_opsA_arg14 (V : Valuation τ sig (Elt F)) :
    after (opsA (F := F)) V (Proc.devRef .tc main_arg14) = V (Proc.devRef .tc main_arg14) := by
  unfold opsA
  after_results_simp

theorem fr_opsA_arg15 (V : Valuation τ sig (Elt F)) :
    after (opsA (F := F)) V (Proc.devRef .tc main_arg15) = V (Proc.devRef .tc main_arg15) := by
  unfold opsA
  after_results_simp

theorem fr_opsVar0_arg0 (V : Valuation τ sig (Elt F)) :
    after (opsVar0 (F := F)) V (Proc.devRef .tc main_arg0) = V (Proc.devRef .tc main_arg0) := by
  unfold opsVar0
  after_results_simp

theorem fr_opsVar0_arg1 (V : Valuation τ sig (Elt F)) :
    after (opsVar0 (F := F)) V (Proc.devRef .tc main_arg1) = V (Proc.devRef .tc main_arg1) := by
  unfold opsVar0
  after_results_simp

theorem fr_opsVar0_arg2 (V : Valuation τ sig (Elt F)) :
    after (opsVar0 (F := F)) V (Proc.devRef .tc main_arg2) = V (Proc.devRef .tc main_arg2) := by
  unfold opsVar0
  after_results_simp

theorem fr_opsVar0_arg3 (V : Valuation τ sig (Elt F)) :
    after (opsVar0 (F := F)) V (Proc.devRef .tc main_arg3) = V (Proc.devRef .tc main_arg3) := by
  unfold opsVar0
  after_results_simp

theorem fr_opsVar0_arg4 (V : Valuation τ sig (Elt F)) :
    after (opsVar0 (F := F)) V (Proc.devRef .tc main_arg4) = V (Proc.devRef .tc main_arg4) := by
  unfold opsVar0
  after_results_simp

theorem fr_opsVar0_arg5 (V : Valuation τ sig (Elt F)) :
    after (opsVar0 (F := F)) V (Proc.devRef .tc main_arg5) = V (Proc.devRef .tc main_arg5) := by
  unfold opsVar0
  after_results_simp

theorem fr_opsVar0_arg6 (V : Valuation τ sig (Elt F)) :
    after (opsVar0 (F := F)) V (Proc.devRef .tc main_arg6) = V (Proc.devRef .tc main_arg6) := by
  unfold opsVar0
  after_results_simp

theorem fr_opsVar0_arg7 (V : Valuation τ sig (Elt F)) :
    after (opsVar0 (F := F)) V (Proc.devRef .tc main_arg7) = V (Proc.devRef .tc main_arg7) := by
  unfold opsVar0
  after_results_simp

theorem fr_opsVar0_arg8 (V : Valuation τ sig (Elt F)) :
    after (opsVar0 (F := F)) V (Proc.devRef .tc main_arg8) = V (Proc.devRef .tc main_arg8) := by
  unfold opsVar0
  after_results_simp

theorem fr_opsVar0_arg9 (V : Valuation τ sig (Elt F)) :
    after (opsVar0 (F := F)) V (Proc.devRef .tc main_arg9) = V (Proc.devRef .tc main_arg9) := by
  unfold opsVar0
  after_results_simp

theorem fr_opsVar0_arg10 (V : Valuation τ sig (Elt F)) :
    after (opsVar0 (F := F)) V (Proc.devRef .tc main_arg10) = V (Proc.devRef .tc main_arg10) := by
  unfold opsVar0
  after_results_simp

theorem fr_opsVar0_arg11 (V : Valuation τ sig (Elt F)) :
    after (opsVar0 (F := F)) V (Proc.devRef .tc main_arg11) = V (Proc.devRef .tc main_arg11) := by
  unfold opsVar0
  after_results_simp

theorem fr_opsVar0_arg12 (V : Valuation τ sig (Elt F)) :
    after (opsVar0 (F := F)) V (Proc.devRef .tc main_arg12) = V (Proc.devRef .tc main_arg12) := by
  unfold opsVar0
  after_results_simp

theorem fr_opsVar0_arg13 (V : Valuation τ sig (Elt F)) :
    after (opsVar0 (F := F)) V (Proc.devRef .tc main_arg13) = V (Proc.devRef .tc main_arg13) := by
  unfold opsVar0
  after_results_simp

theorem fr_opsVar0_arg14 (V : Valuation τ sig (Elt F)) :
    after (opsVar0 (F := F)) V (Proc.devRef .tc main_arg14) = V (Proc.devRef .tc main_arg14) := by
  unfold opsVar0
  after_results_simp

theorem fr_opsVar0_arg15 (V : Valuation τ sig (Elt F)) :
    after (opsVar0 (F := F)) V (Proc.devRef .tc main_arg15) = V (Proc.devRef .tc main_arg15) := by
  unfold opsVar0
  after_results_simp

theorem fr_opsVar0_v19 (V : Valuation τ sig (Elt F)) :
    after (opsVar0 (F := F)) V (Proc.devRef .tc main_v19) = V (Proc.devRef .tc main_v19) := by
  unfold opsVar0
  after_results_simp

theorem fr_opsVar0_v22 (V : Valuation τ sig (Elt F)) :
    after (opsVar0 (F := F)) V (Proc.devRef .tc main_v22) = V (Proc.devRef .tc main_v22) := by
  unfold opsVar0
  after_results_simp

theorem fr_opsB_arg0 (V : Valuation τ sig (Elt F)) :
    after (opsB (F := F)) V (Proc.devRef .tc main_arg0) = V (Proc.devRef .tc main_arg0) := by
  unfold opsB
  after_results_simp

theorem fr_opsB_arg1 (V : Valuation τ sig (Elt F)) :
    after (opsB (F := F)) V (Proc.devRef .tc main_arg1) = V (Proc.devRef .tc main_arg1) := by
  unfold opsB
  after_results_simp

theorem fr_opsB_arg2 (V : Valuation τ sig (Elt F)) :
    after (opsB (F := F)) V (Proc.devRef .tc main_arg2) = V (Proc.devRef .tc main_arg2) := by
  unfold opsB
  after_results_simp

theorem fr_opsB_arg3 (V : Valuation τ sig (Elt F)) :
    after (opsB (F := F)) V (Proc.devRef .tc main_arg3) = V (Proc.devRef .tc main_arg3) := by
  unfold opsB
  after_results_simp

theorem fr_opsB_arg4 (V : Valuation τ sig (Elt F)) :
    after (opsB (F := F)) V (Proc.devRef .tc main_arg4) = V (Proc.devRef .tc main_arg4) := by
  unfold opsB
  after_results_simp

theorem fr_opsB_arg5 (V : Valuation τ sig (Elt F)) :
    after (opsB (F := F)) V (Proc.devRef .tc main_arg5) = V (Proc.devRef .tc main_arg5) := by
  unfold opsB
  after_results_simp

theorem fr_opsB_arg6 (V : Valuation τ sig (Elt F)) :
    after (opsB (F := F)) V (Proc.devRef .tc main_arg6) = V (Proc.devRef .tc main_arg6) := by
  unfold opsB
  after_results_simp

theorem fr_opsB_arg7 (V : Valuation τ sig (Elt F)) :
    after (opsB (F := F)) V (Proc.devRef .tc main_arg7) = V (Proc.devRef .tc main_arg7) := by
  unfold opsB
  after_results_simp

theorem fr_opsB_arg8 (V : Valuation τ sig (Elt F)) :
    after (opsB (F := F)) V (Proc.devRef .tc main_arg8) = V (Proc.devRef .tc main_arg8) := by
  unfold opsB
  after_results_simp

theorem fr_opsB_arg9 (V : Valuation τ sig (Elt F)) :
    after (opsB (F := F)) V (Proc.devRef .tc main_arg9) = V (Proc.devRef .tc main_arg9) := by
  unfold opsB
  after_results_simp

theorem fr_opsB_arg10 (V : Valuation τ sig (Elt F)) :
    after (opsB (F := F)) V (Proc.devRef .tc main_arg10) = V (Proc.devRef .tc main_arg10) := by
  unfold opsB
  after_results_simp

theorem fr_opsB_arg11 (V : Valuation τ sig (Elt F)) :
    after (opsB (F := F)) V (Proc.devRef .tc main_arg11) = V (Proc.devRef .tc main_arg11) := by
  unfold opsB
  after_results_simp

theorem fr_opsB_arg12 (V : Valuation τ sig (Elt F)) :
    after (opsB (F := F)) V (Proc.devRef .tc main_arg12) = V (Proc.devRef .tc main_arg12) := by
  unfold opsB
  after_results_simp

theorem fr_opsB_arg13 (V : Valuation τ sig (Elt F)) :
    after (opsB (F := F)) V (Proc.devRef .tc main_arg13) = V (Proc.devRef .tc main_arg13) := by
  unfold opsB
  after_results_simp

theorem fr_opsB_arg14 (V : Valuation τ sig (Elt F)) :
    after (opsB (F := F)) V (Proc.devRef .tc main_arg14) = V (Proc.devRef .tc main_arg14) := by
  unfold opsB
  after_results_simp

theorem fr_opsB_arg15 (V : Valuation τ sig (Elt F)) :
    after (opsB (F := F)) V (Proc.devRef .tc main_arg15) = V (Proc.devRef .tc main_arg15) := by
  unfold opsB
  after_results_simp

theorem fr_opsRelu1_arg0 (V : Valuation τ sig (Elt F)) :
    after (opsRelu1 (F := F)) V (Proc.devRef .tc main_arg0) = V (Proc.devRef .tc main_arg0) := by
  unfold opsRelu1
  after_results_simp

theorem fr_opsRelu1_arg1 (V : Valuation τ sig (Elt F)) :
    after (opsRelu1 (F := F)) V (Proc.devRef .tc main_arg1) = V (Proc.devRef .tc main_arg1) := by
  unfold opsRelu1
  after_results_simp

theorem fr_opsRelu1_arg2 (V : Valuation τ sig (Elt F)) :
    after (opsRelu1 (F := F)) V (Proc.devRef .tc main_arg2) = V (Proc.devRef .tc main_arg2) := by
  unfold opsRelu1
  after_results_simp

theorem fr_opsRelu1_arg3 (V : Valuation τ sig (Elt F)) :
    after (opsRelu1 (F := F)) V (Proc.devRef .tc main_arg3) = V (Proc.devRef .tc main_arg3) := by
  unfold opsRelu1
  after_results_simp

theorem fr_opsRelu1_arg4 (V : Valuation τ sig (Elt F)) :
    after (opsRelu1 (F := F)) V (Proc.devRef .tc main_arg4) = V (Proc.devRef .tc main_arg4) := by
  unfold opsRelu1
  after_results_simp

theorem fr_opsRelu1_arg5 (V : Valuation τ sig (Elt F)) :
    after (opsRelu1 (F := F)) V (Proc.devRef .tc main_arg5) = V (Proc.devRef .tc main_arg5) := by
  unfold opsRelu1
  after_results_simp

theorem fr_opsRelu1_arg6 (V : Valuation τ sig (Elt F)) :
    after (opsRelu1 (F := F)) V (Proc.devRef .tc main_arg6) = V (Proc.devRef .tc main_arg6) := by
  unfold opsRelu1
  after_results_simp

theorem fr_opsRelu1_arg7 (V : Valuation τ sig (Elt F)) :
    after (opsRelu1 (F := F)) V (Proc.devRef .tc main_arg7) = V (Proc.devRef .tc main_arg7) := by
  unfold opsRelu1
  after_results_simp

theorem fr_opsRelu1_arg8 (V : Valuation τ sig (Elt F)) :
    after (opsRelu1 (F := F)) V (Proc.devRef .tc main_arg8) = V (Proc.devRef .tc main_arg8) := by
  unfold opsRelu1
  after_results_simp

theorem fr_opsRelu1_arg9 (V : Valuation τ sig (Elt F)) :
    after (opsRelu1 (F := F)) V (Proc.devRef .tc main_arg9) = V (Proc.devRef .tc main_arg9) := by
  unfold opsRelu1
  after_results_simp

theorem fr_opsRelu1_arg10 (V : Valuation τ sig (Elt F)) :
    after (opsRelu1 (F := F)) V (Proc.devRef .tc main_arg10) = V (Proc.devRef .tc main_arg10) := by
  unfold opsRelu1
  after_results_simp

theorem fr_opsRelu1_arg11 (V : Valuation τ sig (Elt F)) :
    after (opsRelu1 (F := F)) V (Proc.devRef .tc main_arg11) = V (Proc.devRef .tc main_arg11) := by
  unfold opsRelu1
  after_results_simp

theorem fr_opsRelu1_arg12 (V : Valuation τ sig (Elt F)) :
    after (opsRelu1 (F := F)) V (Proc.devRef .tc main_arg12) = V (Proc.devRef .tc main_arg12) := by
  unfold opsRelu1
  after_results_simp

theorem fr_opsRelu1_arg13 (V : Valuation τ sig (Elt F)) :
    after (opsRelu1 (F := F)) V (Proc.devRef .tc main_arg13) = V (Proc.devRef .tc main_arg13) := by
  unfold opsRelu1
  after_results_simp

theorem fr_opsRelu1_arg14 (V : Valuation τ sig (Elt F)) :
    after (opsRelu1 (F := F)) V (Proc.devRef .tc main_arg14) = V (Proc.devRef .tc main_arg14) := by
  unfold opsRelu1
  after_results_simp

theorem fr_opsRelu1_arg15 (V : Valuation τ sig (Elt F)) :
    after (opsRelu1 (F := F)) V (Proc.devRef .tc main_arg15) = V (Proc.devRef .tc main_arg15) := by
  unfold opsRelu1
  after_results_simp

theorem fr_opsC0_arg0 (V : Valuation τ sig (Elt F)) :
    after (opsC0 (F := F)) V (Proc.devRef .tc main_arg0) = V (Proc.devRef .tc main_arg0) := by
  unfold opsC0
  after_results_simp

theorem fr_opsC0_arg1 (V : Valuation τ sig (Elt F)) :
    after (opsC0 (F := F)) V (Proc.devRef .tc main_arg1) = V (Proc.devRef .tc main_arg1) := by
  unfold opsC0
  after_results_simp

theorem fr_opsC0_arg2 (V : Valuation τ sig (Elt F)) :
    after (opsC0 (F := F)) V (Proc.devRef .tc main_arg2) = V (Proc.devRef .tc main_arg2) := by
  unfold opsC0
  after_results_simp

theorem fr_opsC0_arg3 (V : Valuation τ sig (Elt F)) :
    after (opsC0 (F := F)) V (Proc.devRef .tc main_arg3) = V (Proc.devRef .tc main_arg3) := by
  unfold opsC0
  after_results_simp

theorem fr_opsC0_arg4 (V : Valuation τ sig (Elt F)) :
    after (opsC0 (F := F)) V (Proc.devRef .tc main_arg4) = V (Proc.devRef .tc main_arg4) := by
  unfold opsC0
  after_results_simp

theorem fr_opsC0_arg5 (V : Valuation τ sig (Elt F)) :
    after (opsC0 (F := F)) V (Proc.devRef .tc main_arg5) = V (Proc.devRef .tc main_arg5) := by
  unfold opsC0
  after_results_simp

theorem fr_opsC0_arg6 (V : Valuation τ sig (Elt F)) :
    after (opsC0 (F := F)) V (Proc.devRef .tc main_arg6) = V (Proc.devRef .tc main_arg6) := by
  unfold opsC0
  after_results_simp

theorem fr_opsC0_arg7 (V : Valuation τ sig (Elt F)) :
    after (opsC0 (F := F)) V (Proc.devRef .tc main_arg7) = V (Proc.devRef .tc main_arg7) := by
  unfold opsC0
  after_results_simp

theorem fr_opsC0_arg8 (V : Valuation τ sig (Elt F)) :
    after (opsC0 (F := F)) V (Proc.devRef .tc main_arg8) = V (Proc.devRef .tc main_arg8) := by
  unfold opsC0
  after_results_simp

theorem fr_opsC0_arg9 (V : Valuation τ sig (Elt F)) :
    after (opsC0 (F := F)) V (Proc.devRef .tc main_arg9) = V (Proc.devRef .tc main_arg9) := by
  unfold opsC0
  after_results_simp

theorem fr_opsC0_arg10 (V : Valuation τ sig (Elt F)) :
    after (opsC0 (F := F)) V (Proc.devRef .tc main_arg10) = V (Proc.devRef .tc main_arg10) := by
  unfold opsC0
  after_results_simp

theorem fr_opsC0_arg11 (V : Valuation τ sig (Elt F)) :
    after (opsC0 (F := F)) V (Proc.devRef .tc main_arg11) = V (Proc.devRef .tc main_arg11) := by
  unfold opsC0
  after_results_simp

theorem fr_opsC0_arg12 (V : Valuation τ sig (Elt F)) :
    after (opsC0 (F := F)) V (Proc.devRef .tc main_arg12) = V (Proc.devRef .tc main_arg12) := by
  unfold opsC0
  after_results_simp

theorem fr_opsC0_arg13 (V : Valuation τ sig (Elt F)) :
    after (opsC0 (F := F)) V (Proc.devRef .tc main_arg13) = V (Proc.devRef .tc main_arg13) := by
  unfold opsC0
  after_results_simp

theorem fr_opsC0_arg14 (V : Valuation τ sig (Elt F)) :
    after (opsC0 (F := F)) V (Proc.devRef .tc main_arg14) = V (Proc.devRef .tc main_arg14) := by
  unfold opsC0
  after_results_simp

theorem fr_opsC0_arg15 (V : Valuation τ sig (Elt F)) :
    after (opsC0 (F := F)) V (Proc.devRef .tc main_arg15) = V (Proc.devRef .tc main_arg15) := by
  unfold opsC0
  after_results_simp

end Cert.ReferenceIdeal.RefRun

end
-- ==== Proof.RefFramesB.lean ====
/-
  The buffers a stretch of the reference program does not write keep their contents across it: the argument
  buffers across every stretch, and the aggregate and its column means across the variance stretch that reads
  them. Every operation of a stretch writes one buffer, and it is none of these.
-/
import proofs.«103152_j58858231824590_1_alg».proof.Proof.RefOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

theorem fr_opsC1_arg0 (V : Valuation τ sig (Elt F)) :
    after (opsC1 (F := F)) V (Proc.devRef .tc main_arg0) = V (Proc.devRef .tc main_arg0) := by
  unfold opsC1
  after_results_simp

theorem fr_opsC1_arg1 (V : Valuation τ sig (Elt F)) :
    after (opsC1 (F := F)) V (Proc.devRef .tc main_arg1) = V (Proc.devRef .tc main_arg1) := by
  unfold opsC1
  after_results_simp

theorem fr_opsC1_arg2 (V : Valuation τ sig (Elt F)) :
    after (opsC1 (F := F)) V (Proc.devRef .tc main_arg2) = V (Proc.devRef .tc main_arg2) := by
  unfold opsC1
  after_results_simp

theorem fr_opsC1_arg3 (V : Valuation τ sig (Elt F)) :
    after (opsC1 (F := F)) V (Proc.devRef .tc main_arg3) = V (Proc.devRef .tc main_arg3) := by
  unfold opsC1
  after_results_simp

theorem fr_opsC1_arg4 (V : Valuation τ sig (Elt F)) :
    after (opsC1 (F := F)) V (Proc.devRef .tc main_arg4) = V (Proc.devRef .tc main_arg4) := by
  unfold opsC1
  after_results_simp

theorem fr_opsC1_arg5 (V : Valuation τ sig (Elt F)) :
    after (opsC1 (F := F)) V (Proc.devRef .tc main_arg5) = V (Proc.devRef .tc main_arg5) := by
  unfold opsC1
  after_results_simp

theorem fr_opsC1_arg6 (V : Valuation τ sig (Elt F)) :
    after (opsC1 (F := F)) V (Proc.devRef .tc main_arg6) = V (Proc.devRef .tc main_arg6) := by
  unfold opsC1
  after_results_simp

theorem fr_opsC1_arg7 (V : Valuation τ sig (Elt F)) :
    after (opsC1 (F := F)) V (Proc.devRef .tc main_arg7) = V (Proc.devRef .tc main_arg7) := by
  unfold opsC1
  after_results_simp

theorem fr_opsC1_arg8 (V : Valuation τ sig (Elt F)) :
    after (opsC1 (F := F)) V (Proc.devRef .tc main_arg8) = V (Proc.devRef .tc main_arg8) := by
  unfold opsC1
  after_results_simp

theorem fr_opsC1_arg9 (V : Valuation τ sig (Elt F)) :
    after (opsC1 (F := F)) V (Proc.devRef .tc main_arg9) = V (Proc.devRef .tc main_arg9) := by
  unfold opsC1
  after_results_simp

theorem fr_opsC1_arg10 (V : Valuation τ sig (Elt F)) :
    after (opsC1 (F := F)) V (Proc.devRef .tc main_arg10) = V (Proc.devRef .tc main_arg10) := by
  unfold opsC1
  after_results_simp

theorem fr_opsC1_arg11 (V : Valuation τ sig (Elt F)) :
    after (opsC1 (F := F)) V (Proc.devRef .tc main_arg11) = V (Proc.devRef .tc main_arg11) := by
  unfold opsC1
  after_results_simp

theorem fr_opsC1_arg12 (V : Valuation τ sig (Elt F)) :
    after (opsC1 (F := F)) V (Proc.devRef .tc main_arg12) = V (Proc.devRef .tc main_arg12) := by
  unfold opsC1
  after_results_simp

theorem fr_opsC1_arg13 (V : Valuation τ sig (Elt F)) :
    after (opsC1 (F := F)) V (Proc.devRef .tc main_arg13) = V (Proc.devRef .tc main_arg13) := by
  unfold opsC1
  after_results_simp

theorem fr_opsC1_arg14 (V : Valuation τ sig (Elt F)) :
    after (opsC1 (F := F)) V (Proc.devRef .tc main_arg14) = V (Proc.devRef .tc main_arg14) := by
  unfold opsC1
  after_results_simp

theorem fr_opsC1_arg15 (V : Valuation τ sig (Elt F)) :
    after (opsC1 (F := F)) V (Proc.devRef .tc main_arg15) = V (Proc.devRef .tc main_arg15) := by
  unfold opsC1
  after_results_simp

theorem fr_opsVar2_arg0 (V : Valuation τ sig (Elt F)) :
    after (opsVar2 (F := F)) V (Proc.devRef .tc main_arg0) = V (Proc.devRef .tc main_arg0) := by
  unfold opsVar2
  after_results_simp

theorem fr_opsVar2_arg1 (V : Valuation τ sig (Elt F)) :
    after (opsVar2 (F := F)) V (Proc.devRef .tc main_arg1) = V (Proc.devRef .tc main_arg1) := by
  unfold opsVar2
  after_results_simp

theorem fr_opsVar2_arg2 (V : Valuation τ sig (Elt F)) :
    after (opsVar2 (F := F)) V (Proc.devRef .tc main_arg2) = V (Proc.devRef .tc main_arg2) := by
  unfold opsVar2
  after_results_simp

theorem fr_opsVar2_arg3 (V : Valuation τ sig (Elt F)) :
    after (opsVar2 (F := F)) V (Proc.devRef .tc main_arg3) = V (Proc.devRef .tc main_arg3) := by
  unfold opsVar2
  after_results_simp

theorem fr_opsVar2_arg4 (V : Valuation τ sig (Elt F)) :
    after (opsVar2 (F := F)) V (Proc.devRef .tc main_arg4) = V (Proc.devRef .tc main_arg4) := by
  unfold opsVar2
  after_results_simp

theorem fr_opsVar2_arg5 (V : Valuation τ sig (Elt F)) :
    after (opsVar2 (F := F)) V (Proc.devRef .tc main_arg5) = V (Proc.devRef .tc main_arg5) := by
  unfold opsVar2
  after_results_simp

theorem fr_opsVar2_arg6 (V : Valuation τ sig (Elt F)) :
    after (opsVar2 (F := F)) V (Proc.devRef .tc main_arg6) = V (Proc.devRef .tc main_arg6) := by
  unfold opsVar2
  after_results_simp

theorem fr_opsVar2_arg7 (V : Valuation τ sig (Elt F)) :
    after (opsVar2 (F := F)) V (Proc.devRef .tc main_arg7) = V (Proc.devRef .tc main_arg7) := by
  unfold opsVar2
  after_results_simp

theorem fr_opsVar2_arg8 (V : Valuation τ sig (Elt F)) :
    after (opsVar2 (F := F)) V (Proc.devRef .tc main_arg8) = V (Proc.devRef .tc main_arg8) := by
  unfold opsVar2
  after_results_simp

theorem fr_opsVar2_arg9 (V : Valuation τ sig (Elt F)) :
    after (opsVar2 (F := F)) V (Proc.devRef .tc main_arg9) = V (Proc.devRef .tc main_arg9) := by
  unfold opsVar2
  after_results_simp

theorem fr_opsVar2_arg10 (V : Valuation τ sig (Elt F)) :
    after (opsVar2 (F := F)) V (Proc.devRef .tc main_arg10) = V (Proc.devRef .tc main_arg10) := by
  unfold opsVar2
  after_results_simp

theorem fr_opsVar2_arg11 (V : Valuation τ sig (Elt F)) :
    after (opsVar2 (F := F)) V (Proc.devRef .tc main_arg11) = V (Proc.devRef .tc main_arg11) := by
  unfold opsVar2
  after_results_simp

theorem fr_opsVar2_arg12 (V : Valuation τ sig (Elt F)) :
    after (opsVar2 (F := F)) V (Proc.devRef .tc main_arg12) = V (Proc.devRef .tc main_arg12) := by
  unfold opsVar2
  after_results_simp

theorem fr_opsVar2_arg13 (V : Valuation τ sig (Elt F)) :
    after (opsVar2 (F := F)) V (Proc.devRef .tc main_arg13) = V (Proc.devRef .tc main_arg13) := by
  unfold opsVar2
  after_results_simp

theorem fr_opsVar2_arg14 (V : Valuation τ sig (Elt F)) :
    after (opsVar2 (F := F)) V (Proc.devRef .tc main_arg14) = V (Proc.devRef .tc main_arg14) := by
  unfold opsVar2
  after_results_simp

theorem fr_opsVar2_arg15 (V : Valuation τ sig (Elt F)) :
    after (opsVar2 (F := F)) V (Proc.devRef .tc main_arg15) = V (Proc.devRef .tc main_arg15) := by
  unfold opsVar2
  after_results_simp

theorem fr_opsVar2_v56 (V : Valuation τ sig (Elt F)) :
    after (opsVar2 (F := F)) V (Proc.devRef .tc main_v56) = V (Proc.devRef .tc main_v56) := by
  unfold opsVar2
  after_results_simp

theorem fr_opsVar2_v59 (V : Valuation τ sig (Elt F)) :
    after (opsVar2 (F := F)) V (Proc.devRef .tc main_v59) = V (Proc.devRef .tc main_v59) := by
  unfold opsVar2
  after_results_simp

theorem fr_opsD_arg0 (V : Valuation τ sig (Elt F)) :
    after (opsD (F := F)) V (Proc.devRef .tc main_arg0) = V (Proc.devRef .tc main_arg0) := by
  unfold opsD
  after_results_simp

theorem fr_opsD_arg1 (V : Valuation τ sig (Elt F)) :
    after (opsD (F := F)) V (Proc.devRef .tc main_arg1) = V (Proc.devRef .tc main_arg1) := by
  unfold opsD
  after_results_simp

theorem fr_opsD_arg2 (V : Valuation τ sig (Elt F)) :
    after (opsD (F := F)) V (Proc.devRef .tc main_arg2) = V (Proc.devRef .tc main_arg2) := by
  unfold opsD
  after_results_simp

theorem fr_opsD_arg3 (V : Valuation τ sig (Elt F)) :
    after (opsD (F := F)) V (Proc.devRef .tc main_arg3) = V (Proc.devRef .tc main_arg3) := by
  unfold opsD
  after_results_simp

theorem fr_opsD_arg4 (V : Valuation τ sig (Elt F)) :
    after (opsD (F := F)) V (Proc.devRef .tc main_arg4) = V (Proc.devRef .tc main_arg4) := by
  unfold opsD
  after_results_simp

theorem fr_opsD_arg5 (V : Valuation τ sig (Elt F)) :
    after (opsD (F := F)) V (Proc.devRef .tc main_arg5) = V (Proc.devRef .tc main_arg5) := by
  unfold opsD
  after_results_simp

theorem fr_opsD_arg6 (V : Valuation τ sig (Elt F)) :
    after (opsD (F := F)) V (Proc.devRef .tc main_arg6) = V (Proc.devRef .tc main_arg6) := by
  unfold opsD
  after_results_simp

theorem fr_opsD_arg7 (V : Valuation τ sig (Elt F)) :
    after (opsD (F := F)) V (Proc.devRef .tc main_arg7) = V (Proc.devRef .tc main_arg7) := by
  unfold opsD
  after_results_simp

theorem fr_opsD_arg8 (V : Valuation τ sig (Elt F)) :
    after (opsD (F := F)) V (Proc.devRef .tc main_arg8) = V (Proc.devRef .tc main_arg8) := by
  unfold opsD
  after_results_simp

theorem fr_opsD_arg9 (V : Valuation τ sig (Elt F)) :
    after (opsD (F := F)) V (Proc.devRef .tc main_arg9) = V (Proc.devRef .tc main_arg9) := by
  unfold opsD
  after_results_simp

theorem fr_opsD_arg10 (V : Valuation τ sig (Elt F)) :
    after (opsD (F := F)) V (Proc.devRef .tc main_arg10) = V (Proc.devRef .tc main_arg10) := by
  unfold opsD
  after_results_simp

theorem fr_opsD_arg11 (V : Valuation τ sig (Elt F)) :
    after (opsD (F := F)) V (Proc.devRef .tc main_arg11) = V (Proc.devRef .tc main_arg11) := by
  unfold opsD
  after_results_simp

theorem fr_opsD_arg12 (V : Valuation τ sig (Elt F)) :
    after (opsD (F := F)) V (Proc.devRef .tc main_arg12) = V (Proc.devRef .tc main_arg12) := by
  unfold opsD
  after_results_simp

theorem fr_opsD_arg13 (V : Valuation τ sig (Elt F)) :
    after (opsD (F := F)) V (Proc.devRef .tc main_arg13) = V (Proc.devRef .tc main_arg13) := by
  unfold opsD
  after_results_simp

theorem fr_opsD_arg14 (V : Valuation τ sig (Elt F)) :
    after (opsD (F := F)) V (Proc.devRef .tc main_arg14) = V (Proc.devRef .tc main_arg14) := by
  unfold opsD
  after_results_simp

theorem fr_opsD_arg15 (V : Valuation τ sig (Elt F)) :
    after (opsD (F := F)) V (Proc.devRef .tc main_arg15) = V (Proc.devRef .tc main_arg15) := by
  unfold opsD
  after_results_simp

theorem fr_opsRelu3_arg0 (V : Valuation τ sig (Elt F)) :
    after (opsRelu3 (F := F)) V (Proc.devRef .tc main_arg0) = V (Proc.devRef .tc main_arg0) := by
  unfold opsRelu3
  after_results_simp

theorem fr_opsRelu3_arg1 (V : Valuation τ sig (Elt F)) :
    after (opsRelu3 (F := F)) V (Proc.devRef .tc main_arg1) = V (Proc.devRef .tc main_arg1) := by
  unfold opsRelu3
  after_results_simp

theorem fr_opsRelu3_arg2 (V : Valuation τ sig (Elt F)) :
    after (opsRelu3 (F := F)) V (Proc.devRef .tc main_arg2) = V (Proc.devRef .tc main_arg2) := by
  unfold opsRelu3
  after_results_simp

theorem fr_opsRelu3_arg3 (V : Valuation τ sig (Elt F)) :
    after (opsRelu3 (F := F)) V (Proc.devRef .tc main_arg3) = V (Proc.devRef .tc main_arg3) := by
  unfold opsRelu3
  after_results_simp

theorem fr_opsRelu3_arg4 (V : Valuation τ sig (Elt F)) :
    after (opsRelu3 (F := F)) V (Proc.devRef .tc main_arg4) = V (Proc.devRef .tc main_arg4) := by
  unfold opsRelu3
  after_results_simp

theorem fr_opsRelu3_arg5 (V : Valuation τ sig (Elt F)) :
    after (opsRelu3 (F := F)) V (Proc.devRef .tc main_arg5) = V (Proc.devRef .tc main_arg5) := by
  unfold opsRelu3
  after_results_simp

theorem fr_opsRelu3_arg6 (V : Valuation τ sig (Elt F)) :
    after (opsRelu3 (F := F)) V (Proc.devRef .tc main_arg6) = V (Proc.devRef .tc main_arg6) := by
  unfold opsRelu3
  after_results_simp

theorem fr_opsRelu3_arg7 (V : Valuation τ sig (Elt F)) :
    after (opsRelu3 (F := F)) V (Proc.devRef .tc main_arg7) = V (Proc.devRef .tc main_arg7) := by
  unfold opsRelu3
  after_results_simp

theorem fr_opsRelu3_arg8 (V : Valuation τ sig (Elt F)) :
    after (opsRelu3 (F := F)) V (Proc.devRef .tc main_arg8) = V (Proc.devRef .tc main_arg8) := by
  unfold opsRelu3
  after_results_simp

theorem fr_opsRelu3_arg9 (V : Valuation τ sig (Elt F)) :
    after (opsRelu3 (F := F)) V (Proc.devRef .tc main_arg9) = V (Proc.devRef .tc main_arg9) := by
  unfold opsRelu3
  after_results_simp

theorem fr_opsRelu3_arg10 (V : Valuation τ sig (Elt F)) :
    after (opsRelu3 (F := F)) V (Proc.devRef .tc main_arg10) = V (Proc.devRef .tc main_arg10) := by
  unfold opsRelu3
  after_results_simp

theorem fr_opsRelu3_arg11 (V : Valuation τ sig (Elt F)) :
    after (opsRelu3 (F := F)) V (Proc.devRef .tc main_arg11) = V (Proc.devRef .tc main_arg11) := by
  unfold opsRelu3
  after_results_simp

theorem fr_opsRelu3_arg12 (V : Valuation τ sig (Elt F)) :
    after (opsRelu3 (F := F)) V (Proc.devRef .tc main_arg12) = V (Proc.devRef .tc main_arg12) := by
  unfold opsRelu3
  after_results_simp

theorem fr_opsRelu3_arg13 (V : Valuation τ sig (Elt F)) :
    after (opsRelu3 (F := F)) V (Proc.devRef .tc main_arg13) = V (Proc.devRef .tc main_arg13) := by
  unfold opsRelu3
  after_results_simp

theorem fr_opsRelu3_arg14 (V : Valuation τ sig (Elt F)) :
    after (opsRelu3 (F := F)) V (Proc.devRef .tc main_arg14) = V (Proc.devRef .tc main_arg14) := by
  unfold opsRelu3
  after_results_simp

theorem fr_opsRelu3_arg15 (V : Valuation τ sig (Elt F)) :
    after (opsRelu3 (F := F)) V (Proc.devRef .tc main_arg15) = V (Proc.devRef .tc main_arg15) := by
  unfold opsRelu3
  after_results_simp

theorem fr_opsE_arg0 (V : Valuation τ sig (Elt F)) :
    after (opsE (F := F)) V (Proc.devRef .tc main_arg0) = V (Proc.devRef .tc main_arg0) := by
  unfold opsE
  after_results_simp

theorem fr_opsE_arg1 (V : Valuation τ sig (Elt F)) :
    after (opsE (F := F)) V (Proc.devRef .tc main_arg1) = V (Proc.devRef .tc main_arg1) := by
  unfold opsE
  after_results_simp

theorem fr_opsE_arg2 (V : Valuation τ sig (Elt F)) :
    after (opsE (F := F)) V (Proc.devRef .tc main_arg2) = V (Proc.devRef .tc main_arg2) := by
  unfold opsE
  after_results_simp

theorem fr_opsE_arg3 (V : Valuation τ sig (Elt F)) :
    after (opsE (F := F)) V (Proc.devRef .tc main_arg3) = V (Proc.devRef .tc main_arg3) := by
  unfold opsE
  after_results_simp

theorem fr_opsE_arg4 (V : Valuation τ sig (Elt F)) :
    after (opsE (F := F)) V (Proc.devRef .tc main_arg4) = V (Proc.devRef .tc main_arg4) := by
  unfold opsE
  after_results_simp

theorem fr_opsE_arg5 (V : Valuation τ sig (Elt F)) :
    after (opsE (F := F)) V (Proc.devRef .tc main_arg5) = V (Proc.devRef .tc main_arg5) := by
  unfold opsE
  after_results_simp

theorem fr_opsE_arg6 (V : Valuation τ sig (Elt F)) :
    after (opsE (F := F)) V (Proc.devRef .tc main_arg6) = V (Proc.devRef .tc main_arg6) := by
  unfold opsE
  after_results_simp

theorem fr_opsE_arg7 (V : Valuation τ sig (Elt F)) :
    after (opsE (F := F)) V (Proc.devRef .tc main_arg7) = V (Proc.devRef .tc main_arg7) := by
  unfold opsE
  after_results_simp

theorem fr_opsE_arg8 (V : Valuation τ sig (Elt F)) :
    after (opsE (F := F)) V (Proc.devRef .tc main_arg8) = V (Proc.devRef .tc main_arg8) := by
  unfold opsE
  after_results_simp

theorem fr_opsE_arg9 (V : Valuation τ sig (Elt F)) :
    after (opsE (F := F)) V (Proc.devRef .tc main_arg9) = V (Proc.devRef .tc main_arg9) := by
  unfold opsE
  after_results_simp

theorem fr_opsE_arg10 (V : Valuation τ sig (Elt F)) :
    after (opsE (F := F)) V (Proc.devRef .tc main_arg10) = V (Proc.devRef .tc main_arg10) := by
  unfold opsE
  after_results_simp

theorem fr_opsE_arg11 (V : Valuation τ sig (Elt F)) :
    after (opsE (F := F)) V (Proc.devRef .tc main_arg11) = V (Proc.devRef .tc main_arg11) := by
  unfold opsE
  after_results_simp

theorem fr_opsE_arg12 (V : Valuation τ sig (Elt F)) :
    after (opsE (F := F)) V (Proc.devRef .tc main_arg12) = V (Proc.devRef .tc main_arg12) := by
  unfold opsE
  after_results_simp

theorem fr_opsE_arg13 (V : Valuation τ sig (Elt F)) :
    after (opsE (F := F)) V (Proc.devRef .tc main_arg13) = V (Proc.devRef .tc main_arg13) := by
  unfold opsE
  after_results_simp

theorem fr_opsE_arg14 (V : Valuation τ sig (Elt F)) :
    after (opsE (F := F)) V (Proc.devRef .tc main_arg14) = V (Proc.devRef .tc main_arg14) := by
  unfold opsE
  after_results_simp

theorem fr_opsE_arg15 (V : Valuation τ sig (Elt F)) :
    after (opsE (F := F)) V (Proc.devRef .tc main_arg15) = V (Proc.devRef .tc main_arg15) := by
  unfold opsE
  after_results_simp

end Cert.ReferenceIdeal.RefRun

end
-- ==== Proof.RefRun.lean ====
/-
  The reference program's run. The program is the straight line of its operations, so every weakly fair execution
  from a memory with zero counters terminates with each buffer at the fold of the operations over the launch
  contents. The fold is read back stretch by stretch, from the last stretch to the first: each stretch leaves one
  stage of the network in the buffer the next stretch reads, the buffers in between are not written, and the stages
  composed in the order of the program are the network `Spec.refOut` of the sixteen argument arrays; no operation
  writes an argument buffer.
-/
import proofs.«103152_j58858231824590_1_alg».proof.Proof.RefMain
import proofs.«103152_j58858231824590_1_alg».proof.Proof.RefRead
import proofs.«103152_j58858231824590_1_alg».proof.Proof.RefFramesA
import proofs.«103152_j58858231824590_1_alg».proof.Proof.RefFramesB

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- The fold of the whole line at the result buffer is the network of the contents it starts from. -/
theorem out_eq (V : Valuation τ sig (Elt Ideal)) :
    after (ops (F := Ideal)) V (Proc.devRef .tc main_v87)
      = Cert.Spec.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  simp only [ops, ops0, ops1, Cert.LibStretch.after_append]
  rw [E_v87]
  rw [R3_v76, fr_opsRelu3_arg11, fr_opsRelu3_arg12, fr_opsRelu3_arg15]
  rw [D_v75, fr_opsD_arg11, fr_opsD_arg12, fr_opsD_arg15]
  rw [fr_opsVar2_v56, fr_opsVar2_arg9, fr_opsVar2_arg10, fr_opsVar2_v59, Var2_v60 _ (C_c10 _), fr_opsVar2_arg11, fr_opsVar2_arg12, fr_opsVar2_arg15]
  rw [C_v56, fr_opsC1_arg9, fr_opsC0_arg9, fr_opsC1_arg10, fr_opsC0_arg10, C_v59, fr_opsC1_arg11, fr_opsC0_arg11, fr_opsC1_arg12, fr_opsC0_arg12, fr_opsC1_arg15, fr_opsC0_arg15]
  rw [fr_opsRelu1_arg1, fr_opsRelu1_arg13, fr_opsRelu1_arg14, R1_v39, fr_opsRelu1_arg7, fr_opsRelu1_arg8, fr_opsRelu1_arg9, fr_opsRelu1_arg10, fr_opsRelu1_arg11, fr_opsRelu1_arg12, fr_opsRelu1_arg15]
  rw [fr_opsB_arg1, fr_opsB_arg13, fr_opsB_arg14, B_v38, fr_opsB_arg7, fr_opsB_arg8, fr_opsB_arg9, fr_opsB_arg10, fr_opsB_arg11, fr_opsB_arg12, fr_opsB_arg15]
  rw [fr_opsVar0_arg1, fr_opsVar0_arg13, fr_opsVar0_arg14, fr_opsVar0_v19, fr_opsVar0_arg5, fr_opsVar0_arg6, fr_opsVar0_v22, Var0_v23 _ (A_c3 _), fr_opsVar0_arg7, fr_opsVar0_arg8, fr_opsVar0_arg9, fr_opsVar0_arg10, fr_opsVar0_arg11, fr_opsVar0_arg12, fr_opsVar0_arg15]
  rw [fr_opsA_arg1, fr_opsA_arg13, fr_opsA_arg14, A_v19, fr_opsA_arg5, fr_opsA_arg6, A_v22, fr_opsA_arg7, fr_opsA_arg8, fr_opsA_arg9, fr_opsA_arg10, fr_opsA_arg11, fr_opsA_arg12, fr_opsA_arg15]
  rfl

/-- No operation writes this argument buffer. -/
theorem arg0_eq (V : Valuation τ sig (Elt Ideal)) :
    after (ops (F := Ideal)) V (Proc.devRef .tc main_arg0) = V (Proc.devRef .tc main_arg0) := by
  simp only [ops, ops0, ops1, Cert.LibStretch.after_append]
  rw [fr_opsE_arg0, fr_opsRelu3_arg0, fr_opsD_arg0, fr_opsVar2_arg0, fr_opsC1_arg0, fr_opsC0_arg0, fr_opsRelu1_arg0, fr_opsB_arg0, fr_opsVar0_arg0, fr_opsA_arg0]

/-- No operation writes this argument buffer. -/
theorem arg1_eq (V : Valuation τ sig (Elt Ideal)) :
    after (ops (F := Ideal)) V (Proc.devRef .tc main_arg1) = V (Proc.devRef .tc main_arg1) := by
  simp only [ops, ops0, ops1, Cert.LibStretch.after_append]
  rw [fr_opsE_arg1, fr_opsRelu3_arg1, fr_opsD_arg1, fr_opsVar2_arg1, fr_opsC1_arg1, fr_opsC0_arg1, fr_opsRelu1_arg1, fr_opsB_arg1, fr_opsVar0_arg1, fr_opsA_arg1]

/-- No operation writes this argument buffer. -/
theorem arg2_eq (V : Valuation τ sig (Elt Ideal)) :
    after (ops (F := Ideal)) V (Proc.devRef .tc main_arg2) = V (Proc.devRef .tc main_arg2) := by
  simp only [ops, ops0, ops1, Cert.LibStretch.after_append]
  rw [fr_opsE_arg2, fr_opsRelu3_arg2, fr_opsD_arg2, fr_opsVar2_arg2, fr_opsC1_arg2, fr_opsC0_arg2, fr_opsRelu1_arg2, fr_opsB_arg2, fr_opsVar0_arg2, fr_opsA_arg2]

/-- No operation writes this argument buffer. -/
theorem arg3_eq (V : Valuation τ sig (Elt Ideal)) :
    after (ops (F := Ideal)) V (Proc.devRef .tc main_arg3) = V (Proc.devRef .tc main_arg3) := by
  simp only [ops, ops0, ops1, Cert.LibStretch.after_append]
  rw [fr_opsE_arg3, fr_opsRelu3_arg3, fr_opsD_arg3, fr_opsVar2_arg3, fr_opsC1_arg3, fr_opsC0_arg3, fr_opsRelu1_arg3, fr_opsB_arg3, fr_opsVar0_arg3, fr_opsA_arg3]

/-- No operation writes this argument buffer. -/
theorem arg4_eq (V : Valuation τ sig (Elt Ideal)) :
    after (ops (F := Ideal)) V (Proc.devRef .tc main_arg4) = V (Proc.devRef .tc main_arg4) := by
  simp only [ops, ops0, ops1, Cert.LibStretch.after_append]
  rw [fr_opsE_arg4, fr_opsRelu3_arg4, fr_opsD_arg4, fr_opsVar2_arg4, fr_opsC1_arg4, fr_opsC0_arg4, fr_opsRelu1_arg4, fr_opsB_arg4, fr_opsVar0_arg4, fr_opsA_arg4]

/-- No operation writes this argument buffer. -/
theorem arg5_eq (V : Valuation τ sig (Elt Ideal)) :
    after (ops (F := Ideal)) V (Proc.devRef .tc main_arg5) = V (Proc.devRef .tc main_arg5) := by
  simp only [ops, ops0, ops1, Cert.LibStretch.after_append]
  rw [fr_opsE_arg5, fr_opsRelu3_arg5, fr_opsD_arg5, fr_opsVar2_arg5, fr_opsC1_arg5, fr_opsC0_arg5, fr_opsRelu1_arg5, fr_opsB_arg5, fr_opsVar0_arg5, fr_opsA_arg5]

/-- No operation writes this argument buffer. -/
theorem arg6_eq (V : Valuation τ sig (Elt Ideal)) :
    after (ops (F := Ideal)) V (Proc.devRef .tc main_arg6) = V (Proc.devRef .tc main_arg6) := by
  simp only [ops, ops0, ops1, Cert.LibStretch.after_append]
  rw [fr_opsE_arg6, fr_opsRelu3_arg6, fr_opsD_arg6, fr_opsVar2_arg6, fr_opsC1_arg6, fr_opsC0_arg6, fr_opsRelu1_arg6, fr_opsB_arg6, fr_opsVar0_arg6, fr_opsA_arg6]

/-- No operation writes this argument buffer. -/
theorem arg7_eq (V : Valuation τ sig (Elt Ideal)) :
    after (ops (F := Ideal)) V (Proc.devRef .tc main_arg7) = V (Proc.devRef .tc main_arg7) := by
  simp only [ops, ops0, ops1, Cert.LibStretch.after_append]
  rw [fr_opsE_arg7, fr_opsRelu3_arg7, fr_opsD_arg7, fr_opsVar2_arg7, fr_opsC1_arg7, fr_opsC0_arg7, fr_opsRelu1_arg7, fr_opsB_arg7, fr_opsVar0_arg7, fr_opsA_arg7]

/-- No operation writes this argument buffer. -/
theorem arg8_eq (V : Valuation τ sig (Elt Ideal)) :
    after (ops (F := Ideal)) V (Proc.devRef .tc main_arg8) = V (Proc.devRef .tc main_arg8) := by
  simp only [ops, ops0, ops1, Cert.LibStretch.after_append]
  rw [fr_opsE_arg8, fr_opsRelu3_arg8, fr_opsD_arg8, fr_opsVar2_arg8, fr_opsC1_arg8, fr_opsC0_arg8, fr_opsRelu1_arg8, fr_opsB_arg8, fr_opsVar0_arg8, fr_opsA_arg8]

/-- No operation writes this argument buffer. -/
theorem arg9_eq (V : Valuation τ sig (Elt Ideal)) :
    after (ops (F := Ideal)) V (Proc.devRef .tc main_arg9) = V (Proc.devRef .tc main_arg9) := by
  simp only [ops, ops0, ops1, Cert.LibStretch.after_append]
  rw [fr_opsE_arg9, fr_opsRelu3_arg9, fr_opsD_arg9, fr_opsVar2_arg9, fr_opsC1_arg9, fr_opsC0_arg9, fr_opsRelu1_arg9, fr_opsB_arg9, fr_opsVar0_arg9, fr_opsA_arg9]

/-- No operation writes this argument buffer. -/
theorem arg10_eq (V : Valuation τ sig (Elt Ideal)) :
    after (ops (F := Ideal)) V (Proc.devRef .tc main_arg10) = V (Proc.devRef .tc main_arg10) := by
  simp only [ops, ops0, ops1, Cert.LibStretch.after_append]
  rw [fr_opsE_arg10, fr_opsRelu3_arg10, fr_opsD_arg10, fr_opsVar2_arg10, fr_opsC1_arg10, fr_opsC0_arg10, fr_opsRelu1_arg10, fr_opsB_arg10, fr_opsVar0_arg10, fr_opsA_arg10]

/-- No operation writes this argument buffer. -/
theorem arg11_eq (V : Valuation τ sig (Elt Ideal)) :
    after (ops (F := Ideal)) V (Proc.devRef .tc main_arg11) = V (Proc.devRef .tc main_arg11) := by
  simp only [ops, ops0, ops1, Cert.LibStretch.after_append]
  rw [fr_opsE_arg11, fr_opsRelu3_arg11, fr_opsD_arg11, fr_opsVar2_arg11, fr_opsC1_arg11, fr_opsC0_arg11, fr_opsRelu1_arg11, fr_opsB_arg11, fr_opsVar0_arg11, fr_opsA_arg11]

/-- No operation writes this argument buffer. -/
theorem arg12_eq (V : Valuation τ sig (Elt Ideal)) :
    after (ops (F := Ideal)) V (Proc.devRef .tc main_arg12) = V (Proc.devRef .tc main_arg12) := by
  simp only [ops, ops0, ops1, Cert.LibStretch.after_append]
  rw [fr_opsE_arg12, fr_opsRelu3_arg12, fr_opsD_arg12, fr_opsVar2_arg12, fr_opsC1_arg12, fr_opsC0_arg12, fr_opsRelu1_arg12, fr_opsB_arg12, fr_opsVar0_arg12, fr_opsA_arg12]

/-- No operation writes this argument buffer. -/
theorem arg13_eq (V : Valuation τ sig (Elt Ideal)) :
    after (ops (F := Ideal)) V (Proc.devRef .tc main_arg13) = V (Proc.devRef .tc main_arg13) := by
  simp only [ops, ops0, ops1, Cert.LibStretch.after_append]
  rw [fr_opsE_arg13, fr_opsRelu3_arg13, fr_opsD_arg13, fr_opsVar2_arg13, fr_opsC1_arg13, fr_opsC0_arg13, fr_opsRelu1_arg13, fr_opsB_arg13, fr_opsVar0_arg13, fr_opsA_arg13]

/-- No operation writes this argument buffer. -/
theorem arg14_eq (V : Valuation τ sig (Elt Ideal)) :
    after (ops (F := Ideal)) V (Proc.devRef .tc main_arg14) = V (Proc.devRef .tc main_arg14) := by
  simp only [ops, ops0, ops1, Cert.LibStretch.after_append]
  rw [fr_opsE_arg14, fr_opsRelu3_arg14, fr_opsD_arg14, fr_opsVar2_arg14, fr_opsC1_arg14, fr_opsC0_arg14, fr_opsRelu1_arg14, fr_opsB_arg14, fr_opsVar0_arg14, fr_opsA_arg14]

/-- No operation writes this argument buffer. -/
theorem arg15_eq (V : Valuation τ sig (Elt Ideal)) :
    after (ops (F := Ideal)) V (Proc.devRef .tc main_arg15) = V (Proc.devRef .tc main_arg15) := by
  simp only [ops, ops0, ops1, Cert.LibStretch.after_append]
  rw [fr_opsE_arg15, fr_opsRelu3_arg15, fr_opsD_arg15, fr_opsVar2_arg15, fr_opsC1_arg15, fr_opsC0_arg15, fr_opsRelu1_arg15, fr_opsB_arg15, fr_opsVar0_arg15, fr_opsA_arg15]

/-- On every device, from any memory with zero counters: every weakly fair execution of the reference program
    terminates with the result buffer at the network of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v87) = Cert.Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v87).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _)⟩)
    (run_seq scopedRefs_eq scopedSems_eq defs main (fun _ => ops) main_eq (fun _ => ops_sub) m ρ (fun _ => ops_fresh))

end Cert.ReferenceIdeal.RefRun

end
-- ==== Proof.lean ====
/-
  The certificate: a two-layer graph-convolution network with a linear head over 50000 nodes — features × W1 + db1,
  a sparse aggregation over 800000 weighted edges plus a bias, batch normalisation with the batch's own column
  statistics, a clamp at zero; the same again with W2 (no dense bias); then the head × Wf + bf and a selection of 25000
  rows — computed by five launches (three row-blocked matrix products with a bias row, two row-blocked
  normalise-and-clamp kernels) among host stretches that do the aggregations and the statistics, against the same network
  written with host operations only.

  At the ideal instance the two programs are ONE function of the arguments (`Cert.Spec.refOut`):
    * a launch's row blocks tile its output array, and each block is the stage's own rows: a product rounded to a shorter
      format on the way in is the product (rounding is the identity on the extended reals), summed over the same 256
      terms; a bias given as a [1, C] row reads the same entry as the vector laid along the columns; the normalisation
      is the same expression entry by entry, with the same association, so no law of arithmetic is used beyond
      `x + 0 = x` for the second product's zero bias row;
    * the aggregations, the column means and the guarded column variances are the same host operations in both
      programs, applied to equal arrays.
  The precondition (finite inputs) is not used: nothing is rearranged across a sum.

  The three frames: the two kernel programs' are the generated ones; the reference's is its run with the result dropped.
  The idealisation rewrote no operation, so `preserves` is trivial.
-/
import proofs.«103152_j58858231824590_1_alg».proof.Defs
import proofs.«103152_j58858231824590_1_alg».proof.Proof.Gen.Kernel
import proofs.«103152_j58858231824590_1_alg».proof.Proof.Gen.Kernel.Frame
import proofs.«103152_j58858231824590_1_alg».proof.Proof.Gen.KernelIdeal
import proofs.«103152_j58858231824590_1_alg».proof.Proof.Gen.KernelIdeal.Frame
import proofs.«103152_j58858231824590_1_alg».proof.Proof.Gen.ReferenceIdeal
import proofs.«103152_j58858231824590_1_alg».proof.Proof.Gen.Pre_finite_inputs
import proofs.«103152_j58858231824590_1_alg».proof.Proof.KRun
import proofs.«103152_j58858231824590_1_alg».proof.Proof.Assemble
import proofs.«103152_j58858231824590_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- Both programs, from memories agreeing on the arguments, end with the network of the arguments in their result
    arrays. -/
theorem algebraic : Cert.algebraic_KernelIdeal_ReferenceIdeal := by
  intro m ρ m' ρ' _ hagree
  refine ⟨fun c => Cert.Spec.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.KernelIdeal.Assemble.result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RefRun.run m' ρ')
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
